-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x3 : Shape := ⟨2, ![500000, 3]⟩
abbrev S2x8000000 : Shape := ⟨2, ![2, 8000000]⟩
abbrev S500000 : Shape := ⟨1, ![500000]⟩
abbrev S3x16 : Shape := ⟨2, ![3, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x3 : Shape := ⟨2, ![64, 3]⟩
abbrev S3 : Shape := ⟨1, ![3]⟩
abbrev S_ : Shape := ⟨0, ![]⟩

class Facts : Prop where
  bcast_S_S500000x3 : S_.BroadcastsInDim S500000x3 (![] : Fin 0 → Fin S500000x3.rank)
  reducesTo_S500000x3_S_d0_1 : S500000x3.ReducesTo [0, 1] S_
  h_S_ : 0 < S_.numel
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x3 : S_.BroadcastsInDim S64x3 (![] : Fin 0 → Fin S64x3.rank)
  reducesTo_S64x3_S_d0_1 : S64x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg9 : FVec F S64x3 .f32) (main_arg10 : FVec F S3 .f32) (main_v33 : IVec S_ 1) : IVec S_ 1 :=
  let main_v34 : FVec F S64x3 .f32 := Host.absf main_arg9
  let main_cst_12 : FVec F S_ .f32 := constant S_ .f32 0x7F800000#32
  let main_v35 : FVec F S64x3 .f32 := broadcastInDim S64x3 ![] bcast_S_S64x3 main_cst_12
  let main_v36 : IVec S64x3 1 := cmpf .olt main_v34 main_v35
  let main_c_13 : IVec S_ 1 := constantI S_ 1 1#1
  let main_v37 : IVec S_ 1 := (fun x v => Host.reduce IntOp.andi x v reducesTo_S64x3_S_d0_1 h_S_) main_v36 main_c_13
  let main_v38 : IVec S_ 1 := andi main_v33 main_v37
  let main_v39 : FVec F S3 .f32 := Host.absf main_arg10
  let main_cst_14 : FVec F S_ .f32 := constant S_ .f32 0x7F800000#32
  let main_v40 : FVec F S3 .f32 := broadcastInDim S3 ![] bcast_S_S3 main_cst_14
  let main_v41 : IVec S3 1 := cmpf .olt main_v39 main_v40
  let main_c_15 : IVec S_ 1 := constantI S_ 1 1#1
  let main_v42 : IVec S_ 1 := (fun x v => Host.reduce IntOp.andi x v reducesTo_S3_S_d0 h_S_) main_v41 main_c_15
  let main_v43 : IVec S_ 1 := andi main_v38 main_v42
  main_v43

def fn_part1 {F : FTy → Type} [FloatOps F] (main_arg6 : FVec F S32 .f32) (main_arg7 : FVec F S32x64 .f32) (main_arg8 : FVec F S64 .f32) (main_arg9 : FVec F S64x3 .f32) (main_arg10 : FVec F S3 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x64 .f32 := Host.absf main_arg7
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_v33

def fn {F : FTy → Type} [FloatOps F] (main_arg0 : FVec F S500000x3 .f32) (main_arg1 : IVec S2x8000000 32) (main_arg2 : IVec S500000 32) (main_arg3 : FVec F S3x16 .f32) (main_arg4 : FVec F S16 .f32) (main_arg5 : FVec F S16x32 .f32) (main_arg6 : FVec F S32 .f32) (main_arg7 : FVec F S32x64 .f32) (main_arg8 : FVec F S64 .f32) (main_arg9 : FVec F S64x3 .f32) (main_arg10 : FVec F S3 .f32) : IVec S_ 1 :=
  let main_v0 : FVec F S500000x3 .f32 := Host.absf main_arg0
  let main_cst : FVec F S_ .f32 := constant S_ .f32 0x7F800000#32
  let main_v1 : FVec F S500000x3 .f32 := broadcastInDim S500000x3 ![] bcast_S_S500000x3 main_cst
  let main_v2 : IVec S500000x3 1 := cmpf .olt main_v0 main_v1
  let main_c : IVec S_ 1 := constantI S_ 1 1#1
  let main_v3 : IVec S_ 1 := (fun x v => Host.reduce IntOp.andi x v reducesTo_S500000x3_S_d0_1 h_S_) main_v2 main_c
  let main_v4 : FVec F S3x16 .f32 := Host.absf main_arg3
  let main_cst_0 : FVec F S_ .f32 := constant S_ .f32 0x7F800000#32
  let main_v5 : FVec F S3x16 .f32 := broadcastInDim S3x16 ![] bcast_S_S3x16 main_cst_0
  let main_v6 : IVec S3x16 1 := cmpf .olt main_v4 main_v5
  let main_c_1 : IVec S_ 1 := constantI S_ 1 1#1
  let main_v7 : IVec S_ 1 := (fun x v => Host.reduce IntOp.andi x v reducesTo_S3x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x32 .f32 := Host.absf main_arg5
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg6 main_arg7 main_arg8 main_arg9 main_arg10 main_v13 main_v16
-- ==== Kernel.lean ====
abbrev S500000x3 : Shape := ⟨2, ![500000, 3]⟩
abbrev S2x8000000 : Shape := ⟨2, ![2, 8000000]⟩
abbrev S500000 : Shape := ⟨1, ![500000]⟩
abbrev S3x16 : Shape := ⟨2, ![3, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x3 : Shape := ⟨2, ![64, 3]⟩
abbrev S3 : Shape := ⟨1, ![3]⟩
abbrev S1x8000000 : Shape := ⟨2, ![1, 8000000]⟩
abbrev S8000000 : Shape := ⟨1, ![8000000]⟩
abbrev S_ : Shape := ⟨0, ![]⟩
abbrev S8000000x1 : Shape := ⟨2, ![8000000, 1]⟩
abbrev S500000x1 : Shape := ⟨2, ![500000, 1]⟩
abbrev S500000x16 : Shape := ⟨2, ![500000, 16]⟩
abbrev S5000x3 : Shape := ⟨2, ![5000, 3]⟩
abbrev S5000x16 : Shape := ⟨2, ![5000, 16]⟩
abbrev S8000000x16 : Shape := ⟨2, ![8000000, 16]⟩
abbrev S8000x16 : Shape := ⟨2, ![8000, 16]⟩
abbrev S8000x1 : Shape := ⟨2, ![8000, 1]⟩
abbrev S1x16 : Shape := ⟨2, ![1, 16]⟩
abbrev S5000x1 : Shape := ⟨2, ![5000, 1]⟩
abbrev S500000x32 : Shape := ⟨2, ![500000, 32]⟩
abbrev S5000x32 : Shape := ⟨2, ![5000, 32]⟩
abbrev S8000000x32 : Shape := ⟨2, ![8000000, 32]⟩
abbrev S8000x32 : Shape := ⟨2, ![8000, 32]⟩
abbrev S1x32 : Shape := ⟨2, ![1, 32]⟩
abbrev S512x32 : Shape := ⟨2, ![512, 32]⟩
abbrev S512 : Shape := ⟨1, ![512]⟩
abbrev S512x1 : Shape := ⟨2, ![512, 1]⟩
abbrev S1x64 : Shape := ⟨2, ![1, 64]⟩
abbrev S1x3 : Shape := ⟨2, ![1, 3]⟩
abbrev S512x3 : Shape := ⟨2, ![512, 3]⟩
abbrev S512x64 : Shape := ⟨2, ![512, 64]⟩

abbrev nBuf : Space → Nat
  | .hbm => 100
  | .vmem => 50
  | .smem => 0
  | _ => 0

abbrev bufTy : (tb : Table) → Fin (tcTables nBuf tb) → BufTy
  | .hbm, ⟨0, _⟩ => ⟨S500000x3, .f32⟩
  | .hbm, ⟨1, _⟩ => ⟨S2x8000000, .i32⟩
  | .hbm, ⟨2, _⟩ => ⟨S500000, .i32⟩
  | .hbm, ⟨3, _⟩ => ⟨S3x16, .f32⟩
  | .hbm, ⟨4, _⟩ => ⟨S16, .f32⟩
  | .hbm, ⟨5, _⟩ => ⟨S16x32, .f32⟩
  | .hbm, ⟨6, _⟩ => ⟨S32, .f32⟩
  | .hbm, ⟨7, _⟩ => ⟨S32x64, .f32⟩
  | .hbm, ⟨8, _⟩ => ⟨S64, .f32⟩
  | .hbm, ⟨9, _⟩ => ⟨S64x3, .f32⟩
  | .hbm, ⟨10, _⟩ => ⟨S3, .f32⟩
  | .hbm, ⟨11, _⟩ => ⟨S1x8000000, .i32⟩
  | .hbm, ⟨12, _⟩ => ⟨S8000000, .i32⟩
  | .hbm, ⟨13, _⟩ => ⟨S1x8000000, .i32⟩
  | .hbm, ⟨14, _⟩ => ⟨S8000000, .i32⟩
  | .hbm, ⟨15, _⟩ => ⟨S_, .f32⟩
  | .hbm, ⟨16, _⟩ => ⟨S8000000, .f32⟩
  | .hbm, ⟨17, _⟩ => ⟨S_, .f32⟩
  | .hbm, ⟨18, _⟩ => ⟨S500000, .f32⟩
  | .hbm, ⟨19, _⟩ => ⟨S8000000x1, .i32⟩
  | .hbm, ⟨20, _⟩ => ⟨S500000, .f32⟩
  | .hbm, ⟨21, _⟩ => ⟨S_, .f32⟩
  | .hbm, ⟨22, _⟩ => ⟨S500000, .f32⟩
  | .hbm, ⟨23, _⟩ => ⟨S500000, .f32⟩
  | .hbm, ⟨24, _⟩ => ⟨S500000, .f32⟩
  | .hbm, ⟨25, _⟩ => ⟨S500000, .f32⟩
  | .hbm, ⟨26, _⟩ => ⟨S500000x1, .f32⟩
  | .hbm, ⟨27, _⟩ => ⟨S_, .i32⟩
  | .hbm, ⟨28, _⟩ => ⟨S8000000, .i32⟩
  | .hbm, ⟨29, _⟩ => ⟨S8000000, .i1⟩
  | .hbm, ⟨30, _⟩ => ⟨S_, .i32⟩
  | .hbm, ⟨31, _⟩ => ⟨S8000000, .i32⟩
  | .hbm, ⟨32, _⟩ => ⟨S8000000, .i32⟩
  | .hbm, ⟨33, _⟩ => ⟨S8000000, .i32⟩
  | .hbm, ⟨34, _⟩ => ⟨S8000000x1, .i32⟩
  | .hbm, ⟨35, _⟩ => ⟨S8000000, .f32⟩
  | .hbm, ⟨36, _⟩ => ⟨S8000000x1, .f32⟩
  | .hbm, ⟨37, _⟩ => ⟨S_, .i32⟩
  | .hbm, ⟨38, _⟩ => ⟨S8000000, .i32⟩
  | .hbm, ⟨39, _⟩ => ⟨S8000000, .i1⟩
  | .hbm, ⟨40, _⟩ => ⟨S_, .i32⟩
  | .hbm, ⟨41, _⟩ => ⟨S8000000, .i32⟩
  | .hbm, ⟨42, _⟩ => ⟨S8000000, .i32⟩
  | .hbm, ⟨43, _⟩ => ⟨S8000000, .i32⟩
  | .hbm, ⟨44, _⟩ => ⟨S8000000x1, .i32⟩
  | .hbm, ⟨45, _⟩ => ⟨S8000000, .f32⟩
  | .hbm, ⟨46, _⟩ => ⟨S8000000x1, .f32⟩
  | .hbm, ⟨47, _⟩ => ⟨S500000x16, .f32⟩
  | .hbm, ⟨48, _⟩ => ⟨S_, .i32⟩
  | .hbm, ⟨49, _⟩ => ⟨S8000000, .i32⟩
  | .hbm, ⟨50, _⟩ => ⟨S8000000, .i1⟩
  | .hbm, ⟨51, _⟩ => ⟨S_, .i32⟩
  | .hbm, ⟨52, _⟩ => ⟨S8000000, .i32⟩
  | .hbm, ⟨53, _⟩ => ⟨S8000000, .i32⟩
  | .hbm, ⟨54, _⟩ => ⟨S8000000, .i32⟩
  | .hbm, ⟨55, _⟩ => ⟨S8000000x1, .i32⟩
  | .hbm, ⟨56, _⟩ => ⟨S8000000x16, .f32⟩
  | .hbm, ⟨57, _⟩ => ⟨S8000000x16, .f32⟩
  | .hbm, ⟨58, _⟩ => ⟨S_, .f32⟩
  | .hbm, ⟨59, _⟩ => ⟨S500000x16, .f32⟩
  | .hbm, ⟨60, _⟩ => ⟨S8000000x1, .i32⟩
  | .hbm, ⟨61, _⟩ => ⟨S500000x16, .f32⟩
  | .hbm, ⟨62, _⟩ => ⟨S1x16, .f32⟩
  | .hbm, ⟨63, _⟩ => ⟨S500000x16, .f32⟩
  | .hbm, ⟨64, _⟩ => ⟨S500000x32, .f32⟩
  | .hbm, ⟨65, _⟩ => ⟨S_, .i32⟩
  | .hbm, ⟨66, _⟩ => ⟨S8000000, .i32⟩
  | .hbm, ⟨67, _⟩ => ⟨S8000000, .i1⟩
  | .hbm, ⟨68, _⟩ => ⟨S_, .i32⟩
  | .hbm, ⟨69, _⟩ => ⟨S8000000, .i32⟩
  | .hbm, ⟨70, _⟩ => ⟨S8000000, .i32⟩
  | .hbm, ⟨71, _⟩ => ⟨S8000000, .i32⟩
  | .hbm, ⟨72, _⟩ => ⟨S8000000x1, .i32⟩
  | .hbm, ⟨73, _⟩ => ⟨S8000000x32, .f32⟩
  | .hbm, ⟨74, _⟩ => ⟨S8000000x32, .f32⟩
  | .hbm, ⟨75, _⟩ => ⟨S_, .f32⟩
  | .hbm, ⟨76, _⟩ => ⟨S500000x32, .f32⟩
  | .hbm, ⟨77, _⟩ => ⟨S8000000x1, .i32⟩
  | .hbm, ⟨78, _⟩ => ⟨S500000x32, .f32⟩
  | .hbm, ⟨79, _⟩ => ⟨S1x32, .f32⟩
  | .hbm, ⟨80, _⟩ => ⟨S500000x32, .f32⟩
  | .hbm, ⟨81, _⟩ => ⟨S_, .f32⟩
  | .hbm, ⟨82, _⟩ => ⟨S512x32, .f32⟩
  | .hbm, ⟨83, _⟩ => ⟨S500000x1, .i32⟩
  | .hbm, ⟨84, _⟩ => ⟨S512x32, .f32⟩
  | .hbm, ⟨85, _⟩ => ⟨S_, .f32⟩
  | .hbm, ⟨86, _⟩ => ⟨S500000, .f32⟩
  | .hbm, ⟨87, _⟩ => ⟨S_, .f32⟩
  | .hbm, ⟨88, _⟩ => ⟨S512, .f32⟩
  | .hbm, ⟨89, _⟩ => ⟨S500000x1, .i32⟩
  | .hbm, ⟨90, _⟩ => ⟨S512, .f32⟩
  | .hbm, ⟨91, _⟩ => ⟨S_, .f32⟩
  | .hbm, ⟨92, _⟩ => ⟨S512, .f32⟩
  | .hbm, ⟨93, _⟩ => ⟨S512, .f32⟩
  | .hbm, ⟨94, _⟩ => ⟨S512x1, .f32⟩
  | .hbm, ⟨95, _⟩ => ⟨S512x32, .f32⟩
  | .hbm, ⟨96, _⟩ => ⟨S512x32, .f32⟩
  | .hbm, ⟨97, _⟩ => ⟨S1x64, .f32⟩
  | .hbm, ⟨98, _⟩ => ⟨S1x3, .f32⟩
  | .hbm, ⟨99, _⟩ => ⟨S512x3, .f32⟩
  | .local _ .vmem, ⟨0, _⟩ => ⟨S5000x3, .f32⟩
  | .local _ .vmem, ⟨1, _⟩ => ⟨S5000x3, .f32⟩
  | .local _ .vmem, ⟨2, _⟩ => ⟨S3x16, .f32⟩
  | .local _ .vmem, ⟨3, _⟩ => ⟨S5000x16, .f32⟩
  | .local _ .vmem, ⟨4, _⟩ => ⟨S5000x16, .f32⟩
  | .local _ .vmem, ⟨5, _⟩ => ⟨S8000x16, .f32⟩
  | .local _ .vmem, ⟨6, _⟩ => ⟨S8000x16, .f32⟩
  | .local _ .vmem, ⟨7, _⟩ => ⟨S8000x1, .f32⟩
  | .local _ .vmem, ⟨8, _⟩ => ⟨S8000x1, .f32⟩
  | .local _ .vmem, ⟨9, _⟩ => ⟨S8000x1, .f32⟩
  | .local _ .vmem, ⟨10, _⟩ => ⟨S8000x1, .f32⟩
  | .local _ .vmem, ⟨11, _⟩ => ⟨S8000x16, .f32⟩
  | .local _ .vmem, ⟨12, _⟩ => ⟨S8000x16, .f32⟩
  | .local _ .vmem, ⟨13, _⟩ => ⟨S5000x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S5000x1, .f32⟩
  | .local _ .vmem, ⟨18, _⟩ => ⟨S5000x1, .f32⟩
  | .local _ .vmem, ⟨19, _⟩ => ⟨S1x16, .f32⟩
  | .local _ .vmem, ⟨20, _⟩ => ⟨S5000x16, .f32⟩
  | .local _ .vmem, ⟨21, _⟩ => ⟨S5000x16, .f32⟩
  | .local _ .vmem, ⟨22, _⟩ => ⟨S5000x16, .f32⟩
  | .local _ .vmem, ⟨23, _⟩ => ⟨S5000x16, .f32⟩
  | .local _ .vmem, ⟨24, _⟩ => ⟨S16x32, .f32⟩
  | .local _ .vmem, ⟨25, _⟩ => ⟨S5000x32, .f32⟩
  | .local _ .vmem, ⟨26, _⟩ => ⟨S5000x32, .f32⟩
  | .local _ .vmem, ⟨27, _⟩ => ⟨S8000x32, .f32⟩
  | .local _ .vmem, ⟨28, _⟩ => ⟨S8000x32, .f32⟩
  | .local _ .vmem, ⟨29, _⟩ => ⟨S8000x1, .f32⟩
  | .local _ .vmem, ⟨30, _⟩ => ⟨S8000x1, .f32⟩
  | .local _ .vmem, ⟨31, _⟩ => ⟨S8000x1, .f32⟩
  | .local _ .vmem, ⟨32, _⟩ => ⟨S8000x1, .f32⟩
  | .local _ .vmem, ⟨33, _⟩ => ⟨S8000x32, .f32⟩
  | .local _ .vmem, ⟨34, _⟩ => ⟨S8000x32, .f32⟩
  | .local _ .vmem, ⟨35, _⟩ => ⟨S5000x32, .f32⟩
  | .local _ .vmem, ⟨36, _⟩ => ⟨S5000x32, .f32⟩
  | .local _ .vmem, ⟨37, _⟩ => ⟨S5000x32, .f32⟩
  | .local _ .vmem, ⟨38, _⟩ => ⟨S5000x32, .f32⟩
  | .local _ .vmem, ⟨39, _⟩ => ⟨S5000x1, .f32⟩
  | .local _ .vmem, ⟨40, _⟩ => ⟨S5000x1, .f32⟩
  | .local _ .vmem, ⟨41, _⟩ => ⟨S1x32, .f32⟩
  | .local _ .vmem, ⟨42, _⟩ => ⟨S5000x32, .f32⟩
  | .local _ .vmem, ⟨43, _⟩ => ⟨S5000x32, .f32⟩
  | .local _ .vmem, ⟨44, _⟩ => ⟨S512x32, .f32⟩
  | .local _ .vmem, ⟨45, _⟩ => ⟨S32x64, .f32⟩
  | .local _ .vmem, ⟨46, _⟩ => ⟨S1x64, .f32⟩
  | .local _ .vmem, ⟨47, _⟩ => ⟨S64x3, .f32⟩
  | .local _ .vmem, ⟨48, _⟩ => ⟨S1x3, .f32⟩
  | .local _ .vmem, ⟨49, _⟩ => ⟨S512x3, .f32⟩
  | _, _ => ⟨S500000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_c_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_8 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_cst_13 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_14 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg2_1 : Ref sig .tc := ⟨.vmem, 40, rfl⟩
abbrev cc5_stg3_0 : Ref sig .tc := ⟨.vmem, 41, rfl⟩
abbrev cc5_stg4_0 : Ref sig .tc := ⟨.vmem, 42, rfl⟩
abbrev cc5_stg4_1 : Ref sig .tc := ⟨.vmem, 43, rfl⟩
abbrev cc6_stg0_0 : Ref sig .tc := ⟨.vmem, 44, rfl⟩
abbrev cc6_stg1_0 : Ref sig .tc := ⟨.vmem, 45, rfl⟩
abbrev cc6_stg2_0 : Ref sig .tc := ⟨.vmem, 46, rfl⟩
abbrev cc6_stg3_0 : Ref sig .tc := ⟨.vmem, 47, rfl⟩
abbrev cc6_stg4_0 : Ref sig .tc := ⟨.vmem, 48, rfl⟩
abbrev cc6_stg5_0 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem2_1 : DmaSem sig := 40
abbrev cc5_sem3_0 : DmaSem sig := 41
abbrev cc5_sem4_0 : DmaSem sig := 42
abbrev cc5_sem4_1 : DmaSem sig := 43
abbrev cc6_sem0_0 : DmaSem sig := 44
abbrev cc6_sem1_0 : DmaSem sig := 45
abbrev cc6_sem2_0 : DmaSem sig := 46
abbrev cc6_sem3_0 : DmaSem sig := 47
abbrev cc6_sem4_0 : DmaSem sig := 48
abbrev cc6_sem5_0 : DmaSem sig := 49

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1000], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![1000], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S8000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![100], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x32 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x32 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x32 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S32x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x3 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x3 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S512x3 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x8000000_S1x8000000_0_0 : S2x8000000.Slices ![0, 0] S1x8000000
  shapeCasts_S1x8000000_S8000000 : S1x8000000.ShapeCasts S8000000
  slices_S2x8000000_S1x8000000_1_0 : S2x8000000.Slices ![1, 0] S1x8000000
  bcast_S_S8000000 : S_.BroadcastsInDim S8000000 (![] : Fin 0 → Fin S8000000.rank)
  bcast_S_S500000 : S_.BroadcastsInDim S500000 (![] : Fin 0 → Fin S500000.rank)
  bcast_S8000000_S8000000x1_0 : S8000000.BroadcastsInDim S8000000x1 (![0] : Fin 1 → Fin S8000000x1.rank)
  shapeCasts_S500000_S500000x1 : S500000.ShapeCasts S500000x1
  shapeCasts_S8000000_S8000000x1 : S8000000.ShapeCasts S8000000x1
  inb_S5000x3_S5000x3_0_0 : ∀ a, (![0, 0] : Fin 2 → Nat) a + S5000x3.size a ≤ S5000x3.size a
  h_S5000x3 : 0 < S5000x3.numel
  bitsLt_bf16_f32 : FTy.bits .bf16 < FTy.bits .f32
  inb_S3x16_S3x16_0_0 : ∀ a, (![0, 0] : Fin 2 → Nat) a + S3x16.size a ≤ S3x16.size a
  h_S3x16 : 0 < S3x16.numel
  inb_S5000x16_S5000x16_0_0 : ∀ a, (![0, 0] : Fin 2 → Nat) a + S5000x16.size a ≤ S5000x16.size a
  h_S5000x16 : 0 < S5000x16.numel
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  inb_S8000x16_S8000x16_0_0 : ∀ a, (![0, 0] : Fin 2 → Nat) a + S8000x16.size a ≤ S8000x16.size a
  h_S8000x16 : 0 < S8000x16.numel
  shapeCasts_S8000x16_S8000x16 : S8000x16.ShapeCasts S8000x16
  broadcasts_S8000x1_S8000x16 : S8000x1.Broadcasts S8000x16
  bcast_S_S500000x16 : S_.BroadcastsInDim S500000x16 (![] : Fin 0 → Fin S500000x16.rank)
  shapeCasts_S16_S1x16 : S16.ShapeCasts S1x16
  shapeCasts_S5000x16_S5000x16 : S5000x16.ShapeCasts S5000x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x32_S16x32_0_0 : ∀ a, (![0, 0] : Fin 2 → Nat) a + S16x32.size a ≤ S16x32.size a
  h_S16x32 : 0 < S16x32.numel
  inb_S5000x32_S5000x32_0_0 : ∀ a, (![0, 0] : Fin 2 → Nat) a + S5000x32.size a ≤ S5000x32.size a
  h_S5000x32 : 0 < S5000x32.numel
  inb_S8000x32_S8000x32_0_0 : ∀ a, (![0, 0] : Fin 2 → Nat) a + S8000x32.size a ≤ S8000x32.size a
  h_S8000x32 : 0 < S8000x32.numel
  shapeCasts_S8000x32_S8000x32 : S8000x32.ShapeCasts S8000x32
  broadcasts_S8000x1_S8000x32 : S8000x1.Broadcasts S8000x32
  bcast_S_S500000x32 : S_.BroadcastsInDim S500000x32 (![] : Fin 0 → Fin S500000x32.rank)
  shapeCasts_S32_S1x32 : S32.ShapeCasts S1x32
  shapeCasts_S5000x32_S5000x32 : S5000x32.ShapeCasts S5000x32
  broadcasts_S5000x1_S5000x32 : S5000x1.Broadcasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  bcast_S_S512x32 : S_.BroadcastsInDim S512x32 (![] : Fin 0 → Fin S512x32.rank)
  bcast_S500000_S500000x1_0 : S500000.BroadcastsInDim S500000x1 (![0] : Fin 1 → Fin S500000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x32_0_1 : S512x1.BroadcastsInDim S512x32 (![0, 1] : Fin 2 → Fin S512x32.rank)
  shapeCasts_S64_S1x64 : S64.ShapeCasts S1x64
  shapeCasts_S3_S1x3 : S3.ShapeCasts S1x3
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S64x3_S64x3_0_0 : ∀ a, (![0, 0] : Fin 2 → Nat) a + S64x3.size a ≤ S64x3.size a
  h_S64x3 : 0 < S64x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S512x3 : S1x3.Broadcasts S512x3
  reduces_S512x3_S512 : S512x3.Reduces [1] S512
  shapeCasts_S512_S512x1 : S512.ShapeCasts S512x1
  broadcasts_S512x1_S512x3 : S512x1.Broadcasts S512x3
  inb_S512x3_S512x3_0_0 : ∀ a, (![0, 0] : Fin 2 → Nat) a + S512x3.size a ≤ S512x3.size a
  h_S512x3 : 0 < S512x3.numel
  scatter_S500000_S8000000x1_S8000000_n_0_0_1_wf : ScatterDims.WF S500000 S8000000x1 S8000000 [] [0] [0] 1
  gather_S500000_S8000000x1_S8000000_n_0_n_n_0_1_1_wf : GatherDims.WF S500000 S8000000x1 S8000000 [] [0] [] [0] [] 1 ![1]
  dot_S5000x3_S3x16_S5000x16_1_0_0_1_n_n_wf : DotDims.WF S5000x3 S3x16 S5000x16 [1] [0] [0] [1] [] []
  gather_S500000x16_S8000000x1_S8000000x16_1_0_n_n_0_1_116_wf : GatherDims.WF S500000x16 S8000000x1 S8000000x16 [1] [0] [] [0] [] 1 ![1, 16]
  scatter_S500000x16_S8000000x1_S8000000x16_1_0_0_1_wf : ScatterDims.WF S500000x16 S8000000x1 S8000000x16 [1] [0] [0] 1
  dot_S5000x16_S16x32_S5000x32_1_0_0_1_n_n_wf : DotDims.WF S5000x16 S16x32 S5000x32 [1] [0] [0] [1] [] []
  gather_S500000x32_S8000000x1_S8000000x32_1_0_n_n_0_1_132_wf : GatherDims.WF S500000x32 S8000000x1 S8000000x32 [1] [0] [] [0] [] 1 ![1, 32]
  scatter_S500000x32_S8000000x1_S8000000x32_1_0_0_1_wf : ScatterDims.WF S500000x32 S8000000x1 S8000000x32 [1] [0] [0] 1
  scatter_S512x32_S500000x1_S500000x32_1_0_0_1_wf : ScatterDims.WF S512x32 S500000x1 S500000x32 [1] [0] [0] 1
  scatter_S512_S500000x1_S500000_n_0_0_1_wf : ScatterDims.WF S512 S500000x1 S500000 [] [0] [0] 1
  dot_S512x32_S32x64_S512x64_1_0_0_1_n_n_wf : DotDims.WF S512x32 S32x64 S512x64 [1] [0] [0] [1] [] []
  dot_S512x64_S64x3_S512x3_1_0_0_1_n_n_wf : DotDims.WF S512x64 S64x3 S512x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S500000x3.size a
  hwx0_0 : ∀ i : grid0.Coords, EltTy.bits .f32 = 32 ∨ (Rect.block (s := S500000x3) S5000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x16.size a ≤ S3x16.size a
  hwx0_1 : ∀ i : grid0.Coords, EltTy.bits .f32 = 32 ∨ (Rect.block (s := S3x16) S3x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S500000x16.size a
  hwx0_2 : ∀ i : grid0.Coords, EltTy.bits .f32 = 32 ∨ (Rect.block (s := S500000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x16.size a ≤ S8000000x16.size a
  hwx1_0 : ∀ i : grid1.Coords, EltTy.bits .f32 = 32 ∨ (Rect.block (s := S8000000x16) S8000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S8000000x1.size a
  hwx1_1 : ∀ i : grid1.Coords, EltTy.bits .f32 = 32 ∨ (Rect.block (s := S8000000x1) S8000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x1.size a ≤ S8000000x1.size a
  hwx1_2 : ∀ i : grid1.Coords, EltTy.bits .f32 = 32 ∨ (Rect.block (s := S8000000x1) S8000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x16.size a ≤ S8000000x16.size a
  hwx1_3 : ∀ i : grid1.Coords, EltTy.bits .f32 = 32 ∨ (Rect.block (s := S8000000x16) S8000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S500000x16.size a
  hwx2_0 : ∀ i : grid2.Coords, EltTy.bits .f32 = 32 ∨ (Rect.block (s := S500000x16) S5000x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x16.size a ≤ S500000x16.size a
  hwx2_1 : ∀ i : grid2.Coords, EltTy.bits .f32 = 32 ∨ (Rect.block (s := S500000x16) S5000x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S500000x1.size a
  hwx2_2 : ∀ i : grid2.Coords, EltTy.bits .f32 = 32 ∨ (Rect.block (s := S500000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x16.size a ≤ S1x16.size a
  hwx2_3 : ∀ i : grid2.Coords, EltTy.bits .f32 = 32 ∨ (Rect.block (s := S1x16) S1x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x16.size a ≤ S500000x16.size a
  hwx2_4 : ∀ i : grid2.Coords, EltTy.bits .f32 = 32 ∨ (Rect.block (s := S500000x16) S5000x16.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S500000x16.size a
  hwx3_0 : ∀ i : grid3.Coords, EltTy.bits .f32 = 32 ∨ (Rect.block (s := S500000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x32.size a ≤ S16x32.size a
  hwx3_1 : ∀ i : grid3.Coords, EltTy.bits .f32 = 32 ∨ (Rect.block (s := S16x32) S16x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S500000x32.size a
  hwx3_2 : ∀ i : grid3.Coords, EltTy.bits .f32 = 32 ∨ (Rect.block (s := S500000x32) S5000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x32.size a ≤ S8000000x32.size a
  hwx4_0 : ∀ i : grid4.Coords, EltTy.bits .f32 = 32 ∨ (Rect.block (s := S8000000x32) S8000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x1.size a ≤ S8000000x1.size a
  hwx4_1 : ∀ i : grid4.Coords, EltTy.bits .f32 = 32 ∨ (Rect.block (s := S8000000x1) S8000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x1.size a ≤ S8000000x1.size a
  hwx4_2 : ∀ i : grid4.Coords, EltTy.bits .f32 = 32 ∨ (Rect.block (s := S8000000x1) S8000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8000x32.size a ≤ S8000000x32.size a
  hwx4_3 : ∀ i : grid4.Coords, EltTy.bits .f32 = 32 ∨ (Rect.block (s := S8000000x32) S8000x32.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S500000x32.size a
  hwx5_0 : ∀ i : grid5.Coords, EltTy.bits .f32 = 32 ∨ (Rect.block (s := S500000x32) S5000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x32.size a ≤ S500000x32.size a
  hwx5_1 : ∀ i : grid5.Coords, EltTy.bits .f32 = 32 ∨ (Rect.block (s := S500000x32) S5000x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S500000x1.size a
  hwx5_2 : ∀ i : grid5.Coords, EltTy.bits .f32 = 32 ∨ (Rect.block (s := S500000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x32.size a ≤ S1x32.size a
  hwx5_3 : ∀ i : grid5.Coords, EltTy.bits .f32 = 32 ∨ (Rect.block (s := S1x32) S1x32.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x32.size a ≤ S500000x32.size a
  hwx5_4 : ∀ i : grid5.Coords, EltTy.bits .f32 = 32 ∨ (Rect.block (s := S500000x32) S5000x32.size (cc5_transform_4 i) (hinb5_4 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x32.size a ≤ S512x32.size a
  hwx6_0 : ∀ i : grid6.Coords, EltTy.bits .f32 = 32 ∨ (Rect.block (s := S512x32) S512x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x64.size a ≤ S32x64.size a
  hwx6_1 : ∀ i : grid6.Coords, EltTy.bits .f32 = 32 ∨ (Rect.block (s := S32x64) S32x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x3.size a ≤ S64x3.size a
  hwx6_3 : ∀ i : grid6.Coords, EltTy.bits .f32 = 32 ∨ (Rect.block (s := S64x3) S64x3.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x3.size a ≤ S1x3.size a
  hwx6_4 : ∀ i : grid6.Coords, EltTy.bits .f32 = 32 ∨ (Rect.block (s := S1x3) S1x3.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S512x3.size a ≤ S512x3.size a
  hwx6_5 : ∀ i : grid6.Coords, EltTy.bits .f32 = 32 ∨ (Rect.block (s := S512x3) S512x3.size (cc6_transform_5 i) (hinb6_5 i)).WholeWords (EltTy.packing .f32)

variable [Facts₀]

def scatter_S500000_S8000000x1_S8000000_n_0_0_1 : ScatterDims S500000 S8000000x1 S8000000 where
  updateWindowDims := []
  insertedWindowDims := [0]
  scatterDimsToOperandDims := [0]
  indexVectorDim := 1
  wf := scatter_S500000_S8000000x1_S8000000_n_0_0_1_wf
def gather_S500000_S8000000x1_S8000000_n_0_n_n_0_1_1 : GatherDims S500000 S8000000x1 S8000000 where
  offsetDims := []
  collapsedSliceDims := [0]
  operandBatchingDims := []
  startIndicesBatchingDims := []
  startIndexMap := [0]
  indexVectorDim := 1
  sliceSizes := ![1]
  wf := gather_S500000_S8000000x1_S8000000_n_0_n_n_0_1_1_wf
def dot_S5000x3_S3x16_S5000x16_1_0_0_1_n_n : DotDims S5000x3 S3x16 S5000x16 where
  lhsContracting := [1]
  rhsContracting := [0]
  lhsNonContracting := [0]
  rhsNonContracting := [1]
  lhsBatch := []
  rhsBatch := []
  wf := dot_S5000x3_S3x16_S5000x16_1_0_0_1_n_n_wf
def gather_S500000x16_S8000000x1_S8000000x16_1_0_n_n_0_1_116 : GatherDims S500000x16 S8000000x1 S8000000x16 where
  offsetDims := [1]
  collapsedSliceDims := [0]
  operandBatchingDims := []
  startIndicesBatchingDims := []
  startIndexMap := [0]
  indexVectorDim := 1
  sliceSizes := ![1, 16]
  wf := gather_S500000x16_S8000000x1_S8000000x16_1_0_n_n_0_1_116_wf
def scatter_S500000x16_S8000000x1_S8000000x16_1_0_0_1 : ScatterDims S500000x16 S8000000x1 S8000000x16 where
  updateWindowDims := [1]
  insertedWindowDims := [0]
  scatterDimsToOperandDims := [0]
  indexVectorDim := 1
  wf := scatter_S500000x16_S8000000x1_S8000000x16_1_0_0_1_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf
def gather_S500000x32_S8000000x1_S8000000x32_1_0_n_n_0_1_132 : GatherDims S500000x32 S8000000x1 S8000000x32 where
  offsetDims := [1]
  collapsedSliceDims := [0]
  operandBatchingDims := []
  startIndicesBatchingDims := []
  startIndexMap := [0]
  indexVectorDim := 1
  sliceSizes := ![1, 32]
  wf := gather_S500000x32_S8000000x1_S8000000x32_1_0_n_n_0_1_132_wf
def scatter_S500000x32_S8000000x1_S8000000x32_1_0_0_1 : ScatterDims S500000x32 S8000000x1 S8000000x32 where
  updateWindowDims := [1]
  insertedWindowDims := [0]
  scatterDimsToOperandDims := [0]
  indexVectorDim := 1
  wf := scatter_S500000x32_S8000000x1_S8000000x32_1_0_0_1_wf
def scatter_S512x32_S500000x1_S500000x32_1_0_0_1 : ScatterDims S512x32 S500000x1 S500000x32 where
  updateWindowDims := [1]
  insertedWindowDims := [0]
  scatterDimsToOperandDims := [0]
  indexVectorDim := 1
  wf := scatter_S512x32_S500000x1_S500000x32_1_0_0_1_wf
def scatter_S512_S500000x1_S500000_n_0_0_1 : ScatterDims S512 S500000x1 S500000 where
  updateWindowDims := []
  insertedWindowDims := [0]
  scatterDimsToOperandDims := [0]
  indexVectorDim := 1
  wf := scatter_S512_S500000x1_S500000_n_0_0_1_wf
def dot_S512x32_S32x64_S512x64_1_0_0_1_n_n : DotDims S512x32 S32x64 S512x64 where
  lhsContracting := [1]
  rhsContracting := [0]
  lhsNonContracting := [0]
  rhsNonContracting := [1]
  lhsBatch := []
  rhsBatch := []
  wf := dot_S512x32_S32x64_S512x64_1_0_0_1_n_n_wf
def dot_S512x64_S64x3_S512x3_1_0_0_1_n_n : DotDims S512x64 S64x3 S512x3 where
  lhsContracting := [1]
  rhsContracting := [0]
  lhsNonContracting := [0]
  rhsNonContracting := [1]
  lhsBatch := []
  rhsBatch := []
  wf := dot_S512x64_S64x3_S512x3_1_0_0_1_n_n_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v36) S8000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S8000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S8000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v40) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S5000x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v41) S1x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S5000x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v42) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S16x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v43) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v50) S8000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v20) S8000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v28) S8000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v51) S8000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v54) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v43) S5000x32.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v12) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v55) S1x32.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v56) S5000x32.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v68) S512x32.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg7) S32x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v69) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg9) S64x3.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v70) S1x3.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v71) S512x3.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S500000x3 : Shape := ⟨2, ![500000, 3]⟩
abbrev S2x8000000 : Shape := ⟨2, ![2, 8000000]⟩
abbrev S500000 : Shape := ⟨1, ![500000]⟩
abbrev S3x16 : Shape := ⟨2, ![3, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x3 : Shape := ⟨2, ![64, 3]⟩
abbrev S3 : Shape := ⟨1, ![3]⟩
abbrev S1x8000000 : Shape := ⟨2, ![1, 8000000]⟩
abbrev S8000000 : Shape := ⟨1, ![8000000]⟩
abbrev S500000x16 : Shape := ⟨2, ![500000, 16]⟩
abbrev S_ : Shape := ⟨0, ![]⟩
abbrev S8000000x1 : Shape := ⟨2, ![8000000, 1]⟩
abbrev S8000000x16 : Shape := ⟨2, ![8000000, 16]⟩
abbrev S500000x1 : Shape := ⟨2, ![500000, 1]⟩
abbrev S1x16 : Shape := ⟨2, ![1, 16]⟩
abbrev S500000x32 : Shape := ⟨2, ![500000, 32]⟩
abbrev S8000000x32 : Shape := ⟨2, ![8000000, 32]⟩
abbrev S1x32 : Shape := ⟨2, ![1, 32]⟩
abbrev S512x32 : Shape := ⟨2, ![512, 32]⟩
abbrev S512 : Shape := ⟨1, ![512]⟩
abbrev S512x1 : Shape := ⟨2, ![512, 1]⟩
abbrev S512x64 : Shape := ⟨2, ![512, 64]⟩
abbrev S1x64 : Shape := ⟨2, ![1, 64]⟩
abbrev S512x3 : Shape := ⟨2, ![512, 3]⟩
abbrev S1x3 : Shape := ⟨2, ![1, 3]⟩

abbrev nBuf : Space → Nat
  | .hbm => 175
  | .vmem => 0
  | .smem => 0
  | _ => 0

abbrev hbmTy0_0 (i : Nat) : BufTy := match i % 128 with
  | 0 => ⟨S500000x3, .f32⟩
  | 1 => ⟨S2x8000000, .i32⟩
  | 2 => ⟨S500000, .i32⟩
  | 3 => ⟨S3x16, .f32⟩
  | 4 => ⟨S16, .f32⟩
  | 5 => ⟨S16x32, .f32⟩
  | 6 => ⟨S32, .f32⟩
  | 7 => ⟨S32x64, .f32⟩
  | 8 => ⟨S64, .f32⟩
  | 9 => ⟨S64x3, .f32⟩
  | 10 => ⟨S3, .f32⟩
  | 11 => ⟨S1x8000000, .i32⟩
  | 12 => ⟨S8000000, .i32⟩
  | 13 => ⟨S1x8000000, .i32⟩
  | 14 => ⟨S8000000, .i32⟩
  | 15 => ⟨S500000x16, .f32⟩
  | 16 => ⟨S_, .f32⟩
  | 17 => ⟨S8000000, .f32⟩
  | 18 => ⟨S_, .f32⟩
  | 19 => ⟨S500000, .f32⟩
  | 20 => ⟨S8000000x1, .i32⟩
  | 21 => ⟨S500000, .f32⟩
  | 22 => ⟨S_, .f32⟩
  | 23 => ⟨S500000, .f32⟩
  | 24 => ⟨S500000, .f32⟩
  | 25 => ⟨S500000, .f32⟩
  | 26 => ⟨S_, .i32⟩
  | 27 => ⟨S8000000, .i32⟩
  | 28 => ⟨S8000000, .i1⟩
  | 29 => ⟨S_, .i32⟩
  | 30 => ⟨S8000000, .i32⟩
  | 31 => ⟨S8000000, .i32⟩
  | 32 => ⟨S8000000, .i32⟩
  | 33 => ⟨S8000000x1, .i32⟩
  | 34 => ⟨S8000000, .f32⟩
  | 35 => ⟨S_, .i32⟩
  | 36 => ⟨S8000000, .i32⟩
  | 37 => ⟨S8000000, .i1⟩
  | 38 => ⟨S_, .i32⟩
  | 39 => ⟨S8000000, .i32⟩
  | 40 => ⟨S8000000, .i32⟩
  | 41 => ⟨S8000000, .i32⟩
  | 42 => ⟨S8000000x1, .i32⟩
  | 43 => ⟨S8000000, .f32⟩
  | 44 => ⟨S8000000, .f32⟩
  | 45 => ⟨S8000000x1, .f32⟩
  | 46 => ⟨S_, .i32⟩
  | 47 => ⟨S8000000, .i32⟩
  | 48 => ⟨S8000000, .i1⟩
  | 49 => ⟨S_, .i32⟩
  | 50 => ⟨S8000000, .i32⟩
  | 51 => ⟨S8000000, .i32⟩
  | 52 => ⟨S8000000, .i32⟩
  | 53 => ⟨S8000000x1, .i32⟩
  | 54 => ⟨S8000000x16, .f32⟩
  | 55 => ⟨S8000000x16, .f32⟩
  | 56 => ⟨S8000000x16, .f32⟩
  | 57 => ⟨S_, .f32⟩
  | 58 => ⟨S500000x16, .f32⟩
  | 59 => ⟨S8000000x1, .i32⟩
  | 60 => ⟨S500000x16, .f32⟩
  | 61 => ⟨S500000, .f32⟩
  | 62 => ⟨S500000x1, .f32⟩
  | 63 => ⟨S500000x16, .f32⟩
  | 64 => ⟨S500000x16, .f32⟩
  | 65 => ⟨S500000x16, .f32⟩
  | 66 => ⟨S1x16, .f32⟩
  | 67 => ⟨S500000x16, .f32⟩
  | 68 => ⟨S500000x16, .f32⟩
  | 69 => ⟨S_, .f32⟩
  | 70 => ⟨S500000x16, .f32⟩
  | 71 => ⟨S500000x16, .f32⟩
  | 72 => ⟨S1x8000000, .i32⟩
  | 73 => ⟨S8000000, .i32⟩
  | 74 => ⟨S1x8000000, .i32⟩
  | 75 => ⟨S8000000, .i32⟩
  | 76 => ⟨S500000x32, .f32⟩
  | 77 => ⟨S_, .f32⟩
  | 78 => ⟨S8000000, .f32⟩
  | 79 => ⟨S_, .f32⟩
  | 80 => ⟨S500000, .f32⟩
  | 81 => ⟨S8000000x1, .i32⟩
  | 82 => ⟨S500000, .f32⟩
  | 83 => ⟨S_, .f32⟩
  | 84 => ⟨S500000, .f32⟩
  | 85 => ⟨S500000, .f32⟩
  | 86 => ⟨S500000, .f32⟩
  | 87 => ⟨S_, .i32⟩
  | 88 => ⟨S8000000, .i32⟩
  | 89 => ⟨S8000000, .i1⟩
  | 90 => ⟨S_, .i32⟩
  | 91 => ⟨S8000000, .i32⟩
  | 92 => ⟨S8000000, .i32⟩
  | 93 => ⟨S8000000, .i32⟩
  | 94 => ⟨S8000000x1, .i32⟩
  | 95 => ⟨S8000000, .f32⟩
  | 96 => ⟨S_, .i32⟩
  | 97 => ⟨S8000000, .i32⟩
  | 98 => ⟨S8000000, .i1⟩
  | 99 => ⟨S_, .i32⟩
  | 100 => ⟨S8000000, .i32⟩
  | 101 => ⟨S8000000, .i32⟩
  | 102 => ⟨S8000000, .i32⟩
  | 103 => ⟨S8000000x1, .i32⟩
  | 104 => ⟨S8000000, .f32⟩
  | 105 => ⟨S8000000, .f32⟩
  | 106 => ⟨S8000000x1, .f32⟩
  | 107 => ⟨S_, .i32⟩
  | 108 => ⟨S8000000, .i32⟩
  | 109 => ⟨S8000000, .i1⟩
  | 110 => ⟨S_, .i32⟩
  | 111 => ⟨S8000000, .i32⟩
  | 112 => ⟨S8000000, .i32⟩
  | 113 => ⟨S8000000, .i32⟩
  | 114 => ⟨S8000000x1, .i32⟩
  | 115 => ⟨S8000000x32, .f32⟩
  | 116 => ⟨S8000000x32, .f32⟩
  | 117 => ⟨S8000000x32, .f32⟩
  | 118 => ⟨S_, .f32⟩
  | 119 => ⟨S500000x32, .f32⟩
  | 120 => ⟨S8000000x1, .i32⟩
  | 121 => ⟨S500000x32, .f32⟩
  | 122 => ⟨S500000, .f32⟩
  | 123 => ⟨S500000x1, .f32⟩
  | 124 => ⟨S500000x32, .f32⟩
  | 125 => ⟨S500000x32, .f32⟩
  | 126 => ⟨S500000x32, .f32⟩
  | 127 => ⟨S1x32, .f32⟩
  | _ => ⟨S500000x3, .f32⟩

abbrev hbmTy0_1 (i : Nat) : BufTy := match i % 128 with
  | 0 => ⟨S500000x32, .f32⟩
  | 1 => ⟨S500000x32, .f32⟩
  | 2 => ⟨S_, .f32⟩
  | 3 => ⟨S500000x32, .f32⟩
  | 4 => ⟨S500000x32, .f32⟩
  | 5 => ⟨S_, .f32⟩
  | 6 => ⟨S512x32, .f32⟩
  | 7 => ⟨S500000x1, .i32⟩
  | 8 => ⟨S512x32, .f32⟩
  | 9 => ⟨S_, .f32⟩
  | 10 => ⟨S500000, .f32⟩
  | 11 => ⟨S_, .f32⟩
  | 12 => ⟨S512, .f32⟩
  | 13 => ⟨S500000x1, .i32⟩
  | 14 => ⟨S512, .f32⟩
  | 15 => ⟨S_, .f32⟩
  | 16 => ⟨S512, .f32⟩
  | 17 => ⟨S512, .f32⟩
  | 18 => ⟨S512x1, .f32⟩
  | 19 => ⟨S512x32, .f32⟩
  | 20 => ⟨S512x32, .f32⟩
  | 21 => ⟨S512x64, .f32⟩
  | 22 => ⟨S1x64, .f32⟩
  | 23 => ⟨S512x64, .f32⟩
  | 24 => ⟨S512x64, .f32⟩
  | 25 => ⟨S_, .f32⟩
  | 26 => ⟨S512x64, .f32⟩
  | 27 => ⟨S512x64, .f32⟩
  | 28 => ⟨S512x3, .f32⟩
  | 29 => ⟨S1x3, .f32⟩
  | 30 => ⟨S512x3, .f32⟩
  | 31 => ⟨S512x3, .f32⟩
  | 32 => ⟨S_, .f32⟩
  | 33 => ⟨S512, .f32⟩
  | 34 => ⟨S_, .f32⟩
  | 35 => ⟨S512, .f32⟩
  | 36 => ⟨S512, .f32⟩
  | 37 => ⟨S512x1, .f32⟩
  | 38 => ⟨S512x3, .f32⟩
  | 39 => ⟨S512x3, .f32⟩
  | 40 => ⟨S512x3, .f32⟩
  | 41 => ⟨S_, .f32⟩
  | 42 => ⟨S512, .f32⟩
  | 43 => ⟨S512x1, .f32⟩
  | 44 => ⟨S512x1, .f32⟩
  | 45 => ⟨S512x3, .f32⟩
  | 46 => ⟨S512x3, .f32⟩
  | _ => ⟨S500000x3, .f32⟩

abbrev hbmTy (i : Nat) : BufTy := match i / 128 with
  | 0 => hbmTy0_0 i
  | 1 => hbmTy0_1 i
  | _ => ⟨S500000x3, .f32⟩

abbrev bufTy : (tb : Table) → Fin (tcTables nBuf tb) → BufTy
  | .hbm, ⟨i, _⟩ => hbmTy i
  | _, _ => ⟨S500000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_8 : Ref sig .tc := ⟨.hbm, 77, rfl⟩
abbrev main_v54 : Ref sig .tc := ⟨.hbm, 78, rfl⟩
abbrev main_cst_9 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_c_11 : Ref sig .tc := ⟨.hbm, 87, rfl⟩
abbrev main_v61 : Ref sig .tc := ⟨.hbm, 88, rfl⟩
abbrev main_v62 : Ref sig .tc := ⟨.hbm, 89, rfl⟩
abbrev main_c_12 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_13 : Ref sig .tc := ⟨.hbm, 96, rfl⟩
abbrev main_v68 : Ref sig .tc := ⟨.hbm, 97, rfl⟩
abbrev main_v69 : Ref sig .tc := ⟨.hbm, 98, rfl⟩
abbrev main_c_14 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_15 : Ref sig .tc := ⟨.hbm, 107, rfl⟩
abbrev main_v77 : Ref sig .tc := ⟨.hbm, 108, rfl⟩
abbrev main_v78 : Ref sig .tc := ⟨.hbm, 109, rfl⟩
abbrev main_c_16 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_17 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_call1_cst : Ref sig .tc := ⟨.hbm, 130, rfl⟩
abbrev main_call1_v0 : Ref sig .tc := ⟨.hbm, 131, rfl⟩
abbrev main_v97 : Ref sig .tc := ⟨.hbm, 132, rfl⟩
abbrev main_cst_18 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_19 : Ref sig .tc := ⟨.hbm, 137, rfl⟩
abbrev main_v101 : Ref sig .tc := ⟨.hbm, 138, rfl⟩
abbrev main_cst_20 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_21 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_call2_cst : Ref sig .tc := ⟨.hbm, 153, rfl⟩
abbrev main_call2_v0 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_call3_cst : Ref sig .tc := ⟨.hbm, 160, rfl⟩
abbrev main_call3_v0 : Ref sig .tc := ⟨.hbm, 161, rfl⟩
abbrev main_call3_cst_0 : Ref sig .tc := ⟨.hbm, 162, rfl⟩
abbrev main_call3_v1 : Ref sig .tc := ⟨.hbm, 163, rfl⟩
abbrev main_call3_v2 : Ref sig .tc := ⟨.hbm, 164, rfl⟩
abbrev main_call3_v3 : Ref sig .tc := ⟨.hbm, 165, rfl⟩
abbrev main_call3_v4 : Ref sig .tc := ⟨.hbm, 166, rfl⟩
abbrev main_call3_v5 : Ref sig .tc := ⟨.hbm, 167, rfl⟩
abbrev main_call3_v6 : Ref sig .tc := ⟨.hbm, 168, rfl⟩
abbrev main_call3_cst_1 : Ref sig .tc := ⟨.hbm, 169, rfl⟩
abbrev main_call3_v7 : Ref sig .tc := ⟨.hbm, 170, rfl⟩
abbrev main_call3_v8 : Ref sig .tc := ⟨.hbm, 171, rfl⟩
abbrev main_call3_v9 : Ref sig .tc := ⟨.hbm, 172, rfl⟩
abbrev main_call3_v10 : Ref sig .tc := ⟨.hbm, 173, rfl⟩
abbrev main_v119 : Ref sig .tc := ⟨.hbm, 174, rfl⟩

abbrev nD : Nat := 1
abbrev τ : Topo := Topo.v7x

variable {F : FTy → Type} [FloatOps F]

class Facts₀ : Prop where
  slices_S2x8000000_S1x8000000_0_0 : S2x8000000.Slices ![0, 0] S1x8000000
  shapeCasts_S1x8000000_S8000000 : S1x8000000.ShapeCasts S8000000
  slices_S2x8000000_S1x8000000_1_0 : S2x8000000.Slices ![1, 0] S1x8000000
  bcast_S_S8000000 : S_.BroadcastsInDim S8000000 (![] : Fin 0 → Fin S8000000.rank)
  bcast_S_S500000 : S_.BroadcastsInDim S500000 (![] : Fin 0 → Fin S500000.rank)
  bcast_S8000000_S8000000x1_0 : S8000000.BroadcastsInDim S8000000x1 (![0] : Fin 1 → Fin S8000000x1.rank)
  bcast_S8000000x1_S8000000x16_0_1 : S8000000x1.BroadcastsInDim S8000000x16 (![0, 1] : Fin 2 → Fin S8000000x16.rank)
  bcast_S_S500000x16 : S_.BroadcastsInDim S500000x16 (![] : Fin 0 → Fin S500000x16.rank)
  bcast_S500000_S500000x1_0 : S500000.BroadcastsInDim S500000x1 (![0] : Fin 1 → Fin S500000x1.rank)
  bcast_S500000x1_S500000x16_0_1 : S500000x1.BroadcastsInDim S500000x16 (![0, 1] : Fin 2 → Fin S500000x16.rank)
  bcast_S16_S1x16_1 : S16.BroadcastsInDim S1x16 (![1] : Fin 1 → Fin S1x16.rank)
  bcast_S1x16_S500000x16_0_1 : S1x16.BroadcastsInDim S500000x16 (![0, 1] : Fin 2 → Fin S500000x16.rank)
  bcast_S8000000x1_S8000000x32_0_1 : S8000000x1.BroadcastsInDim S8000000x32 (![0, 1] : Fin 2 → Fin S8000000x32.rank)
  bcast_S_S500000x32 : S_.BroadcastsInDim S500000x32 (![] : Fin 0 → Fin S500000x32.rank)
  bcast_S500000x1_S500000x32_0_1 : S500000x1.BroadcastsInDim S500000x32 (![0, 1] : Fin 2 → Fin S500000x32.rank)
  bcast_S32_S1x32_1 : S32.BroadcastsInDim S1x32 (![1] : Fin 1 → Fin S1x32.rank)
  bcast_S1x32_S500000x32_0_1 : S1x32.BroadcastsInDim S500000x32 (![0, 1] : Fin 2 → Fin S500000x32.rank)
  bcast_S_S512x32 : S_.BroadcastsInDim S512x32 (![] : Fin 0 → Fin S512x32.rank)
  bcast_S_S512 : S_.BroadcastsInDim S512 (![] : Fin 0 → Fin S512.rank)
  bcast_S512_S512x1_0 : S512.BroadcastsInDim S512x1 (![0] : Fin 1 → Fin S512x1.rank)
  bcast_S512x1_S512x32_0_1 : S512x1.BroadcastsInDim S512x32 (![0, 1] : Fin 2 → Fin S512x32.rank)
  bcast_S64_S1x64_1 : S64.BroadcastsInDim S1x64 (![1] : Fin 1 → Fin S1x64.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  bcast_S3_S1x3_1 : S3.BroadcastsInDim S1x3 (![1] : Fin 1 → Fin S1x3.rank)
  bcast_S1x3_S512x3_0_1 : S1x3.BroadcastsInDim S512x3 (![0, 1] : Fin 2 → Fin S512x3.rank)
  reducesTo_S512x3_S512_d1 : S512x3.ReducesTo [1] S512
  h_S_ : 0 < S_.numel
  bcast_S512x1_S512x3_0_1 : S512x1.BroadcastsInDim S512x3 (![0, 1] : Fin 2 → Fin S512x3.rank)
  dot_S500000x3_S3x16_S500000x16_1_0_0_1_n_n_wf : DotDims.WF S500000x3 S3x16 S500000x16 [1] [0] [0] [1] [] []
  scatter_S500000_S8000000x1_S8000000_n_0_0_1_wf : ScatterDims.WF S500000 S8000000x1 S8000000 [] [0] [0] 1
  gather_S500000_S8000000x1_S8000000_n_0_n_n_0_1_1_wf : GatherDims.WF S500000 S8000000x1 S8000000 [] [0] [] [0] [] 1 ![1]
  gather_S500000x16_S8000000x1_S8000000x16_1_0_n_n_0_1_116_wf : GatherDims.WF S500000x16 S8000000x1 S8000000x16 [1] [0] [] [0] [] 1 ![1, 16]
  scatter_S500000x16_S8000000x1_S8000000x16_1_0_0_1_wf : ScatterDims.WF S500000x16 S8000000x1 S8000000x16 [1] [0] [0] 1
  dot_S500000x16_S16x32_S500000x32_1_0_0_1_n_n_wf : DotDims.WF S500000x16 S16x32 S500000x32 [1] [0] [0] [1] [] []
  gather_S500000x32_S8000000x1_S8000000x32_1_0_n_n_0_1_132_wf : GatherDims.WF S500000x32 S8000000x1 S8000000x32 [1] [0] [] [0] [] 1 ![1, 32]
  scatter_S500000x32_S8000000x1_S8000000x32_1_0_0_1_wf : ScatterDims.WF S500000x32 S8000000x1 S8000000x32 [1] [0] [0] 1
  scatter_S512x32_S500000x1_S500000x32_1_0_0_1_wf : ScatterDims.WF S512x32 S500000x1 S500000x32 [1] [0] [0] 1
  scatter_S512_S500000x1_S500000_n_0_0_1_wf : ScatterDims.WF S512 S500000x1 S500000 [] [0] [0] 1
  dot_S512x32_S32x64_S512x64_1_0_0_1_n_n_wf : DotDims.WF S512x32 S32x64 S512x64 [1] [0] [0] [1] [] []
  dot_S512x64_S64x3_S512x3_1_0_0_1_n_n_wf : DotDims.WF S512x64 S64x3 S512x3 [1] [0] [0] [1] [] []

variable [Facts₀]

def dot_S500000x3_S3x16_S500000x16_1_0_0_1_n_n : DotDims S500000x3 S3x16 S500000x16 where
  lhsContracting := [1]
  rhsContracting := [0]
  lhsNonContracting := [0]
  rhsNonContracting := [1]
  lhsBatch := []
  rhsBatch := []
  wf := dot_S500000x3_S3x16_S500000x16_1_0_0_1_n_n_wf
def scatter_S500000_S8000000x1_S8000000_n_0_0_1 : ScatterDims S500000 S8000000x1 S8000000 where
  updateWindowDims := []
  insertedWindowDims := [0]
  scatterDimsToOperandDims := [0]
  indexVectorDim := 1
  wf := scatter_S500000_S8000000x1_S8000000_n_0_0_1_wf
def gather_S500000_S8000000x1_S8000000_n_0_n_n_0_1_1 : GatherDims S500000 S8000000x1 S8000000 where
  offsetDims := []
  collapsedSliceDims := [0]
  operandBatchingDims := []
  startIndicesBatchingDims := []
  startIndexMap := [0]
  indexVectorDim := 1
  sliceSizes := ![1]
  wf := gather_S500000_S8000000x1_S8000000_n_0_n_n_0_1_1_wf
def gather_S500000x16_S8000000x1_S8000000x16_1_0_n_n_0_1_116 : GatherDims S500000x16 S8000000x1 S8000000x16 where
  offsetDims := [1]
  collapsedSliceDims := [0]
  operandBatchingDims := []
  startIndicesBatchingDims := []
  startIndexMap := [0]
  indexVectorDim := 1
  sliceSizes := ![1, 16]
  wf := gather_S500000x16_S8000000x1_S8000000x16_1_0_n_n_0_1_116_wf
def scatter_S500000x16_S8000000x1_S8000000x16_1_0_0_1 : ScatterDims S500000x16 S8000000x1 S8000000x16 where
  updateWindowDims := [1]
  insertedWindowDims := [0]
  scatterDimsToOperandDims := [0]
  indexVectorDim := 1
  wf := scatter_S500000x16_S8000000x1_S8000000x16_1_0_0_1_wf
def dot_S500000x16_S16x32_S500000x32_1_0_0_1_n_n : DotDims S500000x16 S16x32 S500000x32 where
  lhsContracting := [1]
  rhsContracting := [0]
  lhsNonContracting := [0]
  rhsNonContracting := [1]
  lhsBatch := []
  rhsBatch := []
  wf := dot_S500000x16_S16x32_S500000x32_1_0_0_1_n_n_wf
def gather_S500000x32_S8000000x1_S8000000x32_1_0_n_n_0_1_132 : GatherDims S500000x32 S8000000x1 S8000000x32 where
  offsetDims := [1]
  collapsedSliceDims := [0]
  operandBatchingDims := []
  startIndicesBatchingDims := []
  startIndexMap := [0]
  indexVectorDim := 1
  sliceSizes := ![1, 32]
  wf := gather_S500000x32_S8000000x1_S8000000x32_1_0_n_n_0_1_132_wf
def scatter_S500000x32_S8000000x1_S8000000x32_1_0_0_1 : ScatterDims S500000x32 S8000000x1 S8000000x32 where
  updateWindowDims := [1]
  insertedWindowDims := [0]
  scatterDimsToOperandDims := [0]
  indexVectorDim := 1
  wf := scatter_S500000x32_S8000000x1_S8000000x32_1_0_0_1_wf
def scatter_S512x32_S500000x1_S500000x32_1_0_0_1 : ScatterDims S512x32 S500000x1 S500000x32 where
  updateWindowDims := [1]
  insertedWindowDims := [0]
  scatterDimsToOperandDims := [0]
  indexVectorDim := 1
  wf := scatter_S512x32_S500000x1_S500000x32_1_0_0_1_wf
def scatter_S512_S500000x1_S500000_n_0_0_1 : ScatterDims S512 S500000x1 S500000 where
  updateWindowDims := []
  insertedWindowDims := [0]
  scatterDimsToOperandDims := [0]
  indexVectorDim := 1
  wf := scatter_S512_S500000x1_S500000_n_0_0_1_wf
def dot_S512x32_S32x64_S512x64_1_0_0_1_n_n : DotDims S512x32 S32x64 S512x64 where
  lhsContracting := [1]
  rhsContracting := [0]
  lhsNonContracting := [0]
  rhsNonContracting := [1]
  lhsBatch := []
  rhsBatch := []
  wf := dot_S512x32_S32x64_S512x64_1_0_0_1_n_n_wf
def dot_S512x64_S64x3_S512x3_1_0_0_1_n_n : DotDims S512x64 S64x3 S512x3 where
  lhsContracting := [1]
  rhsContracting := [0]
  lhsNonContracting := [0]
  rhsNonContracting := [1]
  lhsBatch := []
  rhsBatch := []
  wf := dot_S512x64_S64x3_S512x3_1_0_0_1_n_n_wf

class Facts : Prop extends Facts₀ where

variable [Facts]
-- ==== Proof.KernelRun.lean ====
/-
  The idealized kernel program's run, with its RESULT named: every weakly fair execution ends, nothing faulting, the
  arguments as launched, and the result buffer holding what the last segment boundary's contents say it holds —
  the fold of the program's thirteen segments (six stretches of host operations, seven kernel launches) over the
  launch memory. Which function of the arguments that fold is, is the business of the modules that follow.
-/
import proofs.«180380_j63909113364904_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the program's segments from the launch memory: the result buffer ends at the last boundary's
    contents, every argument as launched. -/
theorem run_result : θ_run defs (onTc (τ := τ) (main (F := F))) ⟨m, fun _ => 0, ρ⟩ (fun r => ∀ c : Dev nD,
      r.2.mem ((c.tc : Thread nD τ).loc main_v71) = W13 m ρ c (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v71 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c)⟩)

end Cert.KernelIdeal.Result

end
-- ==== Proof.Spec.lean ====
/-
  What the graph network computes, stage by stage, as functions of whole arrays read index by index on the
  extended reals. A stage's array is indexed by (row, column); a vector of per-row scalars is carried as a
  one-column matrix and a bias as a one-row matrix.
    * `matProd a w`      : the matrix product, entry (r, c) = ∑ q, a (r, q) · w (q, c);
    * `edgeMsg h ds dd`  : the message of edge e, column c: (ds e · dd e) · h (e, c) — the symmetric normalisation
                             of the edge's two end points times the gathered source feature;
    * `combine agg h dsq b` : max (agg + dsq · h + b, 0) — aggregated messages, the self loop, the bias, the rectifier;
    * `mlpLogits`        : the two-layer classifier on the pooled features;
    * `logSoftmaxRows z` : z minus its row maximum, minus the logarithm of the row sum of exponentials of that.
  Nothing here mentions a program: both programs are shown to compute these.
-/
import Idealize.ShloMosaic.PureOps.Ideal
import Idealize.ShloMosaic.Lib.ValueIdx

noncomputable section

namespace Cert.Gcn

open Idealize.ShloMosaic Idealize.ShloMosaic.ValueIdx

/-- A rows × columns array of extended reals. -/
abbrev Mat (n m : Nat) : Type := (⟨2, ![n, m]⟩ : Shape).Idx → EReal

/-- A length-n array of extended reals. -/
abbrev Arr (n : Nat) : Type := (⟨1, ![n]⟩ : Shape).Idx → EReal

/-- A vector as a one-column matrix. -/
def colOf {n : Nat} (g : Arr n) : Mat n 1 := fun i => g (ix1 (n := n) (i 0))

/-- A vector as a one-row matrix. -/
def rowOf {n : Nat} (g : Arr n) : Mat 1 n := fun i => g (ix1 (n := n) (i 1))

/-- The matrix product. -/
def matProd {n k m : Nat} (a : Mat n k) (w : Mat k m) : Mat n m :=
  fun i => ∑ q : Fin k, a (ix2 (n0 := n) (n1 := k) (i 0) q) * w (ix2 (n0 := k) (n1 := m) q (i 1))

/-- The message an edge carries: the product of its end points' normalisations times the source's feature row. -/
def edgeMsg {e c : Nat} (h : Mat e c) (ds dd : Mat e 1) : Mat e c :=
  fun i => (ds (ix2 (n0 := e) (n1 := 1) (i 0) 0) * dd (ix2 (n0 := e) (n1 := 1) (i 0) 0)) * h i

/-- Aggregated messages plus the self loop plus the bias, rectified. -/
def combine {n c : Nat} (agg h : Mat n c) (dsq : Mat n 1) (b : Mat 1 c) : Mat n c :=
  fun i => max ((agg i + dsq (ix2 (n0 := n) (n1 := 1) (i 0) 0) * h i) + b (ix2 (n0 := 1) (n1 := c) 0 (i 1))) 0

/-- The classifier's hidden layer: rectified affine map of the pooled features. -/
def mlpHidden {g c h : Nat} (p : Mat g c) (w1 : Mat c h) (b1 : Mat 1 h) : Mat g h :=
  fun i => max (matProd p w1 i + b1 (ix2 (n0 := 1) (n1 := h) 0 (i 1))) 0

/-- The classifier's logits. -/
def mlpLogits {g c h o : Nat} (p : Mat g c) (w1 : Mat c h) (b1 : Mat 1 h) (w2 : Mat h o) (b2 : Mat 1 o) : Mat g o :=
  fun i => matProd (mlpHidden p w1 b1) w2 i + b2 (ix2 (n0 := 1) (n1 := o) 0 (i 1))

/-- The largest entry of a row (the fold of `max` from −∞). -/
def rowMax {n c : Nat} (z : Mat n c) (r : Fin n) : EReal :=
  (Finset.univ : Finset (Fin c)).fold max ⊥ (fun j => z (ix2 (n0 := n) (n1 := c) r j))

/-- A row shifted by its maximum. -/
def shifted {n c : Nat} (z : Mat n c) : Mat n c := fun i => z i - rowMax z (i 0)

/-- Row-wise log-softmax, computed the stable way: shift by the row maximum, subtract the log of the row sum of exponentials. -/
def logSoftmaxRows {n c : Nat} (z : Mat n c) : Mat n c :=
  fun i => shifted z i - Ideal.log (∑ j : Fin c, Ideal.exp (shifted z (ix2 (n0 := n) (n1 := c) (i 0) j)))

end Cert.Gcn

end
-- ==== Proof.SpecLayout.lean ====
/-
  Two layout facts used on the kernel program's side: recasting a length-n vector as an n × 1 array gives the
  one-column matrix of the vector, and as a 1 × n array the one-row matrix — row-major order keeps the n entries
  in place.
-/
import proofs.«180380_j63909113364904_2_alg».proof.Proof.Spec
import Idealize.ShloMosaic.Lib.Pipeline.Value

noncomputable section

namespace Cert.Gcn

open Idealize.ShloMosaic Idealize.ShloMosaic.ValueIdx

/-- A vector recast as one column is the one-column matrix of the vector. -/
theorem shapeCast_col {n : Nat} (g : Arr n) (h : (⟨1, ![n]⟩ : Shape).ShapeCasts ⟨2, ![n, 1]⟩) :
    shapeCast (⟨2, ![n, 1]⟩ : Shape) g h = colOf g := by
  funext j
  refine shapeCast_apply g h j (ix1 (n := n) (j 0)) ?_
  rw [Shape.rowMajor_val_one, Shape.rowMajor_val_two]
  have h1 : (j 1).val < 1 := (j 1).isLt
  show (j 0).val = (j 0).val * 1 + (j 1).val
  omega

/-- A vector recast as one row is the one-row matrix of the vector. -/
theorem shapeCast_row {n : Nat} (g : Arr n) (h : (⟨1, ![n]⟩ : Shape).ShapeCasts ⟨2, ![1, n]⟩) :
    shapeCast (⟨2, ![1, n]⟩ : Shape) g h = rowOf g := by
  funext j
  refine shapeCast_apply g h j (ix1 (n := n) (j 1)) ?_
  rw [Shape.rowMajor_val_one, Shape.rowMajor_val_two]
  have h0 : (j 0).val < 1 := (j 0).isLt
  have h00 : (j 0).val = 0 := by omega
  show (j 1).val = (j 0).val * n + (j 1).val
  rw [h00]; omega

end Cert.Gcn

end
-- ==== Proof.Passes.lean ====
/-
  Buffers the program's segments leave alone. Between two segment boundaries a buffer keeps its contents when no
  host operation in between writes it and no kernel launch in between has it as an output (a launch that reads it
  through an input window hands it back as it found it). One lemma per buffer and stretch, one step per segment.
-/
import proofs.«180380_j63909113364904_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg) (c : Dev nD)

/-- At launch a buffer holds what the memory holds. -/
theorem W0_eq (b : Ref sig .tc) : W0 m ρ c (Proc.devRef .tc b) = m ((c : Thread nD τ).loc b) := rfl

/-- `main_v1` is not written between boundaries 1 and 2. -/
theorem pass_main_v1_1_2 : W2 m ρ c (Proc.devRef .tc main_v1) = W1 m ρ c (Proc.devRef .tc main_v1) :=
  calc W2 m ρ c (Proc.devRef .tc main_v1)
    _ = W1 m ρ c (Proc.devRef .tc main_v1) := W2_of_ne m ρ c main_v1 (by decide)

/-- `main_v1` is not written between boundaries 2 and 7. -/
theorem pass_main_v1_2_7 : W7 m ρ c (Proc.devRef .tc main_v1) = W2 m ρ c (Proc.devRef .tc main_v1) :=
  calc W7 m ρ c (Proc.devRef .tc main_v1)
    _ = W6 m ρ c (Proc.devRef .tc main_v1) := W7_of_ne m ρ c main_v1 (by decide)
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := W4_of_ne m ρ c main_v1 (by decide)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_v3` is not written between boundaries 1 and 4. -/
theorem pass_main_v3_1_4 : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

/-- `main_v3` is not written between boundaries 4 and 9. -/
theorem pass_main_v3_4_9 : W9 m ρ c (Proc.devRef .tc main_v3) = W4 m ρ c (Proc.devRef .tc main_v3) :=
  calc W9 m ρ c (Proc.devRef .tc main_v3)
    _ = W8 m ρ c (Proc.devRef .tc main_v3) := W9_of_ne m ρ c main_v3 (by decide)
    _ = W7 m ρ c (Proc.devRef .tc main_v3) := StableHlo.after_of_forall_not_mem (b := Proc.devRef .tc main_v3) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_v12` is not written between boundaries 1 and 5. -/
theorem pass_main_v12_1_5 : W5 m ρ c (Proc.devRef .tc main_v12) = W1 m ρ c (Proc.devRef .tc main_v12) :=
  calc W5 m ρ c (Proc.devRef .tc main_v12)
    _ = W4 m ρ c (Proc.devRef .tc main_v12) := StableHlo.after_of_forall_not_mem (b := Proc.devRef .tc main_v12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v12) := W4_of_ne m ρ c main_v12 (by decide)
    _ = W2 m ρ c (Proc.devRef .tc main_v12) := StableHlo.after_of_forall_not_mem (b := Proc.devRef .tc main_v12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v12) := W2_of_ne m ρ c main_v12 (by decide)

/-- `main_v12` is not written between boundaries 5 and 10. -/
theorem pass_main_v12_5_10 : W10 m ρ c (Proc.devRef .tc main_v12) = W5 m ρ c (Proc.devRef .tc main_v12) :=
  calc W10 m ρ c (Proc.devRef .tc main_v12)
    _ = W9 m ρ c (Proc.devRef .tc main_v12) := StableHlo.after_of_forall_not_mem (b := Proc.devRef .tc main_v12) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v12) := W9_of_ne m ρ c main_v12 (by decide)
    _ = W7 m ρ c (Proc.devRef .tc main_v12) := StableHlo.after_of_forall_not_mem (b := Proc.devRef .tc main_v12) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v12) := W7_of_ne m ρ c main_v12 (by decide)
    _ = W5 m ρ c (Proc.devRef .tc main_v12) := (W6_arr m ρ c 2).trans (((dat2 (V5 m ρ) c).arrAt_in 2 rfl _).trans (A_eq2 (V5 m ρ) c 2))

/-- `main_v20` is not written between boundaries 1 and 3. -/
theorem pass_main_v20_1_3 : W3 m ρ c (Proc.devRef .tc main_v20) = W1 m ρ c (Proc.devRef .tc main_v20) :=
  calc W3 m ρ c (Proc.devRef .tc main_v20)
    _ = W2 m ρ c (Proc.devRef .tc main_v20) := StableHlo.after_of_forall_not_mem (b := Proc.devRef .tc main_v20) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v20) := W2_of_ne m ρ c main_v20 (by decide)

/-- `main_v20` is not written between boundaries 3 and 8. -/
theorem pass_main_v20_3_8 : W8 m ρ c (Proc.devRef .tc main_v20) = W3 m ρ c (Proc.devRef .tc main_v20) :=
  calc W8 m ρ c (Proc.devRef .tc main_v20)
    _ = W7 m ρ c (Proc.devRef .tc main_v20) := StableHlo.after_of_forall_not_mem (b := Proc.devRef .tc main_v20) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v20) := W7_of_ne m ρ c main_v20 (by decide)
    _ = W5 m ρ c (Proc.devRef .tc main_v20) := W6_of_ne m ρ c main_v20 (by decide)
    _ = W4 m ρ c (Proc.devRef .tc main_v20) := StableHlo.after_of_forall_not_mem (b := Proc.devRef .tc main_v20) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v20) := (W4_arr m ρ c 1).trans (((dat1 (V3 m ρ) c).arrAt_in 1 rfl _).trans (A_eq1 (V3 m ρ) c 1))

/-- `main_v28` is not written between boundaries 1 and 3. -/
theorem pass_main_v28_1_3 : W3 m ρ c (Proc.devRef .tc main_v28) = W1 m ρ c (Proc.devRef .tc main_v28) :=
  calc W3 m ρ c (Proc.devRef .tc main_v28)
    _ = W2 m ρ c (Proc.devRef .tc main_v28) := StableHlo.after_of_forall_not_mem (b := Proc.devRef .tc main_v28) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v28) := W2_of_ne m ρ c main_v28 (by decide)

/-- `main_v28` is not written between boundaries 3 and 8. -/
theorem pass_main_v28_3_8 : W8 m ρ c (Proc.devRef .tc main_v28) = W3 m ρ c (Proc.devRef .tc main_v28) :=
  calc W8 m ρ c (Proc.devRef .tc main_v28)
    _ = W7 m ρ c (Proc.devRef .tc main_v28) := StableHlo.after_of_forall_not_mem (b := Proc.devRef .tc main_v28) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v28) := W7_of_ne m ρ c main_v28 (by decide)
    _ = W5 m ρ c (Proc.devRef .tc main_v28) := W6_of_ne m ρ c main_v28 (by decide)
    _ = W4 m ρ c (Proc.devRef .tc main_v28) := StableHlo.after_of_forall_not_mem (b := Proc.devRef .tc main_v28) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v28) := (W4_arr m ρ c 2).trans (((dat1 (V3 m ρ) c).arrAt_in 2 rfl _).trans (A_eq1 (V3 m ρ) c 2))

/-- `main_v29` is not written between boundaries 2 and 5. -/
theorem pass_main_v29_2_5 : W5 m ρ c (Proc.devRef .tc main_v29) = W2 m ρ c (Proc.devRef .tc main_v29) :=
  calc W5 m ρ c (Proc.devRef .tc main_v29)
    _ = W4 m ρ c (Proc.devRef .tc main_v29) := StableHlo.after_of_forall_not_mem (b := Proc.devRef .tc main_v29) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v29) := W4_of_ne m ρ c main_v29 (by decide)
    _ = W2 m ρ c (Proc.devRef .tc main_v29) := StableHlo.after_of_forall_not_mem (b := Proc.devRef .tc main_v29) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_v43` is not written between boundaries 7 and 10. -/
theorem pass_main_v43_7_10 : W10 m ρ c (Proc.devRef .tc main_v43) = W7 m ρ c (Proc.devRef .tc main_v43) :=
  calc W10 m ρ c (Proc.devRef .tc main_v43)
    _ = W9 m ρ c (Proc.devRef .tc main_v43) := StableHlo.after_of_forall_not_mem (b := Proc.devRef .tc main_v43) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v43) := W9_of_ne m ρ c main_v43 (by decide)
    _ = W7 m ρ c (Proc.devRef .tc main_v43) := StableHlo.after_of_forall_not_mem (b := Proc.devRef .tc main_v43) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg0` is not written between boundaries 0 and 1. -/
theorem pass_main_arg0_0_1 : W1 m ρ c (Proc.devRef .tc main_arg0) = W0 m ρ c (Proc.devRef .tc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg3` is not written between boundaries 0 and 1. -/
theorem pass_main_arg3_0_1 : W1 m ρ c (Proc.devRef .tc main_arg3) = W0 m ρ c (Proc.devRef .tc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg4` is not written between boundaries 0 and 4. -/
theorem pass_main_arg4_0_4 : W4 m ρ c (Proc.devRef .tc main_arg4) = W0 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg5` is not written between boundaries 0 and 6. -/
theorem pass_main_arg5_0_6 : W6 m ρ c (Proc.devRef .tc main_arg5) = W0 m ρ c (Proc.devRef .tc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg6` is not written between boundaries 0 and 9. -/
theorem pass_main_arg6_0_9 : W9 m ρ c (Proc.devRef .tc main_arg6) = W0 m ρ c (Proc.devRef .tc main_arg6) :=
  calc W9 m ρ c (Proc.devRef .tc main_arg6)
    _ = W8 m ρ c (Proc.devRef .tc main_arg6) := W9_of_ne m ρ c main_arg6 (by decide)
    _ = W7 m ρ c (Proc.devRef .tc main_arg6) := StableHlo.after_of_forall_not_mem (b := Proc.devRef .tc main_arg6) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg2` is not written between boundaries 0 and 11. -/
theorem pass_main_arg2_0_11 : W11 m ρ c (Proc.devRef .tc main_arg2) = W0 m ρ c (Proc.devRef .tc main_arg2) :=
  calc W11 m ρ c (Proc.devRef .tc main_arg2)
    _ = W10 m ρ c (Proc.devRef .tc main_arg2) := W11_of_ne m ρ c main_arg2 (by decide)
    _ = W9 m ρ c (Proc.devRef .tc main_arg2) := StableHlo.after_of_forall_not_mem (b := Proc.devRef .tc main_arg2) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg2) := W9_of_ne m ρ c main_arg2 (by decide)
    _ = W7 m ρ c (Proc.devRef .tc main_arg2) := StableHlo.after_of_forall_not_mem (b := Proc.devRef .tc main_arg2) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg2) := W7_of_ne m ρ c main_arg2 (by decide)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg7` is not written between boundaries 0 and 12. -/
theorem pass_main_arg7_0_12 : W12 m ρ c (Proc.devRef .tc main_arg7) = W0 m ρ c (Proc.devRef .tc main_arg7) :=
  calc W12 m ρ c (Proc.devRef .tc main_arg7)
    _ = W11 m ρ c (Proc.devRef .tc main_arg7) := StableHlo.after_of_forall_not_mem (b := Proc.devRef .tc main_arg7) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg7) := W11_of_ne m ρ c main_arg7 (by decide)
    _ = W9 m ρ c (Proc.devRef .tc main_arg7) := StableHlo.after_of_forall_not_mem (b := Proc.devRef .tc main_arg7) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg7) := W9_of_ne m ρ c main_arg7 (by decide)
    _ = W7 m ρ c (Proc.devRef .tc main_arg7) := StableHlo.after_of_forall_not_mem (b := Proc.devRef .tc main_arg7) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg9` is not written between boundaries 0 and 12. -/
theorem pass_main_arg9_0_12 : W12 m ρ c (Proc.devRef .tc main_arg9) = W0 m ρ c (Proc.devRef .tc main_arg9) :=
  calc W12 m ρ c (Proc.devRef .tc main_arg9)
    _ = W11 m ρ c (Proc.devRef .tc main_arg9) := StableHlo.after_of_forall_not_mem (b := Proc.devRef .tc main_arg9) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W10 m ρ c (Proc.devRef .tc main_arg9) := W11_of_ne m ρ c main_arg9 (by decide)
    _ = W9 m ρ c (Proc.devRef .tc main_arg9) := StableHlo.after_of_forall_not_mem (b := Proc.devRef .tc main_arg9) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg9) := W9_of_ne m ρ c main_arg9 (by decide)
    _ = W7 m ρ c (Proc.devRef .tc main_arg9) := StableHlo.after_of_forall_not_mem (b := Proc.devRef .tc main_arg9) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg8` is not written between boundaries 0 and 11. -/
theorem pass_main_arg8_0_11 : W11 m ρ c (Proc.devRef .tc main_arg8) = W0 m ρ c (Proc.devRef .tc main_arg8) :=
  calc W11 m ρ c (Proc.devRef .tc main_arg8)
    _ = W10 m ρ c (Proc.devRef .tc main_arg8) := W11_of_ne m ρ c main_arg8 (by decide)
    _ = W9 m ρ c (Proc.devRef .tc main_arg8) := StableHlo.after_of_forall_not_mem (b := Proc.devRef .tc main_arg8) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg8) := W9_of_ne m ρ c main_arg8 (by decide)
    _ = W7 m ρ c (Proc.devRef .tc main_arg8) := StableHlo.after_of_forall_not_mem (b := Proc.devRef .tc main_arg8) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_arg10` is not written between boundaries 0 and 11. -/
theorem pass_main_arg10_0_11 : W11 m ρ c (Proc.devRef .tc main_arg10) = W0 m ρ c (Proc.devRef .tc main_arg10) :=
  calc W11 m ρ c (Proc.devRef .tc main_arg10)
    _ = W10 m ρ c (Proc.devRef .tc main_arg10) := W11_of_ne m ρ c main_arg10 (by decide)
    _ = W9 m ρ c (Proc.devRef .tc main_arg10) := StableHlo.after_of_forall_not_mem (b := Proc.devRef .tc main_arg10) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg10) := W9_of_ne m ρ c main_arg10 (by decide)
    _ = W7 m ρ c (Proc.devRef .tc main_arg10) := StableHlo.after_of_forall_not_mem (b := Proc.devRef .tc main_arg10) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Result

end
-- ==== Proof.MatProd0.lean ====
/-
  Kernel launch 0 multiplies a block of 5000 rows of its left operand by the whole 3 × 16 right operand, one
  block per grid point, 100 points covering the 500000 rows. Read on the extended reals (where rounding the
  operands to a shorter format is the identity and the accumulator starts at zero) the array it leaves is the
  matrix product of the two arrays it was given: entry (r, c) is the sum over q of left (r, q) · right (q, c).
-/
import proofs.«180380_j63909113364904_2_alg».proof.Proof.Gen.KernelIdeal.Frame
import proofs.«180380_j63909113364904_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Stage0

open Cert.KernelIdeal Cert.KernelIdeal.Gen Idealize.ShloMosaic Idealize.ShloMosaic.TcCoe Idealize.SL.Sem
open Idealize.ShloMosaic.ValueIdx
open Idealize.ShloMosaic.Pipeline (Dat)

/-- The left operand's index at output (p, q) and contraction coordinate k is (p, k). -/
theorem lhs_at (p : Fin 5000) (q : Fin 16) (k : Fin 3) :
    dot_S5000x3_S3x16_S5000x16_1_0_0_1_n_n.lhsIdx (ix2 p q) ((contrEquiv1 dot_S5000x3_S3x16_S5000x16_1_0_0_1_n_n 3 rfl rfl).symm k) = ix2 p k := by
  have hk := contrEquiv1_symm_val dot_S5000x3_S3x16_S5000x16_1_0_0_1_n_n 3 rfl rfl k
  funext a; apply Fin.ext
  match a with
  | ⟨0, _⟩ =>
    show (dot_S5000x3_S3x16_S5000x16_1_0_0_1_n_n.lhsIdx (ix2 p q) _ 0).val = p.val
    unfold DotDims.lhsIdx
    rw [dif_neg (show ¬(0 : Fin S5000x3.rank) ∈ dot_S5000x3_S3x16_S5000x16_1_0_0_1_n_n.lhsBatch by decide), dif_pos (show (0 : Fin S5000x3.rank) ∈ dot_S5000x3_S3x16_S5000x16_1_0_0_1_n_n.lhsNonContracting by decide)]
    rfl
  | ⟨1, _⟩ => exact (dot_S5000x3_S3x16_S5000x16_1_0_0_1_n_n.lhsIdx_val_of_single rfl (ix2 p q) _).trans hk

/-- The right operand's index at output (p, q) and contraction coordinate k is (k, q). -/
theorem rhs_at (p : Fin 5000) (q : Fin 16) (k : Fin 3) :
    dot_S5000x3_S3x16_S5000x16_1_0_0_1_n_n.rhsIdx (ix2 p q) ((contrEquiv1 dot_S5000x3_S3x16_S5000x16_1_0_0_1_n_n 3 rfl rfl).symm k) = ix2 k q := by
  have hk := contrEquiv1_symm_val dot_S5000x3_S3x16_S5000x16_1_0_0_1_n_n 3 rfl rfl k
  funext a; apply Fin.ext
  match a with
  | ⟨0, _⟩ => exact (dot_S5000x3_S3x16_S5000x16_1_0_0_1_n_n.rhsIdx_val_of_single rfl (ix2 p q) _).trans hk
  | ⟨1, _⟩ =>
    show (dot_S5000x3_S3x16_S5000x16_1_0_0_1_n_n.rhsIdx (ix2 p q) _ 1).val = q.val
    unfold DotDims.rhsIdx
    rw [dif_neg (show ¬(1 : Fin S3x16.rank) ∈ dot_S5000x3_S3x16_S5000x16_1_0_0_1_n_n.rhsBatch by decide), dif_pos (show (1 : Fin S3x16.rank) ∈ dot_S5000x3_S3x16_S5000x16_1_0_0_1_n_n.rhsNonContracting by decide)]
    rfl

/-- The body's stored value at (p, q): the sum over the contraction of block (p, k) times weight (k, q). -/
theorem pay_apply (x : Vec Ideal S5000x3 .f32) (w : Vec Ideal S3x16 .f32) (p : Fin 5000) (q : Fin 16) :
    k0_pay1 x w (ix2 p q) = ∑ k : Fin 3, x (ix2 p k) * w (ix2 k q) := by
  unfold k0_pay1
  refine (Ideal.matmul_constant_zero_apply dot_S5000x3_S3x16_S5000x16_1_0_0_1_n_n none _ _ (ix2 p q)).trans ?_
  rw [← Equiv.sum_comp (contrEquiv1 dot_S5000x3_S3x16_S5000x16_1_0_0_1_n_n 3 rfl rfl).symm]
  refine Finset.sum_congr rfl fun k _ => ?_
  rw [lhs_at p q k, rhs_at p q k]
  rfl

theorem hz : (![0, 0] : Fin 2 → Nat) = fun _ => 0 := funext fun a => by fin_cases a <;> rfl

/-- Where each window's block sits at grid point t: the left operand's and the output's blocks are the t-th blocks
    of rows, all columns; the right operand is one whole block. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) < 100 :=
  (by decide +kernel : ∀ t : Fin grid0.N, _)

/-- Every block of rows is some grid point's. -/
theorem idx_onto : ∀ (b : Fin 100), ∃ t : Fin cfg0.N, win0_2.index t = ![b.val, 0] :=
  (by decide +kernel : ∀ (b : Fin 100), ∃ t : Fin grid0.N, win0_2.index t = ![b.val, 0])

variable (V : (c : Dev nD) → (b : Ref sig .tc) → Buf (Elt Ideal) ((c : Thread nD τ).loc b))

/-- What grid point t writes back is block t of the matrix product of the two arrays as the launch finds them. -/
theorem flushed_eq (c : Dev nD) (t : Fin cfg0.N) :
    (dat0 V c).flushed 2 t = ((cfg0.win 2).blk t).view.read (Elt Ideal) (Cert.Gcn.matProd (n := 500000) (k := 3) (m := 16) (V c main_arg0) (V c main_arg3)) := by
  show (cfg0.win 2).cut (grid0.coords t) ((dat0 V c).after 2 t) = _
  rw [after0_2]
  unfold out0_2
  rw [View.canon_unit_zero hz]
  simp only [View.ld_unit_zero (S := S5000x3) hz, View.ld_unit_zero (S := S3x16) hz]
  obtain ⟨e0, e1, e2, e3, e4, e5⟩ := idx_facts t
  funext j
  obtain ⟨p, q, rfl⟩ : ∃ (p : Fin 5000) (q : Fin 16), j = ix2 p q := ⟨j 0, j 1, eq_ix2 j⟩
  show k0_pay1 (iblk0 V c 0 t) (iblk0 V c 1 t) (ix2 p q) = Cert.Gcn.matProd (n := 500000) (k := 3) (m := 16) (V c main_arg0) (V c main_arg3) (((cfg0.win 2).blk t).view.emb (ix2 p q))
  refine (pay_apply _ _ p q).trans ?_
  unfold Cert.Gcn.matProd
  refine Finset.sum_congr rfl fun k _ => ?_
  have hA : iblk0 V c 0 t (ix2 p k) = V c main_arg0 (ix2 (n0 := 500000) (n1 := 3) ((((cfg0.win 2).blk t).view.emb (ix2 p q)) 0) k) := by
    show V c main_arg0 (((cfg0.win 0).blk t).view.emb (ix2 p k)) = _
    refine congrArg (V c main_arg0) ?_
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 3 + 1 * k.val = k.val; omega
  have hW : iblk0 V c 1 t (ix2 k q) = V c main_arg3 (ix2 (n0 := 3) (n1 := 16) k ((((cfg0.win 2).blk t).view.emb (ix2 p q)) 1)) := by
    show V c main_arg3 (((cfg0.win 1).blk t).view.emb (ix2 k q)) = _
    refine congrArg (V c main_arg3) ?_
    funext a; apply Fin.ext
    match a with
    | ⟨0, _⟩ => show win0_1.index t (0 : Fin 2) * 3 + 1 * k.val = k.val; omega
    | ⟨1, _⟩ => show win0_1.index t (1 : Fin 2) * 16 + 1 * q.val = win0_2.index t (1 : Fin 2) * 16 + 1 * q.val; omega
  rw [hA, hW]

/-- An index of the output array is in grid point t's block iff each coordinate is in the block's range on its axis. -/
theorem mem_blk (t : Fin cfg0.N) (i : S500000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v29).slice (win0_2.rect t)).set ↔ _
  rw [View.set_slice_whole, Rect.mem_set_unit]
  exact Iff.rfl

/-- Every row of the output lies in the block of the grid point numbered row / 5000. -/
theorem cover (i : S500000x16.Idx) :
    ∃ t : Fin cfg0.N, (cfg0.win 2).flush t = true ∧ i ∈ ((cfg0.win 2).blk t).view.set := by
  have hi0 : (i 0).val < 500000 := (i 0).isLt
  have hi1 : (i 1).val < 16 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- THE ARRAY the launch leaves: the matrix product of the two arrays it found. -/
theorem final (c : Dev nD) :
    (dat0 V c).arrAt 2 cfg0.N = Cert.Gcn.matProd (n := 500000) (k := 3) (m := 16) (V c main_arg0) (V c main_arg3) :=
  (dat0 V c).arrAt_eq_of_cover 2 _ (fun t _ => flushed_eq V c t) cover

end Cert.KernelIdeal.Stage0

end
-- ==== Proof.RefMatProd.lean ====
/-
  The reference program's two big products are matrix products: a dot_general contracting the left operand's
  columns with the right operand's rows, read at (r, c) on the extended reals, is ∑ q, left (r, q) · right (q, c).
-/
import proofs.«180380_j63909113364904_2_alg».proof.Proof.Gen.ReferenceIdeal.Read
import proofs.«180380_j63909113364904_2_alg».proof.Proof.Spec

noncomputable section

namespace Cert.ReferenceIdeal.Stage

open Cert.ReferenceIdeal Cert.ReferenceIdeal.Read Idealize.ShloMosaic Idealize.ShloMosaic.ValueIdx

/-- The first layer's product of the node features with the first weight matrix. -/
theorem v4_eq (x0 : (⟨S500000x3, .f32⟩ : BufTy).Contents (Elt Ideal)) (x3 : (⟨S3x16, .f32⟩ : BufTy).Contents (Elt Ideal)) :
    val_main_v4 (F := Ideal) x0 x3 = Cert.Gcn.matProd (n := 500000) (k := 3) (m := 16) x0 x3 := by
  funext i
  rw [val_main_v4_apply]
  unfold Cert.Gcn.matProd
  refine Finset.sum_congr rfl fun k _ => ?_
  have e1 : lidx_main_v4 i k = ix2 (n0 := 500000) (n1 := 3) (i 0) k :=
    funext fun a => Fin.ext (by match a with | ⟨0, _⟩ => rfl | ⟨1, _⟩ => rfl)
  have e2 : ridx_main_v4 i k = ix2 (n0 := 3) (n1 := 16) k (i 1) :=
    funext fun a => Fin.ext (by match a with | ⟨0, _⟩ => rfl | ⟨1, _⟩ => rfl)
  rw [e1, e2]

/-- The second layer's product of the first layer's output with the second weight matrix. -/
theorem v53_eq (x0 : (⟨S500000x3, .f32⟩ : BufTy).Contents (Elt Ideal)) (x1 : (⟨S2x8000000, .i32⟩ : BufTy).Contents (Elt Ideal))
    (x3 : (⟨S3x16, .f32⟩ : BufTy).Contents (Elt Ideal)) (x4 : (⟨S16, .f32⟩ : BufTy).Contents (Elt Ideal))
    (x5 : (⟨S16x32, .f32⟩ : BufTy).Contents (Elt Ideal)) :
    val_main_v53 (F := Ideal) x0 x1 x3 x4 x5 = Cert.Gcn.matProd (n := 500000) (k := 16) (m := 32) (val_main_v48 (F := Ideal) x0 x1 x3 x4) x5 := by
  funext i
  rw [val_main_v53_apply]
  generalize val_main_v48 (F := Ideal) x0 x1 x3 x4 = y
  unfold Cert.Gcn.matProd
  refine Finset.sum_congr rfl fun k _ => ?_
  have e1 : lidx_main_v53 i k = ix2 (n0 := 500000) (n1 := 16) (i 0) k :=
    funext fun a => Fin.ext (by match a with | ⟨0, _⟩ => rfl | ⟨1, _⟩ => rfl)
  have e2 : ridx_main_v53 i k = ix2 (n0 := 16) (n1 := 32) k (i 1) :=
    funext fun a => Fin.ext (by match a with | ⟨0, _⟩ => rfl | ⟨1, _⟩ => rfl)
  rw [e1, e2]

end Cert.ReferenceIdeal.Stage

end
-- ==== Proof.ChainA1.lean ====
/-
  The kernel program up to its first launch, against the reference, stage by stage. Before the first launch the
  host computes, from the edge list alone: the source and destination index vectors, the in-degree plus one by a
  scatter-add of ones, its reciprocal square root d, the square d·d as a column, and d gathered at the edges'
  two end points, each as a column. Each is the very operation the reference applies (the kernel program recasts
  a vector as a column where the reference broadcasts it into one). The first launch then leaves the product of
  the node features with the first weight matrix.
-/
import proofs.«180380_j63909113364904_2_alg».proof.Proof.Gen.KernelIdeal.Frame
import proofs.«180380_j63909113364904_2_alg».proof.Proof.Gen.ReferenceIdeal.Read
import proofs.«180380_j63909113364904_2_alg».proof.Proof.Spec
import proofs.«180380_j63909113364904_2_alg».proof.Proof.SpecLayout
import proofs.«180380_j63909113364904_2_alg».proof.Proof.Passes
import proofs.«180380_j63909113364904_2_alg».proof.Proof.MatProd0
import proofs.«180380_j63909113364904_2_alg».proof.Proof.RefMatProd
import Idealize.ShloMosaic.Lib.StableHlo.Run

set_option maxRecDepth 16384

noncomputable section

namespace Cert.KernelIdeal.Result

open Cert.KernelIdeal Cert.KernelIdeal.Gen Cert.ReferenceIdeal.Read
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The edges' source indices. -/
theorem src_1 : W1 m ρ c (Proc.devRef .tc main_v1) = val_main_v1 (F := Ideal) (m ((c : Thread nD τ).loc main_arg1)) := by
  show StableHlo.after hostOps0 (W0 m ρ c) (Proc.devRef .tc main_v1) = _
  after_results_simp
  rfl

/-- The edges' destination indices. -/
theorem dst_1 : W1 m ρ c (Proc.devRef .tc main_v3) = val_main_v3 (F := Ideal) (m ((c : Thread nD τ).loc main_arg1)) := by
  show StableHlo.after hostOps0 (W0 m ρ c) (Proc.devRef .tc main_v3) = _
  after_results_simp
  rfl

/-- The reciprocal square root of (in-degree + 1). -/
theorem dinv_1 : W1 m ρ c (Proc.devRef .tc main_v10) = val_main_v11 (F := Ideal) (m ((c : Thread nD τ).loc main_arg1)) := by
  show StableHlo.after hostOps0 (W0 m ρ c) (Proc.devRef .tc main_v10) = _
  after_results_simp
  rfl

/-- Its square, as a column. -/
theorem dsq_1 : W1 m ρ c (Proc.devRef .tc main_v12) = Cert.Gcn.colOf (val_main_v40 (F := Ideal) (m ((c : Thread nD τ).loc main_arg1))) := by
  show StableHlo.after hostOps0 (W0 m ρ c) (Proc.devRef .tc main_v12) = _
  after_results_simp
  exact Cert.Gcn.shapeCast_col (n := 500000) _ _

/-- It gathered at the edges' sources, as a column. -/
theorem dsrc_1 : W1 m ρ c (Proc.devRef .tc main_v20) = Cert.Gcn.colOf (val_main_v18 (F := Ideal) (m ((c : Thread nD τ).loc main_arg1))) := by
  show StableHlo.after hostOps0 (W0 m ρ c) (Proc.devRef .tc main_v20) = _
  after_results_simp
  exact Cert.Gcn.shapeCast_col (n := 8000000) _ _

/-- It gathered at the edges' destinations, as a column. -/
theorem ddst_1 : W1 m ρ c (Proc.devRef .tc main_v28) = Cert.Gcn.colOf (val_main_v25 (F := Ideal) (m ((c : Thread nD τ).loc main_arg1))) := by
  show StableHlo.after hostOps0 (W0 m ρ c) (Proc.devRef .tc main_v28) = _
  after_results_simp
  exact Cert.Gcn.shapeCast_col (n := 8000000) _ _

/-- The first launch leaves the node features times the first weight matrix: the reference's first product. -/
theorem h1_2 : W2 m ρ c (Proc.devRef .tc main_v29) = val_main_v4 (F := Ideal) (m ((c : Thread nD τ).loc main_arg0)) (m ((c : Thread nD τ).loc main_arg3)) := by
  refine (W2_arr m ρ c 2).trans ((Cert.KernelIdeal.Stage0.final (V1 m ρ) c).trans ?_)
  rw [Cert.ReferenceIdeal.Stage.v4_eq]
  show Cert.Gcn.matProd (W1 m ρ c (Proc.devRef .tc main_arg0)) (W1 m ρ c (Proc.devRef .tc main_arg3)) = _
  rw [pass_main_arg0_0_1, pass_main_arg3_0_1]

end Cert.KernelIdeal.Result

end
-- ==== Proof.EdgeMsg1.lean ====
/-
  Kernel launch 1 forms the message every edge carries. A grid point takes a block of 8000 edges: the block of
  gathered source features (8000 × 16) and the blocks of the two per-edge normalisations (8000 × 1 each); it
  multiplies the two normalisations, spreads the product along the 16 columns and multiplies by the features.
  The 1000 grid points cover the 8000000 edges, so the array the launch leaves has, at edge e and column c,
  (ds e · dd e) · h (e, c): the specification's edgeMsg of the three arrays the launch was given.
-/
import proofs.«180380_j63909113364904_2_alg».proof.Proof.Gen.KernelIdeal.Frame
import proofs.«180380_j63909113364904_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Stage1

open Cert.KernelIdeal Cert.KernelIdeal.Gen Idealize.ShloMosaic Idealize.ShloMosaic.TcCoe Idealize.SL.Sem
open Idealize.ShloMosaic.ValueIdx
open Idealize.ShloMosaic.Pipeline (Dat)

/-- A one-column block spread along 16 columns reads, at (p, q), the column's entry of row p. -/
theorem spread_col (x : FVec Ideal S8000x1 .f32) (p : Fin 8000) (q : Fin 16) :
    broadcastTo S8000x16 x broadcasts_S8000x1_S8000x16 (ix2 p q) = x (ix2 p 0) := by
  refine broadcastTo_apply x broadcasts_S8000x1_S8000x16 (ix2 p q) (ix2 p 0) (fun a => ?_)
  match a with
  | ⟨0, _⟩ => show p.val = if (8000 : Nat) = 1 then 0 else p.val; rw [if_neg (by decide)]
  | ⟨1, _⟩ => show (0 : Nat) = if (1 : Nat) = 1 then 0 else q.val; rw [if_pos rfl]

/-- The body's stored value at (p, q): the product of the two normalisations of row p, times the feature at (p, q). -/
theorem pay_apply (x1 x2 : FVec Ideal S8000x1 .f32) (x0 : FVec Ideal S8000x16 .f32) (p : Fin 8000) (q : Fin 16) :
    k1_pay1 (F := Ideal) x1 x2 x0 (ix2 p q) = (x1 (ix2 p 0) * x2 (ix2 p 0)) * x0 (ix2 p q) := by
  show mulf (broadcastTo S8000x16 (mulf (shapeCast S8000x1 x1 shapeCasts_S8000x1_S8000x1) (shapeCast S8000x1 x2 shapeCasts_S8000x1_S8000x1)) broadcasts_S8000x1_S8000x16) (shapeCast S8000x16 x0 shapeCasts_S8000x16_S8000x16) (ix2 p q) = _
  rw [shapeCast_self x1, shapeCast_self x2, shapeCast_self x0]
  refine (mulf_apply _ _ (ix2 p q)).trans ?_
  rw [spread_col (mulf x1 x2) p q]
  rfl

theorem hz : (![0, 0] : Fin 2 → Nat) = fun _ => 0 := funext fun a => by fin_cases a <;> rfl

theorem gridN : grid1.N = 1000 := by decide

/-- Where each window's block sits at grid point t: every window's block is the t-th block of rows, all columns. -/
theorem idx_facts : ∀ t : Fin cfg1.N, win1_0.index t = ![t.val, 0]
    ∧ win1_1.index t = ![t.val, 0]
    ∧ win1_2.index t = ![t.val, 0]
    ∧ win1_3.index t = ![t.val, 0] :=
  (by decide +kernel : ∀ t : Fin grid1.N, _)

variable (V : (c : Dev nD) → (b : Ref sig .tc) → Buf (Elt Ideal) ((c : Thread nD τ).loc b))

/-- What grid point t writes back is block t of the edge messages of the three arrays as the launch finds them. -/
theorem flushed_eq (c : Dev nD) (t : Fin cfg1.N) :
    (dat1 V c).flushed 3 t = ((cfg1.win 3).blk t).view.read (Elt Ideal) (Cert.Gcn.edgeMsg (e := 8000000) (c := 16) (V c main_v36) (V c main_v20) (V c main_v28)) := by
  show (cfg1.win 3).cut (grid1.coords t) ((dat1 V c).after 3 t) = _
  rw [after1_3]
  unfold out1_3
  rw [View.canon_unit_zero hz]
  simp only [View.ld_unit_zero (S := S8000x1) hz, View.ld_unit_zero (S := S8000x16) hz]
  obtain ⟨e0, e1, e2, e3⟩ := idx_facts t
  have a0 : win1_0.index t (0 : Fin 2) = t.val := congrFun e0 0
  have b0 : win1_0.index t (1 : Fin 2) = 0 := congrFun e0 1
  have a1 : win1_1.index t (0 : Fin 2) = t.val := congrFun e1 0
  have b1 : win1_1.index t (1 : Fin 2) = 0 := congrFun e1 1
  have a2 : win1_2.index t (0 : Fin 2) = t.val := congrFun e2 0
  have b2 : win1_2.index t (1 : Fin 2) = 0 := congrFun e2 1
  have a3 : win1_3.index t (0 : Fin 2) = t.val := congrFun e3 0
  have b3 : win1_3.index t (1 : Fin 2) = 0 := congrFun e3 1
  funext j
  obtain ⟨p, q, rfl⟩ : ∃ (p : Fin 8000) (q : Fin 16), j = ix2 p q := ⟨j 0, j 1, eq_ix2 j⟩
  show k1_pay1 (iblk1 V c 1 t) (iblk1 V c 2 t) (iblk1 V c 0 t) (ix2 p q) = Cert.Gcn.edgeMsg (e := 8000000) (c := 16) (V c main_v36) (V c main_v20) (V c main_v28) (((cfg1.win 3).blk t).view.emb (ix2 p q))
  refine (pay_apply _ _ _ p q).trans ?_
  unfold Cert.Gcn.edgeMsg
  have hH : iblk1 V c 0 t (ix2 p q) = V c main_v36 (((cfg1.win 3).blk t).view.emb (ix2 p q)) := by
    show V c main_v36 (((cfg1.win 0).blk t).view.emb (ix2 p q)) = _
    refine congrArg (V c main_v36) ?_
    funext a; apply Fin.ext
    match a with
    | ⟨0, _⟩ => show win1_0.index t (0 : Fin 2) * 8000 + 1 * p.val = win1_3.index t (0 : Fin 2) * 8000 + 1 * p.val; omega
    | ⟨1, _⟩ => show win1_0.index t (1 : Fin 2) * 16 + 1 * q.val = win1_3.index t (1 : Fin 2) * 16 + 1 * q.val; omega
  have hS : iblk1 V c 1 t (ix2 p 0) = V c main_v20 (ix2 (n0 := 8000000) (n1 := 1) ((((cfg1.win 3).blk t).view.emb (ix2 p q)) 0) 0) := by
    show V c main_v20 (((cfg1.win 1).blk t).view.emb (ix2 p 0)) = _
    refine congrArg (V c main_v20) ?_
    funext a; apply Fin.ext
    match a with
    | ⟨0, _⟩ => show win1_1.index t (0 : Fin 2) * 8000 + 1 * p.val = win1_3.index t (0 : Fin 2) * 8000 + 1 * p.val; omega
    | ⟨1, _⟩ => show win1_1.index t (1 : Fin 2) * 1 + 1 * 0 = 0; omega
  have hD : iblk1 V c 2 t (ix2 p 0) = V c main_v28 (ix2 (n0 := 8000000) (n1 := 1) ((((cfg1.win 3).blk t).view.emb (ix2 p q)) 0) 0) := by
    show V c main_v28 (((cfg1.win 2).blk t).view.emb (ix2 p 0)) = _
    refine congrArg (V c main_v28) ?_
    funext a; apply Fin.ext
    match a with
    | ⟨0, _⟩ => show win1_2.index t (0 : Fin 2) * 8000 + 1 * p.val = win1_3.index t (0 : Fin 2) * 8000 + 1 * p.val; omega
    | ⟨1, _⟩ => show win1_2.index t (1 : Fin 2) * 1 + 1 * 0 = 0; omega
  rw [hH, hS, hD]

/-- An index of the output array is in grid point t's block iff each coordinate is in the block's range on its axis. -/
theorem mem_blk (t : Fin cfg1.N) (i : S8000000x16.Idx) :
    i ∈ ((cfg1.win 3).blk t).view.set ↔ ∀ a : Fin 2, win1_3.index t a * S8000x16.size a ≤ (i a).val ∧ (i a).val < win1_3.index t a * S8000x16.size a + S8000x16.size a := by
  show i ∈ ((View.whole main_v37).slice (win1_3.rect t)).set ↔ _
  rw [View.set_slice_whole, Rect.mem_set_unit]
  exact Iff.rfl

/-- Every edge lies in the block of the grid point numbered edge / 8000. -/
theorem cover (i : S8000000x16.Idx) :
    ∃ t : Fin cfg1.N, (cfg1.win 3).flush t = true ∧ i ∈ ((cfg1.win 3).blk t).view.set := by
  have hi0 : (i 0).val < 8000000 := (i 0).isLt
  have hi1 : (i 1).val < 16 := (i 1).isLt
  have hN : grid1.N = 1000 := gridN
  have hlt : (i 0).val / 8000 < cfg1.N := by show (i 0).val / 8000 < grid1.N; omega
  obtain ⟨-, -, -, e3⟩ := idx_facts ⟨(i 0).val / 8000, hlt⟩
  have q0 : win1_3.index ⟨(i 0).val / 8000, hlt⟩ (0 : Fin 2) = (i 0).val / 8000 := congrFun e3 0
  have q1 : win1_3.index ⟨(i 0).val / 8000, hlt⟩ (1 : Fin 2) = 0 := congrFun e3 1
  refine ⟨⟨(i 0).val / 8000, hlt⟩, flush1_3 _, ?_⟩
  rw [mem_blk]
  intro a
  match a with
  | ⟨0, _⟩ => show win1_3.index ⟨(i 0).val / 8000, hlt⟩ (0 : Fin 2) * 8000 ≤ (i 0).val ∧ (i 0).val < win1_3.index ⟨(i 0).val / 8000, hlt⟩ (0 : Fin 2) * 8000 + 8000; omega
  | ⟨1, _⟩ => show win1_3.index ⟨(i 0).val / 8000, hlt⟩ (1 : Fin 2) * 16 ≤ (i 1).val ∧ (i 1).val < win1_3.index ⟨(i 0).val / 8000, hlt⟩ (1 : Fin 2) * 16 + 16; omega

/-- THE ARRAY the launch leaves: the edge messages of the three arrays it found. -/
theorem final (c : Dev nD) :
    (dat1 V c).arrAt 3 cfg1.N = Cert.Gcn.edgeMsg (e := 8000000) (c := 16) (V c main_v36) (V c main_v20) (V c main_v28) :=
  (dat1 V c).arrAt_eq_of_cover 3 _ (fun t _ => flushed_eq V c t) cover

end Cert.KernelIdeal.Stage1

end
-- ==== Proof.Combine2.lean ====
/-
  Kernel launch 2 combines, for a block of 5000 nodes at each grid point, the aggregated messages (5000 × 16), the
  node's own features (5000 × 16) scaled by the node's squared normalisation (a 5000 × 1 column spread along the
  columns) and the bias (a 1 × 16 row, the same whole block at every point, spread along the rows), and takes the
  maximum with zero. The 100 grid points cover the 500000 nodes, so the array the launch leaves has, at node r and
  column c, max ((agg (r, c) + dsq r · h (r, c)) + b c, 0): the specification's combine of the four arrays the
  launch was given.
-/
import proofs.«180380_j63909113364904_2_alg».proof.Proof.Gen.KernelIdeal.Frame
import proofs.«180380_j63909113364904_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Stage2

open Cert.KernelIdeal Cert.KernelIdeal.Gen Idealize.ShloMosaic Idealize.ShloMosaic.TcCoe Idealize.SL.Sem
open Idealize.ShloMosaic.ValueIdx
open Idealize.ShloMosaic.Pipeline (Dat)

/-- A one-column block spread along 16 columns reads, at (p, q), the column's entry of row p. -/
theorem spread_col (x : FVec Ideal S5000x1 .f32) (p : Fin 5000) (q : Fin 16) :
    broadcastTo S5000x16 x broadcasts_S5000x1_S5000x16 (ix2 p q) = x (ix2 p 0) := by
  refine broadcastTo_apply x broadcasts_S5000x1_S5000x16 (ix2 p q) (ix2 p 0) (fun a => ?_)
  match a with
  | ⟨0, _⟩ => show p.val = if (5000 : Nat) = 1 then 0 else p.val; rw [if_neg (by decide)]
  | ⟨1, _⟩ => show (0 : Nat) = if (1 : Nat) = 1 then 0 else q.val; rw [if_pos rfl]

/-- A one-row block spread along 5000 rows reads, at (p, q), the row's entry of column q. -/
theorem spread_row (x : FVec Ideal S1x16 .f32) (p : Fin 5000) (q : Fin 16) :
    broadcastTo S5000x16 x broadcasts_S1x16_S5000x16 (ix2 p q) = x (ix2 0 q) := by
  refine broadcastTo_apply x broadcasts_S1x16_S5000x16 (ix2 p q) (ix2 0 q) (fun a => ?_)
  match a with
  | ⟨0, _⟩ => show (0 : Nat) = if (1 : Nat) = 1 then 0 else p.val; rw [if_pos rfl]
  | ⟨1, _⟩ => show q.val = if (16 : Nat) = 1 then 0 else q.val; rw [if_neg (by decide)]

/-- The body's stored value at (p, q): aggregated message plus scaled feature plus bias, rectified. -/
theorem pay_apply (x0 : FVec Ideal S5000x16 .f32) (x2 : FVec Ideal S5000x1 .f32) (x1 : FVec Ideal S5000x16 .f32)
    (x3 : FVec Ideal S1x16 .f32) (p : Fin 5000) (q : Fin 16) :
    k2_pay1 (F := Ideal) x0 x2 x1 x3 (ix2 p q) = max ((x0 (ix2 p q) + x2 (ix2 p 0) * x1 (ix2 p q)) + x3 (ix2 0 q)) 0 := by
  show maximumf (addf (addf (shapeCast S5000x16 x0 shapeCasts_S5000x16_S5000x16) (mulf (broadcastTo S5000x16 (shapeCast S5000x1 x2 shapeCasts_S5000x1_S5000x1) broadcasts_S5000x1_S5000x16) (shapeCast S5000x16 x1 shapeCasts_S5000x16_S5000x16))) (broadcastTo S5000x16 (shapeCast S1x16 x3 shapeCasts_S1x16_S1x16) broadcasts_S1x16_S5000x16)) (broadcast S5000x16 (Scalar.ofBits (F := Ideal) .f32 0x00000000#32)) (ix2 p q) = _
  rw [shapeCast_self x0, shapeCast_self x2, shapeCast_self x1, shapeCast_self x3]
  show max ((x0 (ix2 p q) + broadcastTo S5000x16 x2 broadcasts_S5000x1_S5000x16 (ix2 p q) * x1 (ix2 p q)) + broadcastTo S5000x16 x3 broadcasts_S1x16_S5000x16 (ix2 p q)) (Ideal.ofBits .f32 0x00000000#32) = _
  rw [spread_col x2 p q, spread_row x3 p q, Ideal.ofBits_zero_f32]

theorem hz : (![0, 0] : Fin 2 → Nat) = fun _ => 0 := funext fun a => by fin_cases a <;> rfl

theorem gridN : grid2.N = 100 := by decide

/-- Where each window's block sits at grid point t: the bias is one whole block; every other window's block is the
    t-th block of rows, all columns. -/
theorem idx_facts : ∀ t : Fin cfg2.N, win2_0.index t = ![t.val, 0]
    ∧ win2_1.index t = ![t.val, 0]
    ∧ win2_2.index t = ![t.val, 0]
    ∧ win2_3.index t = ![0, 0]
    ∧ win2_4.index t = ![t.val, 0] :=
  (by decide +kernel : ∀ t : Fin grid2.N, _)

variable (V : (c : Dev nD) → (b : Ref sig .tc) → Buf (Elt Ideal) ((c : Thread nD τ).loc b))

/-- What grid point t writes back is block t of the combination of the four arrays as the launch finds them. -/
theorem flushed_eq (c : Dev nD) (t : Fin cfg2.N) :
    (dat2 V c).flushed 4 t = ((cfg2.win 4).blk t).view.read (Elt Ideal) (Cert.Gcn.combine (n := 500000) (c := 16) (V c main_v40) (V c main_v29) (V c main_v12) (V c main_v41)) := by
  show (cfg2.win 4).cut (grid2.coords t) ((dat2 V c).after 4 t) = _
  rw [after2_4]
  unfold out2_4
  rw [View.canon_unit_zero hz]
  simp only [View.ld_unit_zero (S := S5000x16) hz, View.ld_unit_zero (S := S5000x1) hz, View.ld_unit_zero (S := S1x16) hz]
  obtain ⟨e0, e1, e2, e3, e4⟩ := idx_facts t
  have a0 : win2_0.index t (0 : Fin 2) = t.val := congrFun e0 0
  have b0 : win2_0.index t (1 : Fin 2) = 0 := congrFun e0 1
  have a1 : win2_1.index t (0 : Fin 2) = t.val := congrFun e1 0
  have b1 : win2_1.index t (1 : Fin 2) = 0 := congrFun e1 1
  have a2 : win2_2.index t (0 : Fin 2) = t.val := congrFun e2 0
  have b2 : win2_2.index t (1 : Fin 2) = 0 := congrFun e2 1
  have a3 : win2_3.index t (0 : Fin 2) = 0 := congrFun e3 0
  have b3 : win2_3.index t (1 : Fin 2) = 0 := congrFun e3 1
  have a4 : win2_4.index t (0 : Fin 2) = t.val := congrFun e4 0
  have b4 : win2_4.index t (1 : Fin 2) = 0 := congrFun e4 1
  funext j
  obtain ⟨p, q, rfl⟩ : ∃ (p : Fin 5000) (q : Fin 16), j = ix2 p q := ⟨j 0, j 1, eq_ix2 j⟩
  show k2_pay1 (iblk2 V c 0 t) (iblk2 V c 2 t) (iblk2 V c 1 t) (iblk2 V c 3 t) (ix2 p q) = Cert.Gcn.combine (n := 500000) (c := 16) (V c main_v40) (V c main_v29) (V c main_v12) (V c main_v41) (((cfg2.win 4).blk t).view.emb (ix2 p q))
  refine (pay_apply _ _ _ _ p q).trans ?_
  unfold Cert.Gcn.combine
  have hA : iblk2 V c 0 t (ix2 p q) = V c main_v40 (((cfg2.win 4).blk t).view.emb (ix2 p q)) := by
    show V c main_v40 (((cfg2.win 0).blk t).view.emb (ix2 p q)) = _
    refine congrArg (V c main_v40) ?_
    funext a; apply Fin.ext
    match a with
    | ⟨0, _⟩ => show win2_0.index t (0 : Fin 2) * 5000 + 1 * p.val = win2_4.index t (0 : Fin 2) * 5000 + 1 * p.val; omega
    | ⟨1, _⟩ => show win2_0.index t (1 : Fin 2) * 16 + 1 * q.val = win2_4.index t (1 : Fin 2) * 16 + 1 * q.val; omega
  have hH : iblk2 V c 1 t (ix2 p q) = V c main_v29 (((cfg2.win 4).blk t).view.emb (ix2 p q)) := by
    show V c main_v29 (((cfg2.win 1).blk t).view.emb (ix2 p q)) = _
    refine congrArg (V c main_v29) ?_
    funext a; apply Fin.ext
    match a with
    | ⟨0, _⟩ => show win2_1.index t (0 : Fin 2) * 5000 + 1 * p.val = win2_4.index t (0 : Fin 2) * 5000 + 1 * p.val; omega
    | ⟨1, _⟩ => show win2_1.index t (1 : Fin 2) * 16 + 1 * q.val = win2_4.index t (1 : Fin 2) * 16 + 1 * q.val; omega
  have hD : iblk2 V c 2 t (ix2 p 0) = V c main_v12 (ix2 (n0 := 500000) (n1 := 1) ((((cfg2.win 4).blk t).view.emb (ix2 p q)) 0) 0) := by
    show V c main_v12 (((cfg2.win 2).blk t).view.emb (ix2 p 0)) = _
    refine congrArg (V c main_v12) ?_
    funext a; apply Fin.ext
    match a with
    | ⟨0, _⟩ => show win2_2.index t (0 : Fin 2) * 5000 + 1 * p.val = win2_4.index t (0 : Fin 2) * 5000 + 1 * p.val; omega
    | ⟨1, _⟩ => show win2_2.index t (1 : Fin 2) * 1 + 1 * 0 = 0; omega
  have hB : iblk2 V c 3 t (ix2 0 q) = V c main_v41 (ix2 (n0 := 1) (n1 := 16) 0 ((((cfg2.win 4).blk t).view.emb (ix2 p q)) 1)) := by
    show V c main_v41 (((cfg2.win 3).blk t).view.emb (ix2 0 q)) = _
    refine congrArg (V c main_v41) ?_
    funext a; apply Fin.ext
    match a with
    | ⟨0, _⟩ => show win2_3.index t (0 : Fin 2) * 1 + 1 * 0 = 0; omega
    | ⟨1, _⟩ => show win2_3.index t (1 : Fin 2) * 16 + 1 * q.val = win2_4.index t (1 : Fin 2) * 16 + 1 * q.val; omega
  rw [hA, hH, hD, hB]

/-- An index of the output array is in grid point t's block iff each coordinate is in the block's range on its axis. -/
theorem mem_blk (t : Fin cfg2.N) (i : S500000x16.Idx) :
    i ∈ ((cfg2.win 4).blk t).view.set ↔ ∀ a : Fin 2, win2_4.index t a * S5000x16.size a ≤ (i a).val ∧ (i a).val < win2_4.index t a * S5000x16.size a + S5000x16.size a := by
  show i ∈ ((View.whole main_v42).slice (win2_4.rect t)).set ↔ _
  rw [View.set_slice_whole, Rect.mem_set_unit]
  exact Iff.rfl

/-- Every node lies in the block of the grid point numbered node / 5000. -/
theorem cover (i : S500000x16.Idx) :
    ∃ t : Fin cfg2.N, (cfg2.win 4).flush t = true ∧ i ∈ ((cfg2.win 4).blk t).view.set := by
  have hi0 : (i 0).val < 500000 := (i 0).isLt
  have hi1 : (i 1).val < 16 := (i 1).isLt
  have hN : grid2.N = 100 := gridN
  have hlt : (i 0).val / 5000 < cfg2.N := by show (i 0).val / 5000 < grid2.N; omega
  obtain ⟨-, -, -, -, e4⟩ := idx_facts ⟨(i 0).val / 5000, hlt⟩
  have q0 : win2_4.index ⟨(i 0).val / 5000, hlt⟩ (0 : Fin 2) = (i 0).val / 5000 := congrFun e4 0
  have q1 : win2_4.index ⟨(i 0).val / 5000, hlt⟩ (1 : Fin 2) = 0 := congrFun e4 1
  refine ⟨⟨(i 0).val / 5000, hlt⟩, flush2_4 _, ?_⟩
  rw [mem_blk]
  intro a
  match a with
  | ⟨0, _⟩ => show win2_4.index ⟨(i 0).val / 5000, hlt⟩ (0 : Fin 2) * 5000 ≤ (i 0).val ∧ (i 0).val < win2_4.index ⟨(i 0).val / 5000, hlt⟩ (0 : Fin 2) * 5000 + 5000; omega
  | ⟨1, _⟩ => show win2_4.index ⟨(i 0).val / 5000, hlt⟩ (1 : Fin 2) * 16 ≤ (i 1).val ∧ (i 1).val < win2_4.index ⟨(i 0).val / 5000, hlt⟩ (1 : Fin 2) * 16 + 16; omega

/-- THE ARRAY the launch leaves: the combination of the four arrays it found. -/
theorem final (c : Dev nD) :
    (dat2 V c).arrAt 4 cfg2.N = Cert.Gcn.combine (n := 500000) (c := 16) (V c main_v40) (V c main_v29) (V c main_v12) (V c main_v41) :=
  (dat2 V c).arrAt_eq_of_cover 4 _ (fun t _ => flushed_eq V c t) cover

end Cert.KernelIdeal.Stage2

end
-- ==== Proof.RefPointwise.lean ====
/-
  The reference program's pointwise stages, read index by index on the extended reals, for arbitrary operands.
    * The edge message: the two per-edge normalisations (vectors of length 8000000) are multiplied entry by entry,
      the product is carried as a one-column matrix and spread along the feature columns, then multiplied by the
      gathered features: at edge e and column c this is (g1 e · g2 e) · hs (e, c), the specification's edgeMsg
      with the two vectors carried as one-column matrices.
    * The combination: aggregated messages, plus the squared normalisation of the node (a vector carried as a
      column and spread along the columns) times the node's features, plus the bias (a vector carried as a row and
      spread along the rows), then the maximum with the constant zero spread over the whole array: the
      specification's combine with the vector as a column and the bias as a row.
  Each spreading step is a broadcast whose source coordinate on a size-one axis is 0 and on any other axis is the
  target's coordinate; the statements hold for any proof of the broadcasts' side conditions.
-/
import proofs.«180380_j63909113364904_2_alg».proof.ReferenceIdeal
import proofs.«180380_j63909113364904_2_alg».proof.Proof.Spec
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.ReferenceIdeal.Stage

open Cert.ReferenceIdeal Idealize.ShloMosaic Idealize.ShloMosaic.TcCoe Idealize.SL.Sem
open Idealize.ShloMosaic.ValueIdx

/-! ## The spreading steps at an index -/

/-- A vector of length 8000000 carried as a one-column matrix reads the vector's entry of the row. -/
theorem col8M_apply {α : Type} (h : S8000000.BroadcastsInDim S8000000x1 (![0] : Fin 1 → Fin S8000000x1.rank))
    (x : S8000000.Idx → α) (p : Fin 8000000) :
    broadcastInDim S8000000x1 ![0] h x (ix2 (n0 := 8000000) (n1 := 1) p 0) = x (ix1 (n := 8000000) p) :=
  broadcastInDim_apply _ h x (ix2 (n0 := 8000000) (n1 := 1) p 0) (ix1 (n := 8000000) p) (fun a => match a with
    | ⟨0, _⟩ => by show p.val = if (8000000 : Nat) = 1 then 0 else p.val; rw [if_neg (by decide)])

/-- A vector of length 500000 carried as a one-column matrix reads the vector's entry of the row. -/
theorem col500k_apply {α : Type} (h : S500000.BroadcastsInDim S500000x1 (![0] : Fin 1 → Fin S500000x1.rank))
    (x : S500000.Idx → α) (p : Fin 500000) :
    broadcastInDim S500000x1 ![0] h x (ix2 (n0 := 500000) (n1 := 1) p 0) = x (ix1 (n := 500000) p) :=
  broadcastInDim_apply _ h x (ix2 (n0 := 500000) (n1 := 1) p 0) (ix1 (n := 500000) p) (fun a => match a with
    | ⟨0, _⟩ => by show p.val = if (500000 : Nat) = 1 then 0 else p.val; rw [if_neg (by decide)])

/-! ## Sixteen feature columns -/

/-- A one-column matrix of 8000000 rows spread along 16 columns reads the column's entry of the row. -/
theorem spread8M_16_apply {α : Type} (h : S8000000x1.BroadcastsInDim S8000000x16 (![0, 1] : Fin 2 → Fin S8000000x16.rank))
    (x : S8000000x1.Idx → α) (p : Fin 8000000) (q : Fin 16) :
    broadcastInDim S8000000x16 ![0, 1] h x (ix2 (n0 := 8000000) (n1 := 16) p q) = x (ix2 (n0 := 8000000) (n1 := 1) p 0) :=
  broadcastInDim_apply _ h x (ix2 (n0 := 8000000) (n1 := 16) p q) (ix2 (n0 := 8000000) (n1 := 1) p 0) (fun a => match a with
    | ⟨0, _⟩ => by show p.val = if (8000000 : Nat) = 1 then 0 else p.val; rw [if_neg (by decide)]
    | ⟨1, _⟩ => by show (0 : Nat) = if (1 : Nat) = 1 then 0 else q.val; rw [if_pos rfl])

/-- A one-column matrix of 500000 rows spread along 16 columns reads the column's entry of the row. -/
theorem spread500k_16_apply {α : Type} (h : S500000x1.BroadcastsInDim S500000x16 (![0, 1] : Fin 2 → Fin S500000x16.rank))
    (x : S500000x1.Idx → α) (p : Fin 500000) (q : Fin 16) :
    broadcastInDim S500000x16 ![0, 1] h x (ix2 (n0 := 500000) (n1 := 16) p q) = x (ix2 (n0 := 500000) (n1 := 1) p 0) :=
  broadcastInDim_apply _ h x (ix2 (n0 := 500000) (n1 := 16) p q) (ix2 (n0 := 500000) (n1 := 1) p 0) (fun a => match a with
    | ⟨0, _⟩ => by show p.val = if (500000 : Nat) = 1 then 0 else p.val; rw [if_neg (by decide)]
    | ⟨1, _⟩ => by show (0 : Nat) = if (1 : Nat) = 1 then 0 else q.val; rw [if_pos rfl])

/-- A vector of length 16 carried as a one-row matrix reads the vector's entry of the column. -/
theorem row16_apply {α : Type} (h : S16.BroadcastsInDim S1x16 (![1] : Fin 1 → Fin S1x16.rank))
    (x : S16.Idx → α) (q : Fin 16) :
    broadcastInDim S1x16 ![1] h x (ix2 (n0 := 1) (n1 := 16) 0 q) = x (ix1 (n := 16) q) :=
  broadcastInDim_apply _ h x (ix2 (n0 := 1) (n1 := 16) 0 q) (ix1 (n := 16) q) (fun a => match a with
    | ⟨0, _⟩ => by show q.val = if (16 : Nat) = 1 then 0 else q.val; rw [if_neg (by decide)])

/-- A one-row matrix of 16 columns spread along 500000 rows reads the row's entry of the column. -/
theorem spreadRow16_apply {α : Type} (h : S1x16.BroadcastsInDim S500000x16 (![0, 1] : Fin 2 → Fin S500000x16.rank))
    (x : S1x16.Idx → α) (p : Fin 500000) (q : Fin 16) :
    broadcastInDim S500000x16 ![0, 1] h x (ix2 (n0 := 500000) (n1 := 16) p q) = x (ix2 (n0 := 1) (n1 := 16) 0 q) :=
  broadcastInDim_apply _ h x (ix2 (n0 := 500000) (n1 := 16) p q) (ix2 (n0 := 1) (n1 := 16) 0 q) (fun a => match a with
    | ⟨0, _⟩ => by show (0 : Nat) = if (1 : Nat) = 1 then 0 else p.val; rw [if_pos rfl]
    | ⟨1, _⟩ => by show q.val = if (16 : Nat) = 1 then 0 else q.val; rw [if_neg (by decide)])

/-- The reference's edge message at 16 feature columns is the specification's, the two vectors carried as columns. -/
theorem edge16 (g1 g2 : (⟨S8000000, .f32⟩ : BufTy).Contents (Elt Ideal)) (hs : (⟨S8000000x16, .f32⟩ : BufTy).Contents (Elt Ideal))
    {h1 : S8000000.BroadcastsInDim S8000000x1 (![0] : Fin 1 → Fin S8000000x1.rank)}
    {h2 : S8000000x1.BroadcastsInDim S8000000x16 (![0, 1] : Fin 2 → Fin S8000000x16.rank)} :
    mulf (F := Ideal) (φ := .f32) (broadcastInDim S8000000x16 ![0, 1] h2 (broadcastInDim S8000000x1 ![0] h1 (mulf (F := Ideal) (φ := .f32) g1 g2))) hs
      = Cert.Gcn.edgeMsg (e := 8000000) (c := 16) hs (Cert.Gcn.colOf g1) (Cert.Gcn.colOf g2) := by
  funext i
  obtain ⟨p, q, rfl⟩ : ∃ (p : Fin 8000000) (q : Fin 16), i = ix2 p q := ⟨i 0, i 1, eq_ix2 i⟩
  refine (mulf_apply _ _ (ix2 p q)).trans ?_
  rw [spread8M_16_apply h2 _ p q, col8M_apply h1 _ p] <;> rfl

/-- The reference's combination at 16 feature columns is the specification's, the vector carried as a column and the
    bias as a row. -/
theorem comb16 (agg h : (⟨S500000x16, .f32⟩ : BufTy).Contents (Elt Ideal)) (d2 : (⟨S500000, .f32⟩ : BufTy).Contents (Elt Ideal))
    (b : (⟨S16, .f32⟩ : BufTy).Contents (Elt Ideal))
    {h1 : S500000.BroadcastsInDim S500000x1 (![0] : Fin 1 → Fin S500000x1.rank)}
    {h2 : S500000x1.BroadcastsInDim S500000x16 (![0, 1] : Fin 2 → Fin S500000x16.rank)}
    {h3 : S16.BroadcastsInDim S1x16 (![1] : Fin 1 → Fin S1x16.rank)}
    {h4 : S1x16.BroadcastsInDim S500000x16 (![0, 1] : Fin 2 → Fin S500000x16.rank)}
    {h5 : S_.BroadcastsInDim S500000x16 (![] : Fin 0 → Fin S500000x16.rank)} :
    maximumf (F := Ideal) (φ := .f32) (addf (F := Ideal) (φ := .f32) (addf (F := Ideal) (φ := .f32) agg (mulf (F := Ideal) (φ := .f32) (broadcastInDim S500000x16 ![0, 1] h2 (broadcastInDim S500000x1 ![0] h1 d2)) h))
        (broadcastInDim S500000x16 ![0, 1] h4 (broadcastInDim S1x16 ![1] h3 b)))
        (broadcastInDim S500000x16 ![] h5 (constant (F := Ideal) S_ .f32 0x00000000#32))
      = Cert.Gcn.combine (n := 500000) (c := 16) agg h (Cert.Gcn.colOf d2) (Cert.Gcn.rowOf b) := by
  funext i
  obtain ⟨p, q, rfl⟩ : ∃ (p : Fin 500000) (q : Fin 16), i = ix2 p q := ⟨i 0, i 1, eq_ix2 i⟩
  rw [maximumf_apply, addf_apply, addf_apply, mulf_apply,
    spread500k_16_apply h2 _ p q, col500k_apply h1 _ p, spreadRow16_apply h4 _ p q, row16_apply h3 _ q,
    broadcastInDim_scalar_apply h5 _ (ix2 p q), constant_apply, Ideal.ofBits_zero_f32] <;> rfl

/-! ## Thirty-two feature columns -/

/-- A one-column matrix of 8000000 rows spread along 32 columns reads the column's entry of the row. -/
theorem spread8M_32_apply {α : Type} (h : S8000000x1.BroadcastsInDim S8000000x32 (![0, 1] : Fin 2 → Fin S8000000x32.rank))
    (x : S8000000x1.Idx → α) (p : Fin 8000000) (q : Fin 32) :
    broadcastInDim S8000000x32 ![0, 1] h x (ix2 (n0 := 8000000) (n1 := 32) p q) = x (ix2 (n0 := 8000000) (n1 := 1) p 0) :=
  broadcastInDim_apply _ h x (ix2 (n0 := 8000000) (n1 := 32) p q) (ix2 (n0 := 8000000) (n1 := 1) p 0) (fun a => match a with
    | ⟨0, _⟩ => by show p.val = if (8000000 : Nat) = 1 then 0 else p.val; rw [if_neg (by decide)]
    | ⟨1, _⟩ => by show (0 : Nat) = if (1 : Nat) = 1 then 0 else q.val; rw [if_pos rfl])

/-- A one-column matrix of 500000 rows spread along 32 columns reads the column's entry of the row. -/
theorem spread500k_32_apply {α : Type} (h : S500000x1.BroadcastsInDim S500000x32 (![0, 1] : Fin 2 → Fin S500000x32.rank))
    (x : S500000x1.Idx → α) (p : Fin 500000) (q : Fin 32) :
    broadcastInDim S500000x32 ![0, 1] h x (ix2 (n0 := 500000) (n1 := 32) p q) = x (ix2 (n0 := 500000) (n1 := 1) p 0) :=
  broadcastInDim_apply _ h x (ix2 (n0 := 500000) (n1 := 32) p q) (ix2 (n0 := 500000) (n1 := 1) p 0) (fun a => match a with
    | ⟨0, _⟩ => by show p.val = if (500000 : Nat) = 1 then 0 else p.val; rw [if_neg (by decide)]
    | ⟨1, _⟩ => by show (0 : Nat) = if (1 : Nat) = 1 then 0 else q.val; rw [if_pos rfl])

/-- A vector of length 32 carried as a one-row matrix reads the vector's entry of the column. -/
theorem row32_apply {α : Type} (h : S32.BroadcastsInDim S1x32 (![1] : Fin 1 → Fin S1x32.rank))
    (x : S32.Idx → α) (q : Fin 32) :
    broadcastInDim S1x32 ![1] h x (ix2 (n0 := 1) (n1 := 32) 0 q) = x (ix1 (n := 32) q) :=
  broadcastInDim_apply _ h x (ix2 (n0 := 1) (n1 := 32) 0 q) (ix1 (n := 32) q) (fun a => match a with
    | ⟨0, _⟩ => by show q.val = if (32 : Nat) = 1 then 0 else q.val; rw [if_neg (by decide)])

/-- A one-row matrix of 32 columns spread along 500000 rows reads the row's entry of the column. -/
theorem spreadRow32_apply {α : Type} (h : S1x32.BroadcastsInDim S500000x32 (![0, 1] : Fin 2 → Fin S500000x32.rank))
    (x : S1x32.Idx → α) (p : Fin 500000) (q : Fin 32) :
    broadcastInDim S500000x32 ![0, 1] h x (ix2 (n0 := 500000) (n1 := 32) p q) = x (ix2 (n0 := 1) (n1 := 32) 0 q) :=
  broadcastInDim_apply _ h x (ix2 (n0 := 500000) (n1 := 32) p q) (ix2 (n0 := 1) (n1 := 32) 0 q) (fun a => match a with
    | ⟨0, _⟩ => by show (0 : Nat) = if (1 : Nat) = 1 then 0 else p.val; rw [if_pos rfl]
    | ⟨1, _⟩ => by show q.val = if (32 : Nat) = 1 then 0 else q.val; rw [if_neg (by decide)])

/-- The reference's edge message at 32 feature columns is the specification's, the two vectors carried as columns. -/
theorem edge32 (g1 g2 : (⟨S8000000, .f32⟩ : BufTy).Contents (Elt Ideal)) (hs : (⟨S8000000x32, .f32⟩ : BufTy).Contents (Elt Ideal))
    {h1 : S8000000.BroadcastsInDim S8000000x1 (![0] : Fin 1 → Fin S8000000x1.rank)}
    {h2 : S8000000x1.BroadcastsInDim S8000000x32 (![0, 1] : Fin 2 → Fin S8000000x32.rank)} :
    mulf (F := Ideal) (φ := .f32) (broadcastInDim S8000000x32 ![0, 1] h2 (broadcastInDim S8000000x1 ![0] h1 (mulf (F := Ideal) (φ := .f32) g1 g2))) hs
      = Cert.Gcn.edgeMsg (e := 8000000) (c := 32) hs (Cert.Gcn.colOf g1) (Cert.Gcn.colOf g2) := by
  funext i
  obtain ⟨p, q, rfl⟩ : ∃ (p : Fin 8000000) (q : Fin 32), i = ix2 p q := ⟨i 0, i 1, eq_ix2 i⟩
  refine (mulf_apply _ _ (ix2 p q)).trans ?_
  rw [spread8M_32_apply h2 _ p q, col8M_apply h1 _ p] <;> rfl

/-- The reference's combination at 32 feature columns is the specification's, the vector carried as a column and the
    bias as a row. -/
theorem comb32 (agg h : (⟨S500000x32, .f32⟩ : BufTy).Contents (Elt Ideal)) (d2 : (⟨S500000, .f32⟩ : BufTy).Contents (Elt Ideal))
    (b : (⟨S32, .f32⟩ : BufTy).Contents (Elt Ideal))
    {h1 : S500000.BroadcastsInDim S500000x1 (![0] : Fin 1 → Fin S500000x1.rank)}
    {h2 : S500000x1.BroadcastsInDim S500000x32 (![0, 1] : Fin 2 → Fin S500000x32.rank)}
    {h3 : S32.BroadcastsInDim S1x32 (![1] : Fin 1 → Fin S1x32.rank)}
    {h4 : S1x32.BroadcastsInDim S500000x32 (![0, 1] : Fin 2 → Fin S500000x32.rank)}
    {h5 : S_.BroadcastsInDim S500000x32 (![] : Fin 0 → Fin S500000x32.rank)} :
    maximumf (F := Ideal) (φ := .f32) (addf (F := Ideal) (φ := .f32) (addf (F := Ideal) (φ := .f32) agg (mulf (F := Ideal) (φ := .f32) (broadcastInDim S500000x32 ![0, 1] h2 (broadcastInDim S500000x1 ![0] h1 d2)) h))
        (broadcastInDim S500000x32 ![0, 1] h4 (broadcastInDim S1x32 ![1] h3 b)))
        (broadcastInDim S500000x32 ![] h5 (constant (F := Ideal) S_ .f32 0x00000000#32))
      = Cert.Gcn.combine (n := 500000) (c := 32) agg h (Cert.Gcn.colOf d2) (Cert.Gcn.rowOf b) := by
  funext i
  obtain ⟨p, q, rfl⟩ : ∃ (p : Fin 500000) (q : Fin 32), i = ix2 p q := ⟨i 0, i 1, eq_ix2 i⟩
  rw [maximumf_apply, addf_apply, addf_apply, mulf_apply,
    spread500k_32_apply h2 _ p q, col500k_apply h1 _ p, spreadRow32_apply h4 _ p q, row32_apply h3 _ q,
    broadcastInDim_scalar_apply h5 _ (ix2 p q), constant_apply, Ideal.ofBits_zero_f32] <;> rfl

end Cert.ReferenceIdeal.Stage

end
-- ==== Proof.ChainA2.lean ====
/-
  The first layer, against the reference. After the first launch the host gathers the product's rows at the
  edges' sources; the second launch scales each gathered row by the two end points' normalisations; the host
  scatter-adds the messages to their destinations; the third launch adds the self loop and the bias and rectifies.
  Stage by stage these are the reference's own values.
-/
import proofs.«180380_j63909113364904_2_alg».proof.Proof.Gen.KernelIdeal.Frame
import proofs.«180380_j63909113364904_2_alg».proof.Proof.Gen.ReferenceIdeal.Read
import proofs.«180380_j63909113364904_2_alg».proof.Proof.Spec
import proofs.«180380_j63909113364904_2_alg».proof.Proof.SpecLayout
import proofs.«180380_j63909113364904_2_alg».proof.Proof.Passes
import proofs.«180380_j63909113364904_2_alg».proof.Proof.ChainA1
import proofs.«180380_j63909113364904_2_alg».proof.Proof.EdgeMsg1
import proofs.«180380_j63909113364904_2_alg».proof.Proof.Combine2
import proofs.«180380_j63909113364904_2_alg».proof.Proof.RefPointwise
import Idealize.ShloMosaic.Lib.StableHlo.Run

set_option maxRecDepth 16384

noncomputable section

namespace Cert.KernelIdeal.Result

open Cert.KernelIdeal Cert.KernelIdeal.Gen Cert.ReferenceIdeal.Read
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The source indices, still there after the first launch. -/
theorem src_2 : W2 m ρ c (Proc.devRef .tc main_v1) = val_main_v1 (F := Ideal) (m ((c : Thread nD τ).loc main_arg1)) :=
  (pass_main_v1_1_2 m ρ c).trans (src_1 m ρ c)

/-- The first product's rows gathered at the edges' sources. -/
theorem hsrc_3 : W3 m ρ c (Proc.devRef .tc main_v36) = val_main_v34 (F := Ideal) (m ((c : Thread nD τ).loc main_arg0)) (m ((c : Thread nD τ).loc main_arg1)) (m ((c : Thread nD τ).loc main_arg3)) := by
  show StableHlo.after hostOps1 (W2 m ρ c) (Proc.devRef .tc main_v36) = _
  after_results
  rw [h1_2, src_2]
  rfl

/-- The second launch leaves the first layer's messages. -/
theorem msg1_4 : W4 m ρ c (Proc.devRef .tc main_v37) = val_main_v36 (F := Ideal) (m ((c : Thread nD τ).loc main_arg0)) (m ((c : Thread nD τ).loc main_arg1)) (m ((c : Thread nD τ).loc main_arg3)) := by
  refine (W4_arr m ρ c 3).trans ((Cert.KernelIdeal.Stage1.final (V3 m ρ) c).trans ?_)
  show Cert.Gcn.edgeMsg (W3 m ρ c (Proc.devRef .tc main_v36)) (W3 m ρ c (Proc.devRef .tc main_v20)) (W3 m ρ c (Proc.devRef .tc main_v28)) = _
  rw [hsrc_3, pass_main_v20_1_3, pass_main_v28_1_3, dsrc_1, ddst_1]
  exact (Cert.ReferenceIdeal.Stage.edge16 _ _ _).symm

/-- The messages summed at their destinations. -/
theorem agg1_5 : W5 m ρ c (Proc.devRef .tc main_v40) = val_main_v39 (F := Ideal) (m ((c : Thread nD τ).loc main_arg0)) (m ((c : Thread nD τ).loc main_arg1)) (m ((c : Thread nD τ).loc main_arg3)) := by
  show StableHlo.after hostOps2 (W4 m ρ c) (Proc.devRef .tc main_v40) = _
  after_results
  rw [msg1_4, pass_main_v3_1_4, dst_1]
  rfl

/-- The first bias as a row. -/
theorem bias1_5 : W5 m ρ c (Proc.devRef .tc main_v41) = Cert.Gcn.rowOf (m ((c : Thread nD τ).loc main_arg4)) := by
  show StableHlo.after hostOps2 (W4 m ρ c) (Proc.devRef .tc main_v41) = _
  after_results
  rw [pass_main_arg4_0_4]
  exact Cert.Gcn.shapeCast_row (n := 16) _ _

/-- The third launch leaves the first layer's output. -/
theorem out1_6 : W6 m ρ c (Proc.devRef .tc main_v42) = val_main_v48 (F := Ideal) (m ((c : Thread nD τ).loc main_arg0)) (m ((c : Thread nD τ).loc main_arg1)) (m ((c : Thread nD τ).loc main_arg3)) (m ((c : Thread nD τ).loc main_arg4)) := by
  refine (W6_arr m ρ c 4).trans ((Cert.KernelIdeal.Stage2.final (V5 m ρ) c).trans ?_)
  show Cert.Gcn.combine (W5 m ρ c (Proc.devRef .tc main_v40)) (W5 m ρ c (Proc.devRef .tc main_v29)) (W5 m ρ c (Proc.devRef .tc main_v12)) (W5 m ρ c (Proc.devRef .tc main_v41)) = _
  rw [agg1_5, pass_main_v29_2_5, h1_2, pass_main_v12_1_5, dsq_1, bias1_5]
  exact (Cert.ReferenceIdeal.Stage.comb16 _ _ _ _).symm

end Cert.KernelIdeal.Result

end
-- ==== Proof.MatProd3.lean ====
/-
  Kernel launch 3 multiplies a block of 5000 rows of its left operand by the whole 16 × 32 right operand, one
  block per grid point, 100 points covering the 500000 rows. Read on the extended reals (where rounding the
  operands to a shorter format is the identity and the accumulator starts at zero) the array it leaves is the
  matrix product of the two arrays it was given: entry (r, c) is the sum over q of left (r, q) · right (q, c).
-/
import proofs.«180380_j63909113364904_2_alg».proof.Proof.Gen.KernelIdeal.Frame
import proofs.«180380_j63909113364904_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Stage3

open Cert.KernelIdeal Cert.KernelIdeal.Gen Idealize.ShloMosaic Idealize.ShloMosaic.TcCoe Idealize.SL.Sem
open Idealize.ShloMosaic.ValueIdx
open Idealize.ShloMosaic.Pipeline (Dat)

/-- The left operand's index at output (p, q) and contraction coordinate k is (p, k). -/
theorem lhs_at (p : Fin 5000) (q : Fin 32) (k : Fin 16) :
    dot_S5000x16_S16x32_S5000x32_1_0_0_1_n_n.lhsIdx (ix2 p q) ((contrEquiv1 dot_S5000x16_S16x32_S5000x32_1_0_0_1_n_n 16 rfl rfl).symm k) = ix2 p k := by
  have hk := contrEquiv1_symm_val dot_S5000x16_S16x32_S5000x32_1_0_0_1_n_n 16 rfl rfl k
  funext a; apply Fin.ext
  match a with
  | ⟨0, _⟩ =>
    show (dot_S5000x16_S16x32_S5000x32_1_0_0_1_n_n.lhsIdx (ix2 p q) _ 0).val = p.val
    unfold DotDims.lhsIdx
    rw [dif_neg (show ¬(0 : Fin S5000x16.rank) ∈ dot_S5000x16_S16x32_S5000x32_1_0_0_1_n_n.lhsBatch by decide), dif_pos (show (0 : Fin S5000x16.rank) ∈ dot_S5000x16_S16x32_S5000x32_1_0_0_1_n_n.lhsNonContracting by decide)]
    rfl
  | ⟨1, _⟩ => exact (dot_S5000x16_S16x32_S5000x32_1_0_0_1_n_n.lhsIdx_val_of_single rfl (ix2 p q) _).trans hk

/-- The right operand's index at output (p, q) and contraction coordinate k is (k, q). -/
theorem rhs_at (p : Fin 5000) (q : Fin 32) (k : Fin 16) :
    dot_S5000x16_S16x32_S5000x32_1_0_0_1_n_n.rhsIdx (ix2 p q) ((contrEquiv1 dot_S5000x16_S16x32_S5000x32_1_0_0_1_n_n 16 rfl rfl).symm k) = ix2 k q := by
  have hk := contrEquiv1_symm_val dot_S5000x16_S16x32_S5000x32_1_0_0_1_n_n 16 rfl rfl k
  funext a; apply Fin.ext
  match a with
  | ⟨0, _⟩ => exact (dot_S5000x16_S16x32_S5000x32_1_0_0_1_n_n.rhsIdx_val_of_single rfl (ix2 p q) _).trans hk
  | ⟨1, _⟩ =>
    show (dot_S5000x16_S16x32_S5000x32_1_0_0_1_n_n.rhsIdx (ix2 p q) _ 1).val = q.val
    unfold DotDims.rhsIdx
    rw [dif_neg (show ¬(1 : Fin S16x32.rank) ∈ dot_S5000x16_S16x32_S5000x32_1_0_0_1_n_n.rhsBatch by decide), dif_pos (show (1 : Fin S16x32.rank) ∈ dot_S5000x16_S16x32_S5000x32_1_0_0_1_n_n.rhsNonContracting by decide)]
    rfl

/-- The body's stored value at (p, q): the sum over the contraction of block (p, k) times weight (k, q). -/
theorem pay_apply (x : Vec Ideal S5000x16 .f32) (w : Vec Ideal S16x32 .f32) (p : Fin 5000) (q : Fin 32) :
    k3_pay1 x w (ix2 p q) = ∑ k : Fin 16, x (ix2 p k) * w (ix2 k q) := by
  unfold k3_pay1
  rw [shapeCast_self]
  refine (Ideal.matmul_constant_zero_apply dot_S5000x16_S16x32_S5000x32_1_0_0_1_n_n none _ _ (ix2 p q)).trans ?_
  rw [← Equiv.sum_comp (contrEquiv1 dot_S5000x16_S16x32_S5000x32_1_0_0_1_n_n 16 rfl rfl).symm]
  refine Finset.sum_congr rfl fun k _ => ?_
  rw [lhs_at p q k, rhs_at p q k]
  rfl

theorem hz : (![0, 0] : Fin 2 → Nat) = fun _ => 0 := funext fun a => by fin_cases a <;> rfl

/-- Where each window's block sits at grid point t: the left operand's and the output's blocks are the t-th blocks
    of rows, all columns; the right operand is one whole block. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) < 100 :=
  (by decide +kernel : ∀ t : Fin grid3.N, _)

/-- Every block of rows is some grid point's. -/
theorem idx_onto : ∀ (b : Fin 100), ∃ t : Fin cfg3.N, win3_2.index t = ![b.val, 0] :=
  (by decide +kernel : ∀ (b : Fin 100), ∃ t : Fin grid3.N, win3_2.index t = ![b.val, 0])

variable (V : (c : Dev nD) → (b : Ref sig .tc) → Buf (Elt Ideal) ((c : Thread nD τ).loc b))

/-- What grid point t writes back is block t of the matrix product of the two arrays as the launch finds them. -/
theorem flushed_eq (c : Dev nD) (t : Fin cfg3.N) :
    (dat3 V c).flushed 2 t = ((cfg3.win 2).blk t).view.read (Elt Ideal) (Cert.Gcn.matProd (n := 500000) (k := 16) (m := 32) (V c main_v42) (V c main_arg5)) := by
  show (cfg3.win 2).cut (grid3.coords t) ((dat3 V c).after 2 t) = _
  rw [after3_2]
  unfold out3_2
  rw [View.canon_unit_zero hz]
  simp only [View.ld_unit_zero (S := S5000x16) hz, View.ld_unit_zero (S := S16x32) hz]
  obtain ⟨e0, e1, e2, e3, e4, e5⟩ := idx_facts t
  funext j
  obtain ⟨p, q, rfl⟩ : ∃ (p : Fin 5000) (q : Fin 32), j = ix2 p q := ⟨j 0, j 1, eq_ix2 j⟩
  show k3_pay1 (iblk3 V c 0 t) (iblk3 V c 1 t) (ix2 p q) = Cert.Gcn.matProd (n := 500000) (k := 16) (m := 32) (V c main_v42) (V c main_arg5) (((cfg3.win 2).blk t).view.emb (ix2 p q))
  refine (pay_apply _ _ p q).trans ?_
  unfold Cert.Gcn.matProd
  refine Finset.sum_congr rfl fun k _ => ?_
  have hA : iblk3 V c 0 t (ix2 p k) = V c main_v42 (ix2 (n0 := 500000) (n1 := 16) ((((cfg3.win 2).blk t).view.emb (ix2 p q)) 0) k) := by
    show V c main_v42 (((cfg3.win 0).blk t).view.emb (ix2 p k)) = _
    refine congrArg (V c main_v42) ?_
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 16 + 1 * k.val = k.val; omega
  have hW : iblk3 V c 1 t (ix2 k q) = V c main_arg5 (ix2 (n0 := 16) (n1 := 32) k ((((cfg3.win 2).blk t).view.emb (ix2 p q)) 1)) := by
    show V c main_arg5 (((cfg3.win 1).blk t).view.emb (ix2 k q)) = _
    refine congrArg (V c main_arg5) ?_
    funext a; apply Fin.ext
    match a with
    | ⟨0, _⟩ => show win3_1.index t (0 : Fin 2) * 16 + 1 * k.val = k.val; omega
    | ⟨1, _⟩ => show win3_1.index t (1 : Fin 2) * 32 + 1 * q.val = win3_2.index t (1 : Fin 2) * 32 + 1 * q.val; omega
  rw [hA, hW]

/-- An index of the output array is in grid point t's block iff each coordinate is in the block's range on its axis. -/
theorem mem_blk (t : Fin cfg3.N) (i : S500000x32.Idx) :
    i ∈ ((cfg3.win 2).blk t).view.set ↔ ∀ a : Fin 2, win3_2.index t a * S5000x32.size a ≤ (i a).val ∧ (i a).val < win3_2.index t a * S5000x32.size a + S5000x32.size a := by
  show i ∈ ((View.whole main_v43).slice (win3_2.rect t)).set ↔ _
  rw [View.set_slice_whole, Rect.mem_set_unit]
  exact Iff.rfl

/-- Every row of the output lies in the block of the grid point numbered row / 5000. -/
theorem cover (i : S500000x32.Idx) :
    ∃ t : Fin cfg3.N, (cfg3.win 2).flush t = true ∧ i ∈ ((cfg3.win 2).blk t).view.set := by
  have hi0 : (i 0).val < 500000 := (i 0).isLt
  have hi1 : (i 1).val < 32 := (i 1).isLt
  obtain ⟨t, ht⟩ := idx_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 32 ≤ (i 1).val ∧ (i 1).val < win3_2.index t (1 : Fin 2) * 32 + 32; omega

/-- THE ARRAY the launch leaves: the matrix product of the two arrays it found. -/
theorem final (c : Dev nD) :
    (dat3 V c).arrAt 2 cfg3.N = Cert.Gcn.matProd (n := 500000) (k := 16) (m := 32) (V c main_v42) (V c main_arg5) :=
  (dat3 V c).arrAt_eq_of_cover 2 _ (fun t _ => flushed_eq V c t) cover

end Cert.KernelIdeal.Stage3

end
-- ==== Proof.EdgeMsg4.lean ====
/-
  Kernel launch 4 forms the message every edge carries. A grid point takes a block of 8000 edges: the block of
  gathered source features (8000 × 32) and the blocks of the two per-edge normalisations (8000 × 1 each); it
  multiplies the two normalisations, spreads the product along the 32 columns and multiplies by the features.
  The 1000 grid points cover the 8000000 edges, so the array the launch leaves has, at edge e and column c,
  (ds e · dd e) · h (e, c): the specification's edgeMsg of the three arrays the launch was given.
-/
import proofs.«180380_j63909113364904_2_alg».proof.Proof.Gen.KernelIdeal.Frame
import proofs.«180380_j63909113364904_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Stage4

open Cert.KernelIdeal Cert.KernelIdeal.Gen Idealize.ShloMosaic Idealize.ShloMosaic.TcCoe Idealize.SL.Sem
open Idealize.ShloMosaic.ValueIdx
open Idealize.ShloMosaic.Pipeline (Dat)

/-- A one-column block spread along 32 columns reads, at (p, q), the column's entry of row p. -/
theorem spread_col (x : FVec Ideal S8000x1 .f32) (p : Fin 8000) (q : Fin 32) :
    broadcastTo S8000x32 x broadcasts_S8000x1_S8000x32 (ix2 p q) = x (ix2 p 0) := by
  refine broadcastTo_apply x broadcasts_S8000x1_S8000x32 (ix2 p q) (ix2 p 0) (fun a => ?_)
  match a with
  | ⟨0, _⟩ => show p.val = if (8000 : Nat) = 1 then 0 else p.val; rw [if_neg (by decide)]
  | ⟨1, _⟩ => show (0 : Nat) = if (1 : Nat) = 1 then 0 else q.val; rw [if_pos rfl]

/-- The body's stored value at (p, q): the product of the two normalisations of row p, times the feature at (p, q). -/
theorem pay_apply (x1 x2 : FVec Ideal S8000x1 .f32) (x0 : FVec Ideal S8000x32 .f32) (p : Fin 8000) (q : Fin 32) :
    k4_pay1 (F := Ideal) x1 x2 x0 (ix2 p q) = (x1 (ix2 p 0) * x2 (ix2 p 0)) * x0 (ix2 p q) := by
  show mulf (broadcastTo S8000x32 (mulf (shapeCast S8000x1 x1 shapeCasts_S8000x1_S8000x1) (shapeCast S8000x1 x2 shapeCasts_S8000x1_S8000x1)) broadcasts_S8000x1_S8000x32) (shapeCast S8000x32 x0 shapeCasts_S8000x32_S8000x32) (ix2 p q) = _
  rw [shapeCast_self x1, shapeCast_self x2, shapeCast_self x0]
  refine (mulf_apply _ _ (ix2 p q)).trans ?_
  rw [spread_col (mulf x1 x2) p q]
  rfl

theorem hz : (![0, 0] : Fin 2 → Nat) = fun _ => 0 := funext fun a => by fin_cases a <;> rfl

theorem gridN : grid4.N = 1000 := by decide

/-- Where each window's block sits at grid point t: every window's block is the t-th block of rows, all columns. -/
theorem idx_facts : ∀ t : Fin cfg4.N, win4_0.index t = ![t.val, 0]
    ∧ win4_1.index t = ![t.val, 0]
    ∧ win4_2.index t = ![t.val, 0]
    ∧ win4_3.index t = ![t.val, 0] :=
  (by decide +kernel : ∀ t : Fin grid4.N, _)

variable (V : (c : Dev nD) → (b : Ref sig .tc) → Buf (Elt Ideal) ((c : Thread nD τ).loc b))

/-- What grid point t writes back is block t of the edge messages of the three arrays as the launch finds them. -/
theorem flushed_eq (c : Dev nD) (t : Fin cfg4.N) :
    (dat4 V c).flushed 3 t = ((cfg4.win 3).blk t).view.read (Elt Ideal) (Cert.Gcn.edgeMsg (e := 8000000) (c := 32) (V c main_v50) (V c main_v20) (V c main_v28)) := by
  show (cfg4.win 3).cut (grid4.coords t) ((dat4 V c).after 3 t) = _
  rw [after4_3]
  unfold out4_3
  rw [View.canon_unit_zero hz]
  simp only [View.ld_unit_zero (S := S8000x1) hz, View.ld_unit_zero (S := S8000x32) hz]
  obtain ⟨e0, e1, e2, e3⟩ := idx_facts t
  have a0 : win4_0.index t (0 : Fin 2) = t.val := congrFun e0 0
  have b0 : win4_0.index t (1 : Fin 2) = 0 := congrFun e0 1
  have a1 : win4_1.index t (0 : Fin 2) = t.val := congrFun e1 0
  have b1 : win4_1.index t (1 : Fin 2) = 0 := congrFun e1 1
  have a2 : win4_2.index t (0 : Fin 2) = t.val := congrFun e2 0
  have b2 : win4_2.index t (1 : Fin 2) = 0 := congrFun e2 1
  have a3 : win4_3.index t (0 : Fin 2) = t.val := congrFun e3 0
  have b3 : win4_3.index t (1 : Fin 2) = 0 := congrFun e3 1
  funext j
  obtain ⟨p, q, rfl⟩ : ∃ (p : Fin 8000) (q : Fin 32), j = ix2 p q := ⟨j 0, j 1, eq_ix2 j⟩
  show k4_pay1 (iblk4 V c 1 t) (iblk4 V c 2 t) (iblk4 V c 0 t) (ix2 p q) = Cert.Gcn.edgeMsg (e := 8000000) (c := 32) (V c main_v50) (V c main_v20) (V c main_v28) (((cfg4.win 3).blk t).view.emb (ix2 p q))
  refine (pay_apply _ _ _ p q).trans ?_
  unfold Cert.Gcn.edgeMsg
  have hH : iblk4 V c 0 t (ix2 p q) = V c main_v50 (((cfg4.win 3).blk t).view.emb (ix2 p q)) := by
    show V c main_v50 (((cfg4.win 0).blk t).view.emb (ix2 p q)) = _
    refine congrArg (V c main_v50) ?_
    funext a; apply Fin.ext
    match a with
    | ⟨0, _⟩ => show win4_0.index t (0 : Fin 2) * 8000 + 1 * p.val = win4_3.index t (0 : Fin 2) * 8000 + 1 * p.val; omega
    | ⟨1, _⟩ => show win4_0.index t (1 : Fin 2) * 32 + 1 * q.val = win4_3.index t (1 : Fin 2) * 32 + 1 * q.val; omega
  have hS : iblk4 V c 1 t (ix2 p 0) = V c main_v20 (ix2 (n0 := 8000000) (n1 := 1) ((((cfg4.win 3).blk t).view.emb (ix2 p q)) 0) 0) := by
    show V c main_v20 (((cfg4.win 1).blk t).view.emb (ix2 p 0)) = _
    refine congrArg (V c main_v20) ?_
    funext a; apply Fin.ext
    match a with
    | ⟨0, _⟩ => show win4_1.index t (0 : Fin 2) * 8000 + 1 * p.val = win4_3.index t (0 : Fin 2) * 8000 + 1 * p.val; omega
    | ⟨1, _⟩ => show win4_1.index t (1 : Fin 2) * 1 + 1 * 0 = 0; omega
  have hD : iblk4 V c 2 t (ix2 p 0) = V c main_v28 (ix2 (n0 := 8000000) (n1 := 1) ((((cfg4.win 3).blk t).view.emb (ix2 p q)) 0) 0) := by
    show V c main_v28 (((cfg4.win 2).blk t).view.emb (ix2 p 0)) = _
    refine congrArg (V c main_v28) ?_
    funext a; apply Fin.ext
    match a with
    | ⟨0, _⟩ => show win4_2.index t (0 : Fin 2) * 8000 + 1 * p.val = win4_3.index t (0 : Fin 2) * 8000 + 1 * p.val; omega
    | ⟨1, _⟩ => show win4_2.index t (1 : Fin 2) * 1 + 1 * 0 = 0; omega
  rw [hH, hS, hD]

/-- An index of the output array is in grid point t's block iff each coordinate is in the block's range on its axis. -/
theorem mem_blk (t : Fin cfg4.N) (i : S8000000x32.Idx) :
    i ∈ ((cfg4.win 3).blk t).view.set ↔ ∀ a : Fin 2, win4_3.index t a * S8000x32.size a ≤ (i a).val ∧ (i a).val < win4_3.index t a * S8000x32.size a + S8000x32.size a := by
  show i ∈ ((View.whole main_v51).slice (win4_3.rect t)).set ↔ _
  rw [View.set_slice_whole, Rect.mem_set_unit]
  exact Iff.rfl

/-- Every edge lies in the block of the grid point numbered edge / 8000. -/
theorem cover (i : S8000000x32.Idx) :
    ∃ t : Fin cfg4.N, (cfg4.win 3).flush t = true ∧ i ∈ ((cfg4.win 3).blk t).view.set := by
  have hi0 : (i 0).val < 8000000 := (i 0).isLt
  have hi1 : (i 1).val < 32 := (i 1).isLt
  have hN : grid4.N = 1000 := gridN
  have hlt : (i 0).val / 8000 < cfg4.N := by show (i 0).val / 8000 < grid4.N; omega
  obtain ⟨-, -, -, e3⟩ := idx_facts ⟨(i 0).val / 8000, hlt⟩
  have q0 : win4_3.index ⟨(i 0).val / 8000, hlt⟩ (0 : Fin 2) = (i 0).val / 8000 := congrFun e3 0
  have q1 : win4_3.index ⟨(i 0).val / 8000, hlt⟩ (1 : Fin 2) = 0 := congrFun e3 1
  refine ⟨⟨(i 0).val / 8000, hlt⟩, flush4_3 _, ?_⟩
  rw [mem_blk]
  intro a
  match a with
  | ⟨0, _⟩ => show win4_3.index ⟨(i 0).val / 8000, hlt⟩ (0 : Fin 2) * 8000 ≤ (i 0).val ∧ (i 0).val < win4_3.index ⟨(i 0).val / 8000, hlt⟩ (0 : Fin 2) * 8000 + 8000; omega
  | ⟨1, _⟩ => show win4_3.index ⟨(i 0).val / 8000, hlt⟩ (1 : Fin 2) * 32 ≤ (i 1).val ∧ (i 1).val < win4_3.index ⟨(i 0).val / 8000, hlt⟩ (1 : Fin 2) * 32 + 32; omega

/-- THE ARRAY the launch leaves: the edge messages of the three arrays it found. -/
theorem final (c : Dev nD) :
    (dat4 V c).arrAt 3 cfg4.N = Cert.Gcn.edgeMsg (e := 8000000) (c := 32) (V c main_v50) (V c main_v20) (V c main_v28) :=
  (dat4 V c).arrAt_eq_of_cover 3 _ (fun t _ => flushed_eq V c t) cover

end Cert.KernelIdeal.Stage4

end
-- ==== Proof.Combine5.lean ====
/-
  Kernel launch 5 combines, for a block of 5000 nodes at each grid point, the aggregated messages (5000 × 32), the
  node's own features (5000 × 32) scaled by the node's squared normalisation (a 5000 × 1 column spread along the
  columns) and the bias (a 1 × 32 row, the same whole block at every point, spread along the rows), and takes the
  maximum with zero. The 100 grid points cover the 500000 nodes, so the array the launch leaves has, at node r and
  column c, max ((agg (r, c) + dsq r · h (r, c)) + b c, 0): the specification's combine of the four arrays the
  launch was given.
-/
import proofs.«180380_j63909113364904_2_alg».proof.Proof.Gen.KernelIdeal.Frame
import proofs.«180380_j63909113364904_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Stage5

open Cert.KernelIdeal Cert.KernelIdeal.Gen Idealize.ShloMosaic Idealize.ShloMosaic.TcCoe Idealize.SL.Sem
open Idealize.ShloMosaic.ValueIdx
open Idealize.ShloMosaic.Pipeline (Dat)

/-- A one-column block spread along 32 columns reads, at (p, q), the column's entry of row p. -/
theorem spread_col (x : FVec Ideal S5000x1 .f32) (p : Fin 5000) (q : Fin 32) :
    broadcastTo S5000x32 x broadcasts_S5000x1_S5000x32 (ix2 p q) = x (ix2 p 0) := by
  refine broadcastTo_apply x broadcasts_S5000x1_S5000x32 (ix2 p q) (ix2 p 0) (fun a => ?_)
  match a with
  | ⟨0, _⟩ => show p.val = if (5000 : Nat) = 1 then 0 else p.val; rw [if_neg (by decide)]
  | ⟨1, _⟩ => show (0 : Nat) = if (1 : Nat) = 1 then 0 else q.val; rw [if_pos rfl]

/-- A one-row block spread along 5000 rows reads, at (p, q), the row's entry of column q. -/
theorem spread_row (x : FVec Ideal S1x32 .f32) (p : Fin 5000) (q : Fin 32) :
    broadcastTo S5000x32 x broadcasts_S1x32_S5000x32 (ix2 p q) = x (ix2 0 q) := by
  refine broadcastTo_apply x broadcasts_S1x32_S5000x32 (ix2 p q) (ix2 0 q) (fun a => ?_)
  match a with
  | ⟨0, _⟩ => show (0 : Nat) = if (1 : Nat) = 1 then 0 else p.val; rw [if_pos rfl]
  | ⟨1, _⟩ => show q.val = if (32 : Nat) = 1 then 0 else q.val; rw [if_neg (by decide)]

/-- The body's stored value at (p, q): aggregated message plus scaled feature plus bias, rectified. -/
theorem pay_apply (x0 : FVec Ideal S5000x32 .f32) (x2 : FVec Ideal S5000x1 .f32) (x1 : FVec Ideal S5000x32 .f32)
    (x3 : FVec Ideal S1x32 .f32) (p : Fin 5000) (q : Fin 32) :
    k5_pay1 (F := Ideal) x0 x2 x1 x3 (ix2 p q) = max ((x0 (ix2 p q) + x2 (ix2 p 0) * x1 (ix2 p q)) + x3 (ix2 0 q)) 0 := by
  show maximumf (addf (addf (shapeCast S5000x32 x0 shapeCasts_S5000x32_S5000x32) (mulf (broadcastTo S5000x32 (shapeCast S5000x1 x2 shapeCasts_S5000x1_S5000x1) broadcasts_S5000x1_S5000x32) (shapeCast S5000x32 x1 shapeCasts_S5000x32_S5000x32))) (broadcastTo S5000x32 (shapeCast S1x32 x3 shapeCasts_S1x32_S1x32) broadcasts_S1x32_S5000x32)) (broadcast S5000x32 (Scalar.ofBits (F := Ideal) .f32 0x00000000#32)) (ix2 p q) = _
  rw [shapeCast_self x0, shapeCast_self x2, shapeCast_self x1, shapeCast_self x3]
  show max ((x0 (ix2 p q) + broadcastTo S5000x32 x2 broadcasts_S5000x1_S5000x32 (ix2 p q) * x1 (ix2 p q)) + broadcastTo S5000x32 x3 broadcasts_S1x32_S5000x32 (ix2 p q)) (Ideal.ofBits .f32 0x00000000#32) = _
  rw [spread_col x2 p q, spread_row x3 p q, Ideal.ofBits_zero_f32]

theorem hz : (![0, 0] : Fin 2 → Nat) = fun _ => 0 := funext fun a => by fin_cases a <;> rfl

theorem gridN : grid5.N = 100 := by decide

/-- Where each window's block sits at grid point t: the bias is one whole block; every other window's block is the
    t-th block of rows, all columns. -/
theorem idx_facts : ∀ t : Fin cfg5.N, win5_0.index t = ![t.val, 0]
    ∧ win5_1.index t = ![t.val, 0]
    ∧ win5_2.index t = ![t.val, 0]
    ∧ win5_3.index t = ![0, 0]
    ∧ win5_4.index t = ![t.val, 0] :=
  (by decide +kernel : ∀ t : Fin grid5.N, _)

variable (V : (c : Dev nD) → (b : Ref sig .tc) → Buf (Elt Ideal) ((c : Thread nD τ).loc b))

/-- What grid point t writes back is block t of the combination of the four arrays as the launch finds them. -/
theorem flushed_eq (c : Dev nD) (t : Fin cfg5.N) :
    (dat5 V c).flushed 4 t = ((cfg5.win 4).blk t).view.read (Elt Ideal) (Cert.Gcn.combine (n := 500000) (c := 32) (V c main_v54) (V c main_v43) (V c main_v12) (V c main_v55)) := by
  show (cfg5.win 4).cut (grid5.coords t) ((dat5 V c).after 4 t) = _
  rw [after5_4]
  unfold out5_4
  rw [View.canon_unit_zero hz]
  simp only [View.ld_unit_zero (S := S5000x32) hz, View.ld_unit_zero (S := S5000x1) hz, View.ld_unit_zero (S := S1x32) hz]
  obtain ⟨e0, e1, e2, e3, e4⟩ := idx_facts t
  have a0 : win5_0.index t (0 : Fin 2) = t.val := congrFun e0 0
  have b0 : win5_0.index t (1 : Fin 2) = 0 := congrFun e0 1
  have a1 : win5_1.index t (0 : Fin 2) = t.val := congrFun e1 0
  have b1 : win5_1.index t (1 : Fin 2) = 0 := congrFun e1 1
  have a2 : win5_2.index t (0 : Fin 2) = t.val := congrFun e2 0
  have b2 : win5_2.index t (1 : Fin 2) = 0 := congrFun e2 1
  have a3 : win5_3.index t (0 : Fin 2) = 0 := congrFun e3 0
  have b3 : win5_3.index t (1 : Fin 2) = 0 := congrFun e3 1
  have a4 : win5_4.index t (0 : Fin 2) = t.val := congrFun e4 0
  have b4 : win5_4.index t (1 : Fin 2) = 0 := congrFun e4 1
  funext j
  obtain ⟨p, q, rfl⟩ : ∃ (p : Fin 5000) (q : Fin 32), j = ix2 p q := ⟨j 0, j 1, eq_ix2 j⟩
  show k5_pay1 (iblk5 V c 0 t) (iblk5 V c 2 t) (iblk5 V c 1 t) (iblk5 V c 3 t) (ix2 p q) = Cert.Gcn.combine (n := 500000) (c := 32) (V c main_v54) (V c main_v43) (V c main_v12) (V c main_v55) (((cfg5.win 4).blk t).view.emb (ix2 p q))
  refine (pay_apply _ _ _ _ p q).trans ?_
  unfold Cert.Gcn.combine
  have hA : iblk5 V c 0 t (ix2 p q) = V c main_v54 (((cfg5.win 4).blk t).view.emb (ix2 p q)) := by
    show V c main_v54 (((cfg5.win 0).blk t).view.emb (ix2 p q)) = _
    refine congrArg (V c main_v54) ?_
    funext a; apply Fin.ext
    match a with
    | ⟨0, _⟩ => show win5_0.index t (0 : Fin 2) * 5000 + 1 * p.val = win5_4.index t (0 : Fin 2) * 5000 + 1 * p.val; omega
    | ⟨1, _⟩ => show win5_0.index t (1 : Fin 2) * 32 + 1 * q.val = win5_4.index t (1 : Fin 2) * 32 + 1 * q.val; omega
  have hH : iblk5 V c 1 t (ix2 p q) = V c main_v43 (((cfg5.win 4).blk t).view.emb (ix2 p q)) := by
    show V c main_v43 (((cfg5.win 1).blk t).view.emb (ix2 p q)) = _
    refine congrArg (V c main_v43) ?_
    funext a; apply Fin.ext
    match a with
    | ⟨0, _⟩ => show win5_1.index t (0 : Fin 2) * 5000 + 1 * p.val = win5_4.index t (0 : Fin 2) * 5000 + 1 * p.val; omega
    | ⟨1, _⟩ => show win5_1.index t (1 : Fin 2) * 32 + 1 * q.val = win5_4.index t (1 : Fin 2) * 32 + 1 * q.val; omega
  have hD : iblk5 V c 2 t (ix2 p 0) = V c main_v12 (ix2 (n0 := 500000) (n1 := 1) ((((cfg5.win 4).blk t).view.emb (ix2 p q)) 0) 0) := by
    show V c main_v12 (((cfg5.win 2).blk t).view.emb (ix2 p 0)) = _
    refine congrArg (V c main_v12) ?_
    funext a; apply Fin.ext
    match a with
    | ⟨0, _⟩ => show win5_2.index t (0 : Fin 2) * 5000 + 1 * p.val = win5_4.index t (0 : Fin 2) * 5000 + 1 * p.val; omega
    | ⟨1, _⟩ => show win5_2.index t (1 : Fin 2) * 1 + 1 * 0 = 0; omega
  have hB : iblk5 V c 3 t (ix2 0 q) = V c main_v55 (ix2 (n0 := 1) (n1 := 32) 0 ((((cfg5.win 4).blk t).view.emb (ix2 p q)) 1)) := by
    show V c main_v55 (((cfg5.win 3).blk t).view.emb (ix2 0 q)) = _
    refine congrArg (V c main_v55) ?_
    funext a; apply Fin.ext
    match a with
    | ⟨0, _⟩ => show win5_3.index t (0 : Fin 2) * 1 + 1 * 0 = 0; omega
    | ⟨1, _⟩ => show win5_3.index t (1 : Fin 2) * 32 + 1 * q.val = win5_4.index t (1 : Fin 2) * 32 + 1 * q.val; omega
  rw [hA, hH, hD, hB]

/-- An index of the output array is in grid point t's block iff each coordinate is in the block's range on its axis. -/
theorem mem_blk (t : Fin cfg5.N) (i : S500000x32.Idx) :
    i ∈ ((cfg5.win 4).blk t).view.set ↔ ∀ a : Fin 2, win5_4.index t a * S5000x32.size a ≤ (i a).val ∧ (i a).val < win5_4.index t a * S5000x32.size a + S5000x32.size a := by
  show i ∈ ((View.whole main_v56).slice (win5_4.rect t)).set ↔ _
  rw [View.set_slice_whole, Rect.mem_set_unit]
  exact Iff.rfl

/-- Every node lies in the block of the grid point numbered node / 5000. -/
theorem cover (i : S500000x32.Idx) :
    ∃ t : Fin cfg5.N, (cfg5.win 4).flush t = true ∧ i ∈ ((cfg5.win 4).blk t).view.set := by
  have hi0 : (i 0).val < 500000 := (i 0).isLt
  have hi1 : (i 1).val < 32 := (i 1).isLt
  have hN : grid5.N = 100 := gridN
  have hlt : (i 0).val / 5000 < cfg5.N := by show (i 0).val / 5000 < grid5.N; omega
  obtain ⟨-, -, -, -, e4⟩ := idx_facts ⟨(i 0).val / 5000, hlt⟩
  have q0 : win5_4.index ⟨(i 0).val / 5000, hlt⟩ (0 : Fin 2) = (i 0).val / 5000 := congrFun e4 0
  have q1 : win5_4.index ⟨(i 0).val / 5000, hlt⟩ (1 : Fin 2) = 0 := congrFun e4 1
  refine ⟨⟨(i 0).val / 5000, hlt⟩, flush5_4 _, ?_⟩
  rw [mem_blk]
  intro a
  match a with
  | ⟨0, _⟩ => show win5_4.index ⟨(i 0).val / 5000, hlt⟩ (0 : Fin 2) * 5000 ≤ (i 0).val ∧ (i 0).val < win5_4.index ⟨(i 0).val / 5000, hlt⟩ (0 : Fin 2) * 5000 + 5000; omega
  | ⟨1, _⟩ => show win5_4.index ⟨(i 0).val / 5000, hlt⟩ (1 : Fin 2) * 32 ≤ (i 1).val ∧ (i 1).val < win5_4.index ⟨(i 0).val / 5000, hlt⟩ (1 : Fin 2) * 32 + 32; omega

/-- THE ARRAY the launch leaves: the combination of the four arrays it found. -/
theorem final (c : Dev nD) :
    (dat5 V c).arrAt 4 cfg5.N = Cert.Gcn.combine (n := 500000) (c := 32) (V c main_v54) (V c main_v43) (V c main_v12) (V c main_v55) :=
  (dat5 V c).arrAt_eq_of_cover 4 _ (fun t _ => flushed_eq V c t) cover

end Cert.KernelIdeal.Stage5

end
-- ==== Proof.ChainB.lean ====
/-
  The second layer, against the reference: the fourth launch multiplies the first layer's output by the second
  weight matrix, and gather, message, scatter-add and combine repeat with 32 columns. The reference recomputes
  the index vectors and the normalisation for this layer; they are the same operations on the same edge list,
  hence the same values.
-/
import proofs.«180380_j63909113364904_2_alg».proof.Proof.Gen.KernelIdeal.Frame
import proofs.«180380_j63909113364904_2_alg».proof.Proof.Gen.ReferenceIdeal.Read
import proofs.«180380_j63909113364904_2_alg».proof.Proof.Spec
import proofs.«180380_j63909113364904_2_alg».proof.Proof.SpecLayout
import proofs.«180380_j63909113364904_2_alg».proof.Proof.Passes
import proofs.«180380_j63909113364904_2_alg».proof.Proof.ChainA1
import proofs.«180380_j63909113364904_2_alg».proof.Proof.ChainA2
import proofs.«180380_j63909113364904_2_alg».proof.Proof.MatProd3
import proofs.«180380_j63909113364904_2_alg».proof.Proof.RefMatProd
import proofs.«180380_j63909113364904_2_alg».proof.Proof.EdgeMsg4
import proofs.«180380_j63909113364904_2_alg».proof.Proof.Combine5
import proofs.«180380_j63909113364904_2_alg».proof.Proof.RefPointwise
import Idealize.ShloMosaic.Lib.StableHlo.Run

set_option maxRecDepth 16384

noncomputable section

namespace Cert.KernelIdeal.Result

open Cert.KernelIdeal Cert.KernelIdeal.Gen Cert.ReferenceIdeal.Read
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

/-- The fourth launch leaves the second product. -/
theorem h2_7 : W7 m ρ c (Proc.devRef .tc main_v43) = val_main_v53 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W7_arr m ρ c 2).trans ((Cert.KernelIdeal.Stage3.final (V6 m ρ) c).trans ?_)
  rw [Cert.ReferenceIdeal.Stage.v53_eq]
  show Cert.Gcn.matProd (W6 m ρ c (Proc.devRef .tc main_v42)) (W6 m ρ c (Proc.devRef .tc main_arg5)) = _
  rw [out1_6, pass_main_arg5_0_6]

/-- The source indices at the fourth launch's exit. -/
theorem src_7 : W7 m ρ c (Proc.devRef .tc main_v1) = val_main_v1 (F := Ideal) (m ((c : Thread nD τ).loc main_arg1)) :=
  (pass_main_v1_2_7 m ρ c).trans (src_2 m ρ c)

/-- The second product's rows gathered at the edges' sources. -/
theorem hsrc2_8 : W8 m ρ c (Proc.devRef .tc main_v50) = val_main_v83 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps4 (W7 m ρ c) (Proc.devRef .tc main_v50) = _
  after_results
  rw [h2_7, src_7]
  rfl

/-- The fifth launch leaves the second layer's messages. -/
theorem msg2_9 : W9 m ρ c (Proc.devRef .tc main_v51) = val_main_v85 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W9_arr m ρ c 3).trans ((Cert.KernelIdeal.Stage4.final (V8 m ρ) c).trans ?_)
  show Cert.Gcn.edgeMsg (W8 m ρ c (Proc.devRef .tc main_v50)) (W8 m ρ c (Proc.devRef .tc main_v20)) (W8 m ρ c (Proc.devRef .tc main_v28)) = _
  rw [hsrc2_8, pass_main_v20_3_8, pass_main_v28_3_8, pass_main_v20_1_3, pass_main_v28_1_3, dsrc_1, ddst_1]
  exact (Cert.ReferenceIdeal.Stage.edge32 _ _ _).symm

/-- The second layer's messages summed at their destinations. -/
theorem agg2_10 : W10 m ρ c (Proc.devRef .tc main_v54) = val_main_v88 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps5 (W9 m ρ c) (Proc.devRef .tc main_v54) = _
  after_results
  rw [msg2_9, pass_main_v3_4_9, pass_main_v3_1_4, dst_1]
  rfl

/-- The second bias as a row. -/
theorem bias2_10 : W10 m ρ c (Proc.devRef .tc main_v55) = Cert.Gcn.rowOf (m ((c : Thread nD τ).loc main_arg6)) := by
  show StableHlo.after hostOps5 (W9 m ρ c) (Proc.devRef .tc main_v55) = _
  after_results
  rw [pass_main_arg6_0_9]
  exact Cert.Gcn.shapeCast_row (n := 32) _ _

/-- The sixth launch leaves the second layer's output. -/
theorem out2_11 : W11 m ρ c (Proc.devRef .tc main_v56) = val_main_v97 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W11_arr m ρ c 4).trans ((Cert.KernelIdeal.Stage5.final (V10 m ρ) c).trans ?_)
  show Cert.Gcn.combine (W10 m ρ c (Proc.devRef .tc main_v54)) (W10 m ρ c (Proc.devRef .tc main_v43)) (W10 m ρ c (Proc.devRef .tc main_v12)) (W10 m ρ c (Proc.devRef .tc main_v55)) = _
  rw [agg2_10, pass_main_v43_7_10, h2_7, pass_main_v12_5_10, pass_main_v12_1_5, dsq_1, bias2_10]
  exact (Cert.ReferenceIdeal.Stage.comb32 _ _ _ _).symm

end Cert.KernelIdeal.Result

end
-- ==== Proof.Classifier6.lean ====
/-
  The classifier launch has ONE grid point, and each of its six windows is one whole block: the pooled features
  [512, 32], the first weights [32, 64], the first bias as a row [1, 64], the second weights [64, 3], the second bias
  as a row [1, 3], and the output [512, 3]. Read on the extended reals (where rounding an operand to a shorter format
  is the identity, each product's accumulator starts at zero, the rectifier's constant is 0 and the row maximum starts
  from −∞) the body computes, for graph p and class q,
      hidden (p, k) = max (∑ j, pooled (p, j) · w1 (j, k) + b1 (0, k), 0),
      logit  (p, q) = ∑ k, hidden (p, k) · w2 (k, q) + b2 (0, q),
      out    (p, q) = (logit (p, q) − m p) − log (∑ r, exp (logit (p, r) − m p)),   m p = the maximum of row p of the logits,
  so the array the launch leaves is the row-wise log-softmax of the classifier's logits of the arrays it found.
  The steps: each product read at an index as a sum over its contraction; the bias rows spread down the rows and the
  per-row columns spread across the columns read at an index; the row maximum as a fold of max from −∞ and the row sum
  as a finite sum; the stored value as one function of the five blocks; the one grid point's blocks are the whole arrays
  (block index 0 on every axis), and its output block covers the output array.
-/
import proofs.«180380_j63909113364904_2_alg».proof.Proof.Gen.KernelIdeal.Frame
import proofs.«180380_j63909113364904_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Stage6

open Cert.KernelIdeal Cert.KernelIdeal.Gen Idealize.ShloMosaic Idealize.ShloMosaic.TcCoe Idealize.SL.Sem
open Idealize.ShloMosaic.ValueIdx
open Idealize.ShloMosaic.Pipeline (Dat)

/-- The first product's left operand at output (p, q), contraction coordinate k: (p, k). -/
theorem lhs1_at (p : Fin 512) (q : Fin 64) (k : Fin 32) :
    dot_S512x32_S32x64_S512x64_1_0_0_1_n_n.lhsIdx (ix2 p q) ((contrEquiv1 dot_S512x32_S32x64_S512x64_1_0_0_1_n_n 32 rfl rfl).symm k) = ix2 p k := by
  have hk := contrEquiv1_symm_val dot_S512x32_S32x64_S512x64_1_0_0_1_n_n 32 rfl rfl k
  funext a; apply Fin.ext
  match a with
  | ⟨0, _⟩ =>
    show (dot_S512x32_S32x64_S512x64_1_0_0_1_n_n.lhsIdx (ix2 p q) _ 0).val = p.val
    unfold DotDims.lhsIdx
    rw [dif_neg (show ¬(0 : Fin S512x32.rank) ∈ dot_S512x32_S32x64_S512x64_1_0_0_1_n_n.lhsBatch by decide), dif_pos (show (0 : Fin S512x32.rank) ∈ dot_S512x32_S32x64_S512x64_1_0_0_1_n_n.lhsNonContracting by decide)]
    rfl
  | ⟨1, _⟩ => exact (dot_S512x32_S32x64_S512x64_1_0_0_1_n_n.lhsIdx_val_of_single rfl (ix2 p q) _).trans hk

/-- The first product's right operand at output (p, q), contraction coordinate k: (k, q). -/
theorem rhs1_at (p : Fin 512) (q : Fin 64) (k : Fin 32) :
    dot_S512x32_S32x64_S512x64_1_0_0_1_n_n.rhsIdx (ix2 p q) ((contrEquiv1 dot_S512x32_S32x64_S512x64_1_0_0_1_n_n 32 rfl rfl).symm k) = ix2 k q := by
  have hk := contrEquiv1_symm_val dot_S512x32_S32x64_S512x64_1_0_0_1_n_n 32 rfl rfl k
  funext a; apply Fin.ext
  match a with
  | ⟨0, _⟩ => exact (dot_S512x32_S32x64_S512x64_1_0_0_1_n_n.rhsIdx_val_of_single rfl (ix2 p q) _).trans hk
  | ⟨1, _⟩ =>
    show (dot_S512x32_S32x64_S512x64_1_0_0_1_n_n.rhsIdx (ix2 p q) _ 1).val = q.val
    unfold DotDims.rhsIdx
    rw [dif_neg (show ¬(1 : Fin S32x64.rank) ∈ dot_S512x32_S32x64_S512x64_1_0_0_1_n_n.rhsBatch by decide), dif_pos (show (1 : Fin S32x64.rank) ∈ dot_S512x32_S32x64_S512x64_1_0_0_1_n_n.rhsNonContracting by decide)]
    rfl

/-- The second product's left operand at output (p, q), contraction coordinate k: (p, k). -/
theorem lhs2_at (p : Fin 512) (q : Fin 3) (k : Fin 64) :
    dot_S512x64_S64x3_S512x3_1_0_0_1_n_n.lhsIdx (ix2 p q) ((contrEquiv1 dot_S512x64_S64x3_S512x3_1_0_0_1_n_n 64 rfl rfl).symm k) = ix2 p k := by
  have hk := contrEquiv1_symm_val dot_S512x64_S64x3_S512x3_1_0_0_1_n_n 64 rfl rfl k
  funext a; apply Fin.ext
  match a with
  | ⟨0, _⟩ =>
    show (dot_S512x64_S64x3_S512x3_1_0_0_1_n_n.lhsIdx (ix2 p q) _ 0).val = p.val
    unfold DotDims.lhsIdx
    rw [dif_neg (show ¬(0 : Fin S512x64.rank) ∈ dot_S512x64_S64x3_S512x3_1_0_0_1_n_n.lhsBatch by decide), dif_pos (show (0 : Fin S512x64.rank) ∈ dot_S512x64_S64x3_S512x3_1_0_0_1_n_n.lhsNonContracting by decide)]
    rfl
  | ⟨1, _⟩ => exact (dot_S512x64_S64x3_S512x3_1_0_0_1_n_n.lhsIdx_val_of_single rfl (ix2 p q) _).trans hk

/-- The second product's right operand at output (p, q), contraction coordinate k: (k, q). -/
theorem rhs2_at (p : Fin 512) (q : Fin 3) (k : Fin 64) :
    dot_S512x64_S64x3_S512x3_1_0_0_1_n_n.rhsIdx (ix2 p q) ((contrEquiv1 dot_S512x64_S64x3_S512x3_1_0_0_1_n_n 64 rfl rfl).symm k) = ix2 k q := by
  have hk := contrEquiv1_symm_val dot_S512x64_S64x3_S512x3_1_0_0_1_n_n 64 rfl rfl k
  funext a; apply Fin.ext
  match a with
  | ⟨0, _⟩ => exact (dot_S512x64_S64x3_S512x3_1_0_0_1_n_n.rhsIdx_val_of_single rfl (ix2 p q) _).trans hk
  | ⟨1, _⟩ =>
    show (dot_S512x64_S64x3_S512x3_1_0_0_1_n_n.rhsIdx (ix2 p q) _ 1).val = q.val
    unfold DotDims.rhsIdx
    rw [dif_neg (show ¬(1 : Fin S64x3.rank) ∈ dot_S512x64_S64x3_S512x3_1_0_0_1_n_n.rhsBatch by decide), dif_pos (show (1 : Fin S64x3.rank) ∈ dot_S512x64_S64x3_S512x3_1_0_0_1_n_n.rhsNonContracting by decide)]
    rfl

/-- The first product into a zero accumulator, at (p, q): the sum over the 32 pooled features. -/
theorem mm1_apply (x : FVec Ideal S512x32 .bf16) (w : FVec Ideal S32x64 .bf16) (p : Fin 512) (q : Fin 64) :
    matmul dot_S512x32_S32x64_S512x64_1_0_0_1_n_n none x w (constant (F := Ideal) S512x64 .f32 0x00000000#32) (ix2 p q)
      = ∑ k : Fin 32, x (ix2 p k) * w (ix2 k q) := by
  refine (Ideal.matmul_constant_zero_apply dot_S512x32_S32x64_S512x64_1_0_0_1_n_n none _ _ (ix2 p q)).trans ?_
  rw [← Equiv.sum_comp (contrEquiv1 dot_S512x32_S32x64_S512x64_1_0_0_1_n_n 32 rfl rfl).symm]
  refine Finset.sum_congr rfl fun k _ => ?_
  rw [lhs1_at p q k, rhs1_at p q k]

/-- The second product into a zero accumulator, at (p, q): the sum over the 64 hidden units. -/
theorem mm2_apply (x : FVec Ideal S512x64 .bf16) (w : FVec Ideal S64x3 .bf16) (p : Fin 512) (q : Fin 3) :
    matmul dot_S512x64_S64x3_S512x3_1_0_0_1_n_n none x w (constant (F := Ideal) S512x3 .f32 0x00000000#32) (ix2 p q)
      = ∑ k : Fin 64, x (ix2 p k) * w (ix2 k q) := by
  refine (Ideal.matmul_constant_zero_apply dot_S512x64_S64x3_S512x3_1_0_0_1_n_n none _ _ (ix2 p q)).trans ?_
  rw [← Equiv.sum_comp (contrEquiv1 dot_S512x64_S64x3_S512x3_1_0_0_1_n_n 64 rfl rfl).symm]
  refine Finset.sum_congr rfl fun k _ => ?_
  rw [lhs2_at p q k, rhs2_at p q k]

/-- A one-row array spread down 512 rows, read at (p, k): the row's entry k. -/
theorem rowSpread64_apply (x : FVec Ideal S1x64 .f32) (p : Fin 512) (k : Fin 64) :
    broadcastTo S512x64 x broadcasts_S1x64_S512x64 (ix2 p k) = x (ix2 (0 : Fin 1) k) := by
  refine broadcastTo_apply x broadcasts_S1x64_S512x64 (ix2 p k) (ix2 (0 : Fin 1) k) fun a => ?_
  match a with
  | ⟨0, _⟩ => show (0 : Nat) = if (1 : Nat) = 1 then 0 else _; rw [if_pos rfl]
  | ⟨1, _⟩ => show k.val = if (64 : Nat) = 1 then 0 else k.val; rw [if_neg (by decide)]

/-- A one-row array spread down 512 rows, read at (p, q): the row's entry q. -/
theorem rowSpread3_apply (x : FVec Ideal S1x3 .f32) (p : Fin 512) (q : Fin 3) :
    broadcastTo S512x3 x broadcasts_S1x3_S512x3 (ix2 p q) = x (ix2 (0 : Fin 1) q) := by
  refine broadcastTo_apply x broadcasts_S1x3_S512x3 (ix2 p q) (ix2 (0 : Fin 1) q) fun a => ?_
  match a with
  | ⟨0, _⟩ => show (0 : Nat) = if (1 : Nat) = 1 then 0 else _; rw [if_pos rfl]
  | ⟨1, _⟩ => show q.val = if (3 : Nat) = 1 then 0 else q.val; rw [if_neg (by decide)]

/-- A one-column array spread across 3 columns, read at (p, q): the column's entry p. -/
theorem colSpread_apply (x : FVec Ideal S512x1 .f32) (p : Fin 512) (q : Fin 3) :
    broadcastTo S512x3 x broadcasts_S512x1_S512x3 (ix2 p q) = x (ix2 p (0 : Fin 1)) := by
  refine broadcastTo_apply x broadcasts_S512x1_S512x3 (ix2 p q) (ix2 p (0 : Fin 1)) fun a => ?_
  match a with
  | ⟨0, _⟩ => show p.val = if (512 : Nat) = 1 then 0 else p.val; rw [if_neg (by decide)]
  | ⟨1, _⟩ => show (0 : Nat) = if (1 : Nat) = 1 then 0 else _; rw [if_pos rfl]

/-- A length-512 array viewed as one column, read at (p, 0): entry p. -/
theorem asColumn_apply (x : FVec Ideal S512 .f32) (p : Fin 512) :
    shapeCast S512x1 x shapeCasts_S512_S512x1 (ix2 p (0 : Fin 1)) = x (ix1 p) := by
  refine shapeCast_apply x shapeCasts_S512_S512x1 (ix2 p (0 : Fin 1)) (ix1 p) ?_
  rw [Shape.rowMajor_val_one, Shape.rowMajor_val_two]
  show p.val = p.val * 1 + 0
  omega

/-- Row p's index with column k put back is (p, k). -/
theorem lift_at (h : S512x3.Reduces [1] S512) (p : Fin 512) (k : Fin 3) : h.lift (ix1 p) k = ix2 p k := by
  funext c; apply Fin.ext
  match c with
  | ⟨0, _⟩ => rfl
  | ⟨1, _⟩ => rfl

/-- The sum along a row, at row p. -/
theorem rowSum_apply (x : FVec Ideal S512x3 .f32) (hφ : FKind.Formats .f32)
    (hacc : (0x00000000#32 : BitVec 32) = FKind.add.neutral .f32 hφ) (p : Fin 512) :
    multiReduction .add [1] S512 x 0x00000000#32 reduces_S512x3_S512 hφ hacc (ix1 p) = ∑ j : Fin 3, x (ix2 p j) := by
  refine (Ideal.multiReduction_add_single x 0x00000000#32 reduces_S512x3_S512 hφ hacc (ix1 p)).trans ?_
  exact Finset.sum_congr rfl fun k _ => congrArg x (lift_at _ p k)

/-- The bit pattern the row maximum starts from is −∞. -/
theorem ofBits_negInf : Ideal.ofBits .f32 0xFF800000#32 = (⊥ : EReal) := by simp [Ideal.ofBits, Ideal.ieee]

/-- The maximum along a row, at row p: the fold of max from −∞ over the row. -/
theorem rowMax_apply (x : FVec Ideal S512x3 .f32) (hφ : FKind.Formats .f32)
    (hacc : (0xFF800000#32 : BitVec 32) = FKind.maximumf.neutral .f32 hφ) (p : Fin 512) :
    multiReduction .maximumf [1] S512 x 0xFF800000#32 reduces_S512x3_S512 hφ hacc (ix1 p)
      = (Finset.univ : Finset (Fin 3)).fold max ⊥ (fun j => x (ix2 p j)) := by
  refine (Ideal.multiReduction_maximumf_single x 0xFF800000#32 reduces_S512x3_S512 hφ hacc (ix1 p)).trans ?_
  have hf : (x ∘ reduces_S512x3_S512.lift (ix1 p)) = fun j : Fin 3 => x (ix2 p j) := funext fun k => congrArg x (lift_at _ p k)
  rw [show FloatOps.ofBits (F := Ideal) .f32 0xFF800000#32 = (⊥ : EReal) from ofBits_negInf]
  exact congrArg (fun f => Finset.fold max (⊥ : EReal) f (Finset.univ : Finset (Fin 3))) hf

/-- The row maximum, made a column and spread back over the row, read at (p, q): row p's maximum. -/
theorem spreadMax_apply (z : FVec Ideal S512x3 .f32) (hφ : FKind.Formats .f32)
    (hm : (0xFF800000#32 : BitVec 32) = FKind.maximumf.neutral .f32 hφ) (p : Fin 512) (q : Fin 3) :
    broadcastTo S512x3 (shapeCast S512x1 (multiReduction .maximumf [1] S512 z 0xFF800000#32 reduces_S512x3_S512 hφ hm) shapeCasts_S512_S512x1) broadcasts_S512x1_S512x3 (ix2 p q)
      = Cert.Gcn.rowMax (n := 512) (c := 3) z p :=
  (colSpread_apply _ p q).trans ((asColumn_apply _ p).trans (rowMax_apply z hφ hm p))

/-- The logits minus their row maximum, as the kernel forms it, is the shifted array. -/
theorem shifted_eq (z : FVec Ideal S512x3 .f32) (hφ : FKind.Formats .f32)
    (hm : (0xFF800000#32 : BitVec 32) = FKind.maximumf.neutral .f32 hφ) :
    subf z (broadcastTo S512x3 (shapeCast S512x1 (multiReduction .maximumf [1] S512 z 0xFF800000#32 reduces_S512x3_S512 hφ hm) shapeCasts_S512_S512x1) broadcasts_S512x1_S512x3)
      = Cert.Gcn.shifted (n := 512) (c := 3) z := by
  funext j
  obtain ⟨p, q, rfl⟩ : ∃ (p : Fin 512) (q : Fin 3), j = ix2 p q := ⟨j 0, j 1, eq_ix2 j⟩
  show z (ix2 p q) - _ = z (ix2 p q) - Cert.Gcn.rowMax (n := 512) (c := 3) z p
  rw [spreadMax_apply z hφ hm p q]

/-- The logarithm of the row sum of exponentials, made a column and spread back over the row, read at (p, q). -/
theorem logSumExp_apply (s : FVec Ideal S512x3 .f32) (hφ : FKind.Formats .f32)
    (ha : (0x00000000#32 : BitVec 32) = FKind.add.neutral .f32 hφ) (p : Fin 512) (q : Fin 3) :
    broadcastTo S512x3 (log (shapeCast S512x1 (multiReduction .add [1] S512 (exp s) 0x00000000#32 reduces_S512x3_S512 hφ ha) shapeCasts_S512_S512x1)) broadcasts_S512x1_S512x3 (ix2 p q)
      = Ideal.log (∑ j : Fin 3, Ideal.exp (s (ix2 p j))) := by
  refine (colSpread_apply _ p q).trans ?_
  show Ideal.log (shapeCast S512x1 (multiReduction .add [1] S512 (exp s) 0x00000000#32 reduces_S512x3_S512 hφ ha) shapeCasts_S512_S512x1 (ix2 p (0 : Fin 1))) = _
  rw [asColumn_apply, rowSum_apply]
  rfl

/-- What the kernel does to the logits z — subtract the row maximum, then the logarithm of the row sum of
    exponentials — is the row-wise log-softmax. -/
theorem logSoftmax_eq (z : FVec Ideal S512x3 .f32) (hφ : FKind.Formats .f32)
    (hm : (0xFF800000#32 : BitVec 32) = FKind.maximumf.neutral .f32 hφ)
    (ha : (0x00000000#32 : BitVec 32) = FKind.add.neutral .f32 hφ) :
    subf (subf z (broadcastTo S512x3 (shapeCast S512x1 (multiReduction .maximumf [1] S512 z 0xFF800000#32 reduces_S512x3_S512 hφ hm) shapeCasts_S512_S512x1) broadcasts_S512x1_S512x3))
      (broadcastTo S512x3 (log (shapeCast S512x1 (multiReduction .add [1] S512 (exp (subf z (broadcastTo S512x3 (shapeCast S512x1 (multiReduction .maximumf [1] S512 z 0xFF800000#32 reduces_S512x3_S512 hφ hm) shapeCasts_S512_S512x1) broadcasts_S512x1_S512x3))) 0x00000000#32 reduces_S512x3_S512 hφ ha) shapeCasts_S512_S512x1)) broadcasts_S512x1_S512x3)
      = Cert.Gcn.logSoftmaxRows (n := 512) (c := 3) z := by
  rw [shifted_eq z hφ hm]
  funext j
  obtain ⟨p, q, rfl⟩ : ∃ (p : Fin 512) (q : Fin 3), j = ix2 p q := ⟨j 0, j 1, eq_ix2 j⟩
  show Cert.Gcn.shifted (n := 512) (c := 3) z (ix2 p q) - _ = Cert.Gcn.shifted (n := 512) (c := 3) z (ix2 p q) - Ideal.log (∑ j : Fin 3, Ideal.exp (Cert.Gcn.shifted (n := 512) (c := 3) z (ix2 p j)))
  rw [logSumExp_apply (Cert.Gcn.shifted (n := 512) (c := 3) z) hφ ha p q]

/-- The hidden layer as the kernel forms it — product into a zero accumulator, plus the bias row spread down the rows,
    rectified against zero — is the classifier's hidden layer. -/
theorem hidden_eq (v0 : Vec Ideal S512x32 .f32) (v3 : Vec Ideal S32x64 .f32) (v6 : Vec Ideal S1x64 .f32) :
    (maximumf (addf (matmul dot_S512x32_S32x64_S512x64_1_0_0_1_n_n none (truncf .bf16 (shapeCast S512x32 v0 shapeCasts_S512x32_S512x32) bitsLt_bf16_f32) (truncf .bf16 v3 bitsLt_bf16_f32) (constant (F := Ideal) S512x64 .f32 0x00000000#32))
        (broadcastTo S512x64 (shapeCast S1x64 v6 shapeCasts_S1x64_S1x64) broadcasts_S1x64_S512x64))
      (broadcast S512x64 (Scalar.ofBits (F := Ideal) .f32 0x00000000#32)) : FVec Ideal S512x64 .f32)
      = Cert.Gcn.mlpHidden (g := 512) (c := 32) (h := 64) v0 v3 v6 := by
  rw [shapeCast_self, shapeCast_self]
  funext j
  obtain ⟨p, k, rfl⟩ : ∃ (p : Fin 512) (k : Fin 64), j = ix2 p k := ⟨j 0, j 1, eq_ix2 j⟩
  show max (matmul dot_S512x32_S32x64_S512x64_1_0_0_1_n_n none (truncf .bf16 v0 bitsLt_bf16_f32) (truncf .bf16 v3 bitsLt_bf16_f32) (constant (F := Ideal) S512x64 .f32 0x00000000#32) (ix2 p k)
      + broadcastTo S512x64 v6 broadcasts_S1x64_S512x64 (ix2 p k)) (Ideal.ofBits .f32 0x00000000#32)
    = max ((∑ q : Fin 32, v0 (ix2 p q) * v3 (ix2 q k)) + v6 (ix2 (0 : Fin 1) k)) 0
  rw [mm1_apply, rowSpread64_apply, Ideal.ofBits_zero_f32]
  rfl

/-- The logits as the kernel forms them from a hidden layer h: product into a zero accumulator plus the bias row. -/
theorem logits_apply (h : FVec Ideal S512x64 .f32) (v13 : Vec Ideal S64x3 .f32) (v16 : Vec Ideal S1x3 .f32) (p : Fin 512) (q : Fin 3) :
    (addf (matmul dot_S512x64_S64x3_S512x3_1_0_0_1_n_n none (truncf .bf16 h bitsLt_bf16_f32) (truncf .bf16 v13 bitsLt_bf16_f32) (constant (F := Ideal) S512x3 .f32 0x00000000#32))
        (broadcastTo S512x3 (shapeCast S1x3 v16 shapeCasts_S1x3_S1x3) broadcasts_S1x3_S512x3) : FVec Ideal S512x3 .f32) (ix2 p q)
      = (∑ k : Fin 64, h (ix2 p k) * v13 (ix2 k q)) + v16 (ix2 (0 : Fin 1) q) := by
  rw [shapeCast_self]
  show matmul dot_S512x64_S64x3_S512x3_1_0_0_1_n_n none (truncf .bf16 h bitsLt_bf16_f32) (truncf .bf16 v13 bitsLt_bf16_f32) (constant (F := Ideal) S512x3 .f32 0x00000000#32) (ix2 p q)
      + broadcastTo S512x3 v16 broadcasts_S1x3_S512x3 (ix2 p q) = _
  rw [mm2_apply, rowSpread3_apply]
  rfl

/-- THE STORED VALUE: the launch's body stores the row-wise log-softmax of the classifier's logits of its five blocks. -/
theorem pay_eq (v0 : Vec Ideal S512x32 .f32) (v3 : Vec Ideal S32x64 .f32) (v6 : Vec Ideal S1x64 .f32) (v13 : Vec Ideal S64x3 .f32) (v16 : Vec Ideal S1x3 .f32) :
    k6_pay1 v0 v3 v6 v13 v16 = Cert.Gcn.logSoftmaxRows (Cert.Gcn.mlpLogits (g := 512) (c := 32) (h := 64) (o := 3) v0 v3 v6 v13 v16) := by
  unfold k6_pay1
  refine (logSoftmax_eq _ (.inl rfl) rfl rfl).trans ?_
  refine congrArg (Cert.Gcn.logSoftmaxRows (n := 512) (c := 3)) ?_
  rw [hidden_eq v0 v3 v6]
  funext j
  obtain ⟨p, q, rfl⟩ : ∃ (p : Fin 512) (q : Fin 3), j = ix2 p q := ⟨j 0, j 1, eq_ix2 j⟩
  refine (logits_apply _ v13 v16 p q).trans ?_
  rfl

theorem hz : (![0, 0] : Fin 2 → Nat) = fun _ => 0 := funext fun a => by fin_cases a <;> rfl

/-- Every window of the launch is one whole block: at the one grid point each block index is 0 on both axes. -/
theorem idx_facts : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

variable (V : (c : Dev nD) → (b : Ref sig .tc) → Buf (Elt Ideal) ((c : Thread nD τ).loc b))

/-- What the one grid point writes back is the (one, whole) block of the row-wise log-softmax of the classifier's
    logits of the five arrays as the launch finds them. -/
theorem flushed_eq (c : Dev nD) (t : Fin cfg6.N) :
    (dat6 V c).flushed 5 t = ((cfg6.win 5).blk t).view.read (Elt Ideal)
      (Cert.Gcn.logSoftmaxRows (Cert.Gcn.mlpLogits (g := 512) (c := 32) (h := 64) (o := 3) (V c main_v68) (V c main_arg7) (V c main_v69) (V c main_arg9) (V c main_v70))) := by
  show (cfg6.win 5).cut (grid6.coords t) ((dat6 V c).after 5 t) = _
  rw [after6_5]
  unfold out6_5
  rw [View.canon_unit_zero hz]
  simp only [View.ld_unit_zero (S := S512x32) hz, View.ld_unit_zero (S := S32x64) hz, View.ld_unit_zero (S := S1x64) hz,
    View.ld_unit_zero (S := S64x3) hz, View.ld_unit_zero (S := S1x3) hz]
  obtain ⟨a0, a1, b0, b1, c0, c1, d0, d1, e0, e1, f0, f1⟩ := idx_facts t
  have h0 : (iblk6 V c 0 t : S512x32.Idx → EReal) = V c main_v68 := by
    funext y
    show V c main_v68 (((cfg6.win 0).blk t).view.emb y) = V c main_v68 y
    refine congrArg (V c main_v68) ?_
    funext a; apply Fin.ext
    match a with
    | ⟨0, _⟩ => show win6_0.index t (0 : Fin 2) * 512 + 1 * (y 0).val = (y 0).val; omega
    | ⟨1, _⟩ => show win6_0.index t (1 : Fin 2) * 32 + 1 * (y 1).val = (y 1).val; omega
  have h1 : (iblk6 V c 1 t : S32x64.Idx → EReal) = V c main_arg7 := by
    funext y
    show V c main_arg7 (((cfg6.win 1).blk t).view.emb y) = V c main_arg7 y
    refine congrArg (V c main_arg7) ?_
    funext a; apply Fin.ext
    match a with
    | ⟨0, _⟩ => show win6_1.index t (0 : Fin 2) * 32 + 1 * (y 0).val = (y 0).val; omega
    | ⟨1, _⟩ => show win6_1.index t (1 : Fin 2) * 64 + 1 * (y 1).val = (y 1).val; omega
  have h2 : (iblk6 V c 2 t : S1x64.Idx → EReal) = V c main_v69 := by
    funext y
    show V c main_v69 (((cfg6.win 2).blk t).view.emb y) = V c main_v69 y
    refine congrArg (V c main_v69) ?_
    funext a; apply Fin.ext
    match a with
    | ⟨0, _⟩ => show win6_2.index t (0 : Fin 2) * 1 + 1 * (y 0).val = (y 0).val; omega
    | ⟨1, _⟩ => show win6_2.index t (1 : Fin 2) * 64 + 1 * (y 1).val = (y 1).val; omega
  have h3 : (iblk6 V c 3 t : S64x3.Idx → EReal) = V c main_arg9 := by
    funext y
    show V c main_arg9 (((cfg6.win 3).blk t).view.emb y) = V c main_arg9 y
    refine congrArg (V c main_arg9) ?_
    funext a; apply Fin.ext
    match a with
    | ⟨0, _⟩ => show win6_3.index t (0 : Fin 2) * 64 + 1 * (y 0).val = (y 0).val; omega
    | ⟨1, _⟩ => show win6_3.index t (1 : Fin 2) * 3 + 1 * (y 1).val = (y 1).val; omega
  have h4 : (iblk6 V c 4 t : S1x3.Idx → EReal) = V c main_v70 := by
    funext y
    show V c main_v70 (((cfg6.win 4).blk t).view.emb y) = V c main_v70 y
    refine congrArg (V c main_v70) ?_
    funext a; apply Fin.ext
    match a with
    | ⟨0, _⟩ => show win6_4.index t (0 : Fin 2) * 1 + 1 * (y 0).val = (y 0).val; omega
    | ⟨1, _⟩ => show win6_4.index t (1 : Fin 2) * 3 + 1 * (y 1).val = (y 1).val; omega
  funext j
  obtain ⟨p, q, rfl⟩ : ∃ (p : Fin 512) (q : Fin 3), j = ix2 p q := ⟨j 0, j 1, eq_ix2 j⟩
  show k6_pay1 (iblk6 V c 0 t) (iblk6 V c 1 t) (iblk6 V c 2 t) (iblk6 V c 3 t) (iblk6 V c 4 t) (ix2 p q)
    = Cert.Gcn.logSoftmaxRows (Cert.Gcn.mlpLogits (g := 512) (c := 32) (h := 64) (o := 3) (V c main_v68) (V c main_arg7) (V c main_v69) (V c main_arg9) (V c main_v70)) (((cfg6.win 5).blk t).view.emb (ix2 p q))
  have e : ((cfg6.win 5).blk t).view.emb (ix2 p q) = ix2 p q := by
    funext a; apply Fin.ext
    match a with
    | ⟨0, _⟩ => show win6_5.index t (0 : Fin 2) * 512 + 1 * p.val = p.val; omega
    | ⟨1, _⟩ => show win6_5.index t (1 : Fin 2) * 3 + 1 * q.val = q.val; omega
  refine (congrFun (pay_eq _ _ _ _ _) (ix2 p q)).trans ?_
  rw [e, h0, h1, h2, h3, h4]

/-- An index of the output array is in the grid point's block iff each coordinate is in the block's range on its axis. -/
theorem mem_blk (t : Fin cfg6.N) (i : S512x3.Idx) :
    i ∈ ((cfg6.win 5).blk t).view.set ↔ ∀ a : Fin 2, win6_5.index t a * S512x3.size a ≤ (i a).val ∧ (i a).val < win6_5.index t a * S512x3.size a + S512x3.size a := by
  show i ∈ ((View.whole main_v71).slice (win6_5.rect t)).set ↔ _
  rw [View.set_slice_whole, Rect.mem_set_unit]
  exact Iff.rfl

/-- The one grid point's block is the whole output array. -/
theorem cover (i : S512x3.Idx) :
    ∃ t : Fin cfg6.N, (cfg6.win 5).flush t = true ∧ i ∈ ((cfg6.win 5).blk t).view.set := by
  have hi0 : (i 0).val < 512 := (i 0).isLt
  have hi1 : (i 1).val < 3 := (i 1).isLt
  obtain ⟨a0, a1, b0, b1, c0, c1, d0, d1, e0, e1, f0, f1⟩ := idx_facts t6_0
  refine ⟨t6_0, flush6_5 t6_0, ?_⟩
  rw [mem_blk]
  intro a
  match a with
  | ⟨0, _⟩ => show win6_5.index t6_0 (0 : Fin 2) * 512 ≤ (i 0).val ∧ (i 0).val < win6_5.index t6_0 (0 : Fin 2) * 512 + 512; omega
  | ⟨1, _⟩ => show win6_5.index t6_0 (1 : Fin 2) * 3 ≤ (i 1).val ∧ (i 1).val < win6_5.index t6_0 (1 : Fin 2) * 3 + 3; omega

/-- THE ARRAY the launch leaves: the row-wise log-softmax of the classifier's logits — pooled features times the first
    weights plus the first bias, rectified, times the second weights plus the second bias — of the arrays it found. -/
theorem final (c : Dev nD) :
    (dat6 V c).arrAt 5 cfg6.N = Cert.Gcn.logSoftmaxRows (Cert.Gcn.mlpLogits (g := 512) (c := 32) (h := 64) (o := 3) (V c main_v68) (V c main_arg7) (V c main_v69) (V c main_arg9) (V c main_v70)) :=
  (dat6 V c).arrAt_eq_of_cover 5 _ (fun t _ => flushed_eq V c t) cover

end Cert.KernelIdeal.Stage6

end
-- ==== Proof.RefClassifier.lean ====
/-
  The reference's classifier, read on the extended reals. Its last ten operations take the pooled features P [512, 32],
  the first weights w1 [32, 64] and bias b1 [64], the second weights w2 [64, 3] and bias b2 [3], and compute
      hidden (p, k) = max (∑ j, P (p, j) · w1 (j, k) + b1 k, 0),
      logit  (p, q) = ∑ k, hidden (p, k) · w2 (k, q) + b2 q,
      out    (p, q) = (logit (p, q) − m p) − log (0 + ∑ r, exp (logit (p, r) − m p)),   m p = max (−∞, the maximum of row p),
  each bias first made a one-row array and spread down the rows, each per-row value made a one-column array and spread
  across the columns. Since max (−∞, x) = x and 0 + s = s, this is the row-wise log-softmax of the classifier's logits,
  with the biases carried as one-row arrays. The row maximum is a reduction with a maximum body from −∞ along a row: a
  fold of max over the row's three entries.
-/
import proofs.«180380_j63909113364904_2_alg».proof.Proof.Gen.ReferenceIdeal.Read
import proofs.«180380_j63909113364904_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.Stage

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

/-- The bit pattern the row maximum starts from is −∞. -/
theorem ofBits_negInf : Ideal.ofBits .f32 0xFF800000#32 = (⊥ : EReal) := by simp [Ideal.ofBits, Ideal.ieee]

/-- Row p's index with column k put back is (p, k). -/
theorem lift_at (h : S512x3.Reduces [1] S512) (p : Fin 512) (k : Fin 3) : h.lift (ix1 p) k = ix2 p k := by
  funext c; apply Fin.ext
  match c with
  | ⟨0, _⟩ => rfl
  | ⟨1, _⟩ => rfl

/-- The reduction with a maximum body along a row, from −∞, at row p: the row's maximum. -/
theorem rowMax_ref (z : FVec Ideal S512x3 .f32) (p : Fin 512) :
    Host.reduce FloatOps.maximumf z (val_main_call3_cst (F := Ideal)) reducesTo_S512x3_S512_d1 h_S_ (ix1 p)
      = Cert.Gcn.rowMax (n := 512) (c := 3) z p := by
  have hR : S512x3.Reduces [1] S512 := by decide
  refine (Host.reduce_eq_fold_single FloatOps.maximumf z _ reducesTo_S512x3_S512_d1 hR h_S_ (ix1 p)).trans ?_
  show Finset.fold max (Ideal.ofBits .f32 0xFF800000#32) (z ∘ hR.lift (ix1 p)) (Finset.univ : Finset (Fin 3))
    = Finset.fold max (⊥ : EReal) (fun j : Fin 3 => z (ix2 p j)) (Finset.univ : Finset (Fin 3))
  rw [ofBits_negInf]
  exact congrArg (fun f => Finset.fold max (⊥ : EReal) f (Finset.univ : Finset (Fin 3))) (funext fun k => congrArg z (lift_at hR p k))

/-- The hidden layer: the product with the first weights, plus the first bias spread down the rows, rectified. -/
theorem hidden_ref (x0 : (⟨S500000x3, .f32⟩ : BufTy).Contents (Elt Ideal)) (x1 : (⟨S2x8000000, .i32⟩ : BufTy).Contents (Elt Ideal)) (x2 : (⟨S500000, .i32⟩ : BufTy).Contents (Elt Ideal)) (x3 : (⟨S3x16, .f32⟩ : BufTy).Contents (Elt Ideal)) (x4 : (⟨S16, .f32⟩ : BufTy).Contents (Elt Ideal)) (x5 : (⟨S16x32, .f32⟩ : BufTy).Contents (Elt Ideal)) (x6 : (⟨S32, .f32⟩ : BufTy).Contents (Elt Ideal)) (x7 : (⟨S32x64, .f32⟩ : BufTy).Contents (Elt Ideal)) (x8 : (⟨S64, .f32⟩ : BufTy).Contents (Elt Ideal)) :
    val_main_v114 (F := Ideal) x0 x1 x2 x3 x4 x5 x6 x7 x8 = Cert.Gcn.mlpHidden (g := 512) (c := 32) (h := 64) (val_main_v109 (F := Ideal) x0 x1 x2 x3 x4 x5 x6) x7 (Cert.Gcn.rowOf x8) := by
  funext i
  obtain ⟨p, k, rfl⟩ : ∃ (p : Fin 512) (k : Fin 64), i = ix2 p k := ⟨i 0, i 1, eq_ix2 i⟩
  rw [val_main_v114_apply, val_main_v113_apply, val_main_v110_apply, val_main_v112_apply, val_main_v111_apply, val_main_call2_v0_apply, val_main_call2_cst_apply]
  generalize val_main_v109 (F := Ideal) x0 x1 x2 x3 x4 x5 x6 = P
  have el : ∀ j : Fin 32, lidx_main_v110 (ix2 p k) j = ix2 p j := fun j => funext fun a => Fin.ext (by match a with | ⟨0, _⟩ => rfl | ⟨1, _⟩ => rfl)
  have er : ∀ j : Fin 32, ridx_main_v110 (ix2 p k) j = ix2 j k := fun j => funext fun a => Fin.ext (by match a with | ⟨0, _⟩ => rfl | ⟨1, _⟩ => rfl)
  have eb : idx_main_v111 (idx_main_v112 (ix2 p k)) = ix1 k := funext fun a => Fin.ext (by match a with | ⟨0, _⟩ => rfl)
  simp only [el, er, eb]
  show max ((∑ j : Fin 32, P (ix2 p j) * x7 (ix2 j k)) + x8 (ix1 k)) (Ideal.ofBits .f32 0x00000000#32) = max ((∑ j : Fin 32, P (ix2 p j) * x7 (ix2 j k)) + x8 (ix1 k)) 0
  rw [Ideal.ofBits_zero_f32]

/-- The logits: the product of the hidden layer with the second weights, plus the second bias spread down the rows. -/
theorem logits_ref (x0 : (⟨S500000x3, .f32⟩ : BufTy).Contents (Elt Ideal)) (x1 : (⟨S2x8000000, .i32⟩ : BufTy).Contents (Elt Ideal)) (x2 : (⟨S500000, .i32⟩ : BufTy).Contents (Elt Ideal)) (x3 : (⟨S3x16, .f32⟩ : BufTy).Contents (Elt Ideal)) (x4 : (⟨S16, .f32⟩ : BufTy).Contents (Elt Ideal)) (x5 : (⟨S16x32, .f32⟩ : BufTy).Contents (Elt Ideal)) (x6 : (⟨S32, .f32⟩ : BufTy).Contents (Elt Ideal)) (x7 : (⟨S32x64, .f32⟩ : BufTy).Contents (Elt Ideal)) (x8 : (⟨S64, .f32⟩ : BufTy).Contents (Elt Ideal)) (x9 : (⟨S64x3, .f32⟩ : BufTy).Contents (Elt Ideal)) (x10 : (⟨S3, .f32⟩ : BufTy).Contents (Elt Ideal)) :
    val_main_v118 (F := Ideal) x0 x1 x2 x3 x4 x5 x6 x7 x8 x9 x10 = Cert.Gcn.mlpLogits (g := 512) (c := 32) (h := 64) (o := 3) (val_main_v109 (F := Ideal) x0 x1 x2 x3 x4 x5 x6) x7 (Cert.Gcn.rowOf x8) x9 (Cert.Gcn.rowOf x10) := by
  funext i
  obtain ⟨p, q, rfl⟩ : ∃ (p : Fin 512) (q : Fin 3), i = ix2 p q := ⟨i 0, i 1, eq_ix2 i⟩
  rw [val_main_v118_apply, val_main_v115_apply, val_main_v117_apply, val_main_v116_apply, hidden_ref]
  generalize val_main_v109 (F := Ideal) x0 x1 x2 x3 x4 x5 x6 = P
  have el : ∀ j : Fin 64, lidx_main_v115 (ix2 p q) j = ix2 p j := fun j => funext fun a => Fin.ext (by match a with | ⟨0, _⟩ => rfl | ⟨1, _⟩ => rfl)
  have er : ∀ j : Fin 64, ridx_main_v115 (ix2 p q) j = ix2 j q := fun j => funext fun a => Fin.ext (by match a with | ⟨0, _⟩ => rfl | ⟨1, _⟩ => rfl)
  have eb : idx_main_v116 (idx_main_v117 (ix2 p q)) = ix1 q := funext fun a => Fin.ext (by match a with | ⟨0, _⟩ => rfl)
  simp only [el, er, eb]
  show (∑ j : Fin 64, Cert.Gcn.mlpHidden (g := 512) (c := 32) (h := 64) P x7 (Cert.Gcn.rowOf x8) (ix2 p j) * x9 (ix2 j q)) + x10 (ix1 q)
    = (∑ j : Fin 64, Cert.Gcn.mlpHidden (g := 512) (c := 32) (h := 64) P x7 (Cert.Gcn.rowOf x8) (ix2 p j) * x9 (ix2 j q)) + x10 (ix1 q)
  rfl

/-- The logits minus their row maximum (the maximum taken once more against −∞, which changes nothing). -/
theorem shifted_ref (x0 : (⟨S500000x3, .f32⟩ : BufTy).Contents (Elt Ideal)) (x1 : (⟨S2x8000000, .i32⟩ : BufTy).Contents (Elt Ideal)) (x2 : (⟨S500000, .i32⟩ : BufTy).Contents (Elt Ideal)) (x3 : (⟨S3x16, .f32⟩ : BufTy).Contents (Elt Ideal)) (x4 : (⟨S16, .f32⟩ : BufTy).Contents (Elt Ideal)) (x5 : (⟨S16x32, .f32⟩ : BufTy).Contents (Elt Ideal)) (x6 : (⟨S32, .f32⟩ : BufTy).Contents (Elt Ideal)) (x7 : (⟨S32x64, .f32⟩ : BufTy).Contents (Elt Ideal)) (x8 : (⟨S64, .f32⟩ : BufTy).Contents (Elt Ideal)) (x9 : (⟨S64x3, .f32⟩ : BufTy).Contents (Elt Ideal)) (x10 : (⟨S3, .f32⟩ : BufTy).Contents (Elt Ideal)) :
    val_main_call3_v5 (F := Ideal) x0 x1 x2 x3 x4 x5 x6 x7 x8 x9 x10 = Cert.Gcn.shifted (n := 512) (c := 3) (val_main_v118 (F := Ideal) x0 x1 x2 x3 x4 x5 x6 x7 x8 x9 x10) := by
  funext i
  obtain ⟨p, q, rfl⟩ : ∃ (p : Fin 512) (q : Fin 3), i = ix2 p q := ⟨i 0, i 1, eq_ix2 i⟩
  rw [val_main_call3_v5_apply, val_main_call3_v4_apply, val_main_call3_v3_apply, val_main_call3_v2_apply, val_main_call3_v1_apply, val_main_call3_cst_0_apply]
  unfold val_main_call3_v0
  generalize val_main_v118 (F := Ideal) x0 x1 x2 x3 x4 x5 x6 x7 x8 x9 x10 = Z
  have ei : idx_main_call3_v3 (idx_main_call3_v4 (ix2 p q)) = ix1 p := funext fun a => Fin.ext (by match a with | ⟨0, _⟩ => rfl)
  rw [ei, rowMax_ref Z p]
  show Z (ix2 p q) - max (Ideal.ofBits .f32 0xFF800000#32) (Cert.Gcn.rowMax (n := 512) (c := 3) Z p) = Z (ix2 p q) - Cert.Gcn.rowMax (n := 512) (c := 3) Z p
  rw [ofBits_negInf, max_bot_left]

/-- THE REFERENCE'S CLASSIFIER: its last ten operations — two products with biases, the rectifier, and the
    log-softmax computed the stable way — are the row-wise log-softmax of the classifier's logits of the pooled features. -/
theorem classifier_eq (x0 : (⟨S500000x3, .f32⟩ : BufTy).Contents (Elt Ideal)) (x1 : (⟨S2x8000000, .i32⟩ : BufTy).Contents (Elt Ideal)) (x2 : (⟨S500000, .i32⟩ : BufTy).Contents (Elt Ideal)) (x3 : (⟨S3x16, .f32⟩ : BufTy).Contents (Elt Ideal)) (x4 : (⟨S16, .f32⟩ : BufTy).Contents (Elt Ideal)) (x5 : (⟨S16x32, .f32⟩ : BufTy).Contents (Elt Ideal)) (x6 : (⟨S32, .f32⟩ : BufTy).Contents (Elt Ideal)) (x7 : (⟨S32x64, .f32⟩ : BufTy).Contents (Elt Ideal)) (x8 : (⟨S64, .f32⟩ : BufTy).Contents (Elt Ideal)) (x9 : (⟨S64x3, .f32⟩ : BufTy).Contents (Elt Ideal)) (x10 : (⟨S3, .f32⟩ : BufTy).Contents (Elt Ideal)) :
    val_main_v119 (F := Ideal) x0 x1 x2 x3 x4 x5 x6 x7 x8 x9 x10 = Cert.Gcn.logSoftmaxRows (Cert.Gcn.mlpLogits (g := 512) (c := 32) (h := 64) (o := 3) (val_main_v109 (F := Ideal) x0 x1 x2 x3 x4 x5 x6) x7 (Cert.Gcn.rowOf x8) x9 (Cert.Gcn.rowOf x10)) := by
  funext i
  obtain ⟨p, q, rfl⟩ : ∃ (p : Fin 512) (q : Fin 3), i = ix2 p q := ⟨i 0, i 1, eq_ix2 i⟩
  rw [val_main_v119_apply, val_main_call3_v10_apply, val_main_call3_v9_apply, val_main_call3_v8_apply, val_main_call3_v7_apply, val_main_call3_cst_1_apply]
  simp only [val_main_call3_v6_apply]
  rw [shifted_ref, logits_ref]
  generalize Cert.Gcn.mlpLogits (g := 512) (c := 32) (h := 64) (o := 3) (val_main_v109 (F := Ideal) x0 x1 x2 x3 x4 x5 x6) x7 (Cert.Gcn.rowOf x8) x9 (Cert.Gcn.rowOf x10) = Z
  have ei : ∀ j : Fin 3, idx_main_call3_v7 (idx_main_call3_v8 (idx_main_call3_v10 (ix2 p q))) j = ix2 p j := fun j => funext fun a => Fin.ext (by match a with | ⟨0, _⟩ => rfl | ⟨1, _⟩ => rfl)
  simp only [ei]
  show Cert.Gcn.shifted (n := 512) (c := 3) Z (ix2 p q) - Ideal.log (Ideal.ofBits .f32 0x00000000#32 + ∑ j : Fin 3, Ideal.exp (Cert.Gcn.shifted (n := 512) (c := 3) Z (ix2 p j)))
    = Cert.Gcn.shifted (n := 512) (c := 3) Z (ix2 p q) - Ideal.log (∑ j : Fin 3, Ideal.exp (Cert.Gcn.shifted (n := 512) (c := 3) Z (ix2 p j)))
  rw [Ideal.ofBits_zero_f32, zero_add]

end Cert.ReferenceIdeal.Stage

end
-- ==== Proof.ChainC.lean ====
/-
  Pooling and the classifier, against the reference: the host sums the second layer's output per graph, divides
  by the graph's node count (at least one), and the last launch applies the two-layer classifier and the row-wise
  log-softmax. The kernel program's result buffer ends holding the reference's result as a function of the
  arguments.
-/
import proofs.«180380_j63909113364904_2_alg».proof.Proof.Gen.KernelIdeal.Frame
import proofs.«180380_j63909113364904_2_alg».proof.Proof.Gen.ReferenceIdeal.Read
import proofs.«180380_j63909113364904_2_alg».proof.Proof.Spec
import proofs.«180380_j63909113364904_2_alg».proof.Proof.SpecLayout
import proofs.«180380_j63909113364904_2_alg».proof.Proof.Passes
import proofs.«180380_j63909113364904_2_alg».proof.Proof.ChainA1
import proofs.«180380_j63909113364904_2_alg».proof.Proof.ChainA2
import proofs.«180380_j63909113364904_2_alg».proof.Proof.ChainB
import proofs.«180380_j63909113364904_2_alg».proof.Proof.Classifier6
import proofs.«180380_j63909113364904_2_alg».proof.Proof.RefClassifier
import Idealize.ShloMosaic.Lib.StableHlo.Run

set_option maxRecDepth 16384

noncomputable section

namespace Cert.KernelIdeal.Result

open Cert.KernelIdeal Cert.KernelIdeal.Gen Cert.ReferenceIdeal.Read
open Idealize.ShloMosaic Idealize.ShloMosaic.TcCoe Idealize.SL.Sem
open Idealize.ShloMosaic.Pipeline (Dat)

variable (m : (ℓ : Loc nD τ sig) → Buf (Elt Ideal) ℓ) (ρ : Dev nD → PrngReg) (c : Dev nD)

set_option maxHeartbeats 1000000 in
/-- The pooled features: per-graph sums over per-graph counts. The quotient's two operands are compared one at a
    time: each is the same host operations on both sides. -/
theorem pooled_12 : W12 m ρ c (Proc.devRef .tc main_v68) = val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps6 (W11 m ρ c) (Proc.devRef .tc main_v68) = _
  after_results
  rw [out2_11, pass_main_arg2_0_11, W0_eq]
  unfold val_main_v109
  refine congrArg₂ _ ?_ ?_
  · rfl
  · rfl

/-- The classifier's first bias as a row. -/
theorem b1_12 : W12 m ρ c (Proc.devRef .tc main_v69) = Cert.Gcn.rowOf (m ((c : Thread nD τ).loc main_arg8)) := by
  show StableHlo.after hostOps6 (W11 m ρ c) (Proc.devRef .tc main_v69) = _
  after_results
  rw [pass_main_arg8_0_11]
  exact Cert.Gcn.shapeCast_row (n := 64) _ _

/-- The classifier's second bias as a row. -/
theorem b2_12 : W12 m ρ c (Proc.devRef .tc main_v70) = Cert.Gcn.rowOf (m ((c : Thread nD τ).loc main_arg10)) := by
  show StableHlo.after hostOps6 (W11 m ρ c) (Proc.devRef .tc main_v70) = _
  after_results
  rw [pass_main_arg10_0_11]
  exact Cert.Gcn.shapeCast_row (n := 3) _ _

/-- THE RESULT: what the kernel program leaves in its result buffer is the reference's result term at the
    kernel program's own arguments. -/
theorem result_13 : W13 m ρ c (Proc.devRef .tc main_v71) = val_main_v119 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W13_arr m ρ c 5).trans ((Cert.KernelIdeal.Stage6.final (V12 m ρ) c).trans ?_)
  show Cert.Gcn.logSoftmaxRows (Cert.Gcn.mlpLogits (W12 m ρ c (Proc.devRef .tc main_v68)) (W12 m ρ c (Proc.devRef .tc main_arg7)) (W12 m ρ c (Proc.devRef .tc main_v69)) (W12 m ρ c (Proc.devRef .tc main_arg9)) (W12 m ρ c (Proc.devRef .tc main_v70))) = _
  rw [pooled_12, pass_main_arg7_0_12, b1_12, pass_main_arg9_0_12, b2_12]
  exact (Cert.ReferenceIdeal.Stage.classifier_eq _ _ _ _ _ _ _ _ _ _ _).symm

end Cert.KernelIdeal.Result

end
-- ==== Proof.lean ====
/-
  A two-layer graph convolution network (symmetric normalisation with self loops), mean pooling per graph, a
  two-layer classifier and a row-wise log-softmax, written as seven kernel launches among host gathers and
  scatter-adds, against the same network written with array operations only.

  On the extended reals the two programs compute the same function of their arguments, stage by stage: each
  matrix-product launch leaves the matrix product the reference's dot_general computes (rounding the operands to
  a shorter format is the identity there, and a sum does not depend on how it is blocked); each per-edge launch
  leaves (d_src · d_dst) · h_src, the reference's product of the broadcast normalisation with the gathered rows;
  each combine launch leaves max (agg + d² · h + b, 0); and the last launch leaves the classifier's logits minus
  their row maximum minus the logarithm of the row sum of exponentials, which is how the reference's log-softmax is
  computed. The gathers, scatter-adds, the reciprocal square root, the pooling quotient are the same host operations
  in both programs, applied to equal operands, so they are never opened. No law used needs finiteness: the
  precondition is not opened.

  The three frames: each kernel program's is its generated frame; the reference has no kernel, and its frame is its
  generated run with the result dropped. The idealization rewrote nothing, so `preserves` is `True`.
-/
import proofs.«180380_j63909113364904_2_alg».proof.Defs
import proofs.«180380_j63909113364904_2_alg».proof.Proof.Gen.Kernel
import proofs.«180380_j63909113364904_2_alg».proof.Proof.Gen.Kernel.Frame
import proofs.«180380_j63909113364904_2_alg».proof.Proof.Gen.KernelIdeal
import proofs.«180380_j63909113364904_2_alg».proof.Proof.Gen.KernelIdeal.Frame
import proofs.«180380_j63909113364904_2_alg».proof.Proof.Gen.ReferenceIdeal
import proofs.«180380_j63909113364904_2_alg».proof.Proof.Gen.Pre_finite_inputs
import proofs.«180380_j63909113364904_2_alg».proof.Proof.Gen.ReferenceIdeal.Run
import proofs.«180380_j63909113364904_2_alg».proof.Proof.Gen.ReferenceIdeal.Read
import proofs.«180380_j63909113364904_2_alg».proof.Proof.KernelRun
import proofs.«180380_j63909113364904_2_alg».proof.Proof.ChainC
import Idealize.ShloMosaic.Adequacy
import Idealize.ShloMosaic.Init

set_option maxRecDepth 16384

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel program runs and leaves its arguments alone. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and leaves its arguments alone: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same result: the kernel program's result
    buffer holds the reference's result term at the kernel program's arguments, and the reference's holds it at its
    own, which are the same arrays. -/
theorem algebraic : Cert.algebraic_KernelIdeal_ReferenceIdeal := by
  intro m ρ m' ρ' _ hagree
  refine ⟨fun c => Cert.ReferenceIdeal.Read.val_main_v119 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Result.result_13 m ρ c), (h c).2⟩)
      (Cert.KernelIdeal.Result.run_result m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v119_eq]
    obtain ⟨e0, e1, e2, e3, e4, e5, e6, e7, e8, e9, e10⟩ := hagree c
    rw [e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
